-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S64x64 .f32) (main_arg20 : FVec F S64 .f32) (main_arg21 : FVec F S64x1 .f32) (main_arg22 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S64x64 .f32 := Host.absf main_arg19
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg21
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S64x64 .f32) (main_arg16 : FVec F S64 .f32) (main_arg17 : FVec F S64x1 .f32) (main_arg18 : FVec F S1 .f32) (main_arg19 : FVec F S64x64 .f32) (main_arg20 : FVec F S64 .f32) (main_arg21 : FVec F S64x1 .f32) (main_arg22 : FVec F S1 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg17
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S128 .f32) (main_arg13 : FVec F S64 .f32) (main_arg14 : FVec F S64 .f32) (main_arg15 : FVec F S64x64 .f32) (main_arg16 : FVec F S64 .f32) (main_arg17 : FVec F S64x1 .f32) (main_arg18 : FVec F S1 .f32) (main_arg19 : FVec F S64x64 .f32) (main_arg20 : FVec F S64 .f32) (main_arg21 : FVec F S64x1 .f32) (main_arg22 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S64 .f32) (main_arg9 : FVec F S128 .f32) (main_arg10 : FVec F S128 .f32) (main_arg11 : FVec F S128 .f32) (main_arg12 : FVec F S128 .f32) (main_arg13 : FVec F S64 .f32) (main_arg14 : FVec F S64 .f32) (main_arg15 : FVec F S64x64 .f32) (main_arg16 : FVec F S64 .f32) (main_arg17 : FVec F S64x1 .f32) (main_arg18 : FVec F S1 .f32) (main_arg19 : FVec F S64x64 .f32) (main_arg20 : FVec F S64 .f32) (main_arg21 : FVec F S64x1 .f32) (main_arg22 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S128x128 .f32) (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) (main_arg13 : FVec F S64 .f32) (main_arg14 : FVec F S64 .f32) (main_arg15 : FVec F S64x64 .f32) (main_arg16 : FVec F S64 .f32) (main_arg17 : FVec F S64x1 .f32) (main_arg18 : FVec F S1 .f32) (main_arg19 : FVec F S64x64 .f32) (main_arg20 : FVec F S64 .f32) (main_arg21 : FVec F S64x1 .f32) (main_arg22 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x64 .f32) (main_arg1 : IVec S2x1600000 32) (main_arg2 : FVec F S1600000 .f32) (main_arg3 : FVec F S64x128 .f32) (main_arg4 : FVec F S128 .f32) (main_arg5 : FVec F S128x128 .f32) (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) (main_arg13 : FVec F S64 .f32) (main_arg14 : FVec F S64 .f32) (main_arg15 : FVec F S64x64 .f32) (main_arg16 : FVec F S64 .f32) (main_arg17 : FVec F S64x1 .f32) (main_arg18 : FVec F S1 .f32) (main_arg19 : FVec F S64x64 .f32) (main_arg20 : FVec F S64 .f32) (main_arg21 : FVec F S64x1 .f32) (main_arg22 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x64 : Shape := ⟨2, ![50000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x64 : Shape := ⟨2, ![5000, 64]⟩
abbrev S5000x128 : Shape := ⟨2, ![5000, 128]⟩
abbrev S1650000x128 : Shape := ⟨2, ![1650000, 128]⟩
abbrev S1x128 : Shape := ⟨2, ![1, 128]⟩
abbrev S5000 : Shape := ⟨1, ![5000]⟩
abbrev S5000x1 : Shape := ⟨2, ![5000, 1]⟩
abbrev S1650000x64 : Shape := ⟨2, ![1650000, 64]⟩
abbrev S1x64 : Shape := ⟨2, ![1, 64]⟩
abbrev S1x1 : Shape := ⟨2, ![1, 1]⟩
abbrev S50000x1 : Shape := ⟨2, ![50000, 1]⟩

abbrev nBuf : Space → Nat
  | .hbm => 159
  | .vmem => 44
  | .smem => 0
  | _ => 0

abbrev hbmTy0_0 (i : Nat) : BufTy := match i % 128 with
  | 0 => ⟨S50000x64, .f32⟩
  | 1 => ⟨S2x1600000, .i32⟩
  | 2 => ⟨S1600000, .f32⟩
  | 3 => ⟨S64x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128, .f32⟩
  | 10 => ⟨S128, .f32⟩
  | 11 => ⟨S128, .f32⟩
  | 12 => ⟨S128, .f32⟩
  | 13 => ⟨S64, .f32⟩
  | 14 => ⟨S64, .f32⟩
  | 15 => ⟨S64x64, .f32⟩
  | 16 => ⟨S64, .f32⟩
  | 17 => ⟨S64x1, .f32⟩
  | 18 => ⟨S1, .f32⟩
  | 19 => ⟨S64x64, .f32⟩
  | 20 => ⟨S64, .f32⟩
  | 21 => ⟨S64x1, .f32⟩
  | 22 => ⟨S1, .f32⟩
  | 23 => ⟨S50000, .i32⟩
  | 24 => ⟨S1x1600000, .i32⟩
  | 25 => ⟨S1600000, .i32⟩
  | 26 => ⟨S1650000, .i32⟩
  | 27 => ⟨S1x1600000, .i32⟩
  | 28 => ⟨S1600000, .i32⟩
  | 29 => ⟨S1650000, .i32⟩
  | 30 => ⟨S_, .f32⟩
  | 31 => ⟨S50000, .f32⟩
  | 32 => ⟨S1650000, .f32⟩
  | 33 => ⟨S_, .f32⟩
  | 34 => ⟨S50000, .f32⟩
  | 35 => ⟨S1650000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000, .f32⟩
  | 57 => ⟨S1650000, .f32⟩
  | 58 => ⟨S_, .i32⟩
  | 59 => ⟨S1650000, .i32⟩
  | 60 => ⟨S1650000, .i1⟩
  | 61 => ⟨S_, .i32⟩
  | 62 => ⟨S1650000, .i32⟩
  | 63 => ⟨S1650000, .i32⟩
  | 64 => ⟨S1650000, .i32⟩
  | 65 => ⟨S1650000x1, .i32⟩
  | 66 => ⟨S1650000, .f32⟩
  | 67 => ⟨S1650000, .f32⟩
  | 68 => ⟨S50000x128, .f32⟩
  | 69 => ⟨S1650000x1, .f32⟩
  | 70 => ⟨S_, .i32⟩
  | 71 => ⟨S1650000, .i32⟩
  | 72 => ⟨S1650000, .i1⟩
  | 73 => ⟨S_, .i32⟩
  | 74 => ⟨S1650000, .i32⟩
  | 75 => ⟨S1650000, .i32⟩
  | 76 => ⟨S1650000, .i32⟩
  | 77 => ⟨S1650000x1, .i32⟩
  | 78 => ⟨S1650000x128, .f32⟩
  | 79 => ⟨S1650000x128, .f32⟩
  | 80 => ⟨S1650000x128, .f32⟩
  | 81 => ⟨S_, .f32⟩
  | 82 => ⟨S50000x128, .f32⟩
  | 83 => ⟨S1650000x1, .i32⟩
  | 84 => ⟨S50000x128, .f32⟩
  | 85 => ⟨S1x128, .f32⟩
  | 86 => ⟨S1x128, .f32⟩
  | 87 => ⟨S1x128, .f32⟩
  | 88 => ⟨S50000x128, .f32⟩
  | 89 => ⟨S50000x128, .f32⟩
  | 90 => ⟨S1650000x1, .f32⟩
  | 91 => ⟨S_, .i32⟩
  | 92 => ⟨S1650000, .i32⟩
  | 93 => ⟨S1650000, .i1⟩
  | 94 => ⟨S_, .i32⟩
  | 95 => ⟨S1650000, .i32⟩
  | 96 => ⟨S1650000, .i32⟩
  | 97 => ⟨S1650000, .i32⟩
  | 98 => ⟨S1650000x1, .i32⟩
  | 99 => ⟨S1650000x128, .f32⟩
  | 100 => ⟨S1650000x128, .f32⟩
  | 101 => ⟨S1650000x128, .f32⟩
  | 102 => ⟨S_, .f32⟩
  | 103 => ⟨S50000x128, .f32⟩
  | 104 => ⟨S1650000x1, .i32⟩
  | 105 => ⟨S50000x128, .f32⟩
  | 106 => ⟨S1x128, .f32⟩
  | 107 => ⟨S1x128, .f32⟩
  | 108 => ⟨S1x128, .f32⟩
  | 109 => ⟨S50000x128, .f32⟩
  | 110 => ⟨S50000x64, .f32⟩
  | 111 => ⟨S1650000x1, .f32⟩
  | 112 => ⟨S_, .i32⟩
  | 113 => ⟨S1650000, .i32⟩
  | 114 => ⟨S1650000, .i1⟩
  | 115 => ⟨S_, .i32⟩
  | 116 => ⟨S1650000, .i32⟩
  | 117 => ⟨S1650000, .i32⟩
  | 118 => ⟨S1650000, .i32⟩
  | 119 => ⟨S1650000x1, .i32⟩
  | 120 => ⟨S1650000x64, .f32⟩
  | 121 => ⟨S1650000x64, .f32⟩
  | 122 => ⟨S1650000x64, .f32⟩
  | 123 => ⟨S_, .f32⟩
  | 124 => ⟨S50000x64, .f32⟩
  | 125 => ⟨S1650000x1, .i32⟩
  | 126 => ⟨S50000x64, .f32⟩
  | 127 => ⟨S1x64, .f32⟩
  | _ => ⟨S50000x64, .f32⟩

abbrev hbmTy0_1 (i : Nat) : BufTy := match i % 128 with
  | 0 => ⟨S1x64, .f32⟩
  | 1 => ⟨S1x64, .f32⟩
  | 2 => ⟨S50000x64, .f32⟩
  | 3 => ⟨S1x64, .f32⟩
  | 4 => ⟨S1x1, .f32⟩
  | 5 => ⟨S50000x1, .f32⟩
  | 6 => ⟨S50000, .f32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S1x64, .f32⟩
  | 15 => ⟨S1x64, .f32⟩
  | 16 => ⟨S_, .f32⟩
  | 17 => ⟨S1x64, .f32⟩
  | 18 => ⟨S1x64, .f32⟩
  | 19 => ⟨S1x1, .f32⟩
  | 20 => ⟨S1x1, .f32⟩
  | 21 => ⟨S1x1, .f32⟩
  | 22 => ⟨S_, .f32⟩
  | 23 => ⟨S_, .f32⟩
  | 24 => ⟨S_, .f32⟩
  | 25 => ⟨S_, .f32⟩
  | 26 => ⟨S_, .f32⟩
  | 27 => ⟨S50000, .f32⟩
  | 28 => ⟨S50000, .f32⟩
  | 29 => ⟨S50000, .f32⟩
  | 30 => ⟨S50000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S64x1, .f32⟩
  | .local _ .vmem, ⟨41, _⟩ => ⟨S1x1, .f32⟩
  | .local _ .vmem, ⟨42, _⟩ => ⟨S5000x1, .f32⟩
  | .local _ .vmem, ⟨43, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_7 : Ref sig .tc := ⟨.hbm, 70, rfl⟩
abbrev main_v36 : Ref sig .tc := ⟨.hbm, 71, rfl⟩
abbrev main_v37 : Ref sig .tc := ⟨.hbm, 72, rfl⟩
abbrev main_c_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_9 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_10 : Ref sig .tc := ⟨.hbm, 91, rfl⟩
abbrev main_v54 : Ref sig .tc := ⟨.hbm, 92, rfl⟩
abbrev main_v55 : Ref sig .tc := ⟨.hbm, 93, rfl⟩
abbrev main_c_11 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_13 : Ref sig .tc := ⟨.hbm, 112, rfl⟩
abbrev main_v72 : Ref sig .tc := ⟨.hbm, 113, rfl⟩
abbrev main_v73 : Ref sig .tc := ⟨.hbm, 114, rfl⟩
abbrev main_c_14 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_15 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_16 : Ref sig .tc := ⟨.hbm, 135, rfl⟩
abbrev main_v92 : Ref sig .tc := ⟨.hbm, 136, rfl⟩
abbrev main_v93 : Ref sig .tc := ⟨.hbm, 137, rfl⟩
abbrev main_cst_17 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_call1_cst : Ref sig .tc := ⟨.hbm, 144, rfl⟩
abbrev main_call1_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_18 : Ref sig .tc := ⟨.hbm, 151, rfl⟩
abbrev main_v104 : Ref sig .tc := ⟨.hbm, 152, rfl⟩
abbrev main_cst_19 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg4_0 : Ref sig .tc := ⟨.vmem, 41, rfl⟩
abbrev cc6_stg5_0 : Ref sig .tc := ⟨.vmem, 42, rfl⟩
abbrev cc6_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem4_0 : DmaSem sig := 41
abbrev cc6_sem5_0 : DmaSem sig := 42
abbrev cc6_sem5_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  shapeCasts_S1_S1x1 : S1.ShapeCasts S1x1
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  reducesTo_S50000x64_S64_d0 : S50000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1_S1x1_1 : S1.BroadcastsInDim S1x1 (![1] : Fin 1 → Fin S1x1.rank)
  shapeCasts_S1x1_S_ : S1x1.ShapeCasts S_
  reducesTo_S50000_S_d0 : S50000.ReducesTo [0] S_
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x64_S64x128_S5000x128_1_0_0_1_n_n_wf : DotDims.WF S5000x64 S64x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S50000x1.size a
  hwx6_5 : ∀ i : grid6.Coords, EltTy.bits .f32 = 32 ∨ (Rect.block (s := S50000x1) S5000x1.size (cc6_transform_5 i) (hinb6_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v87) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg19) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg21) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v89) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v90) S5000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x1 : Shape := ⟨2, ![50000, 1]⟩
abbrev S1650000x64 : Shape := ⟨2, ![1650000, 64]⟩
abbrev S1x64 : Shape := ⟨2, ![1, 64]⟩
abbrev S1x1 : Shape := ⟨2, ![1, 1]⟩

abbrev nBuf : Space → Nat
  | .hbm => 260
  | .vmem => 0
  | .smem => 0
  | _ => 0

abbrev hbmTy0_0 (i : Nat) : BufTy := match i % 128 with
  | 0 => ⟨S50000x64, .f32⟩
  | 1 => ⟨S2x1600000, .i32⟩
  | 2 => ⟨S1600000, .f32⟩
  | 3 => ⟨S64x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128, .f32⟩
  | 10 => ⟨S128, .f32⟩
  | 11 => ⟨S128, .f32⟩
  | 12 => ⟨S128, .f32⟩
  | 13 => ⟨S64, .f32⟩
  | 14 => ⟨S64, .f32⟩
  | 15 => ⟨S64x64, .f32⟩
  | 16 => ⟨S64, .f32⟩
  | 17 => ⟨S64x1, .f32⟩
  | 18 => ⟨S1, .f32⟩
  | 19 => ⟨S64x64, .f32⟩
  | 20 => ⟨S64, .f32⟩
  | 21 => ⟨S64x1, .f32⟩
  | 22 => ⟨S1, .f32⟩
  | 23 => ⟨S50000, .i32⟩
  | 24 => ⟨S1x1600000, .i32⟩
  | 25 => ⟨S1600000, .i32⟩
  | 26 => ⟨S1650000, .i32⟩
  | 27 => ⟨S1x1600000, .i32⟩
  | 28 => ⟨S1600000, .i32⟩
  | 29 => ⟨S1650000, .i32⟩
  | 30 => ⟨S_, .f32⟩
  | 31 => ⟨S50000, .f32⟩
  | 32 => ⟨S1650000, .f32⟩
  | 33 => ⟨S_, .f32⟩
  | 34 => ⟨S50000, .f32⟩
  | 35 => ⟨S1650000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000, .f32⟩
  | 57 => ⟨S1650000, .f32⟩
  | 58 => ⟨S_, .i32⟩
  | 59 => ⟨S1650000, .i32⟩
  | 60 => ⟨S1650000, .i1⟩
  | 61 => ⟨S_, .i32⟩
  | 62 => ⟨S1650000, .i32⟩
  | 63 => ⟨S1650000, .i32⟩
  | 64 => ⟨S1650000, .i32⟩
  | 65 => ⟨S1650000x1, .i32⟩
  | 66 => ⟨S1650000, .f32⟩
  | 67 => ⟨S1650000, .f32⟩
  | 68 => ⟨S50000x128, .f32⟩
  | 69 => ⟨S1650000x1, .f32⟩
  | 70 => ⟨S_, .i32⟩
  | 71 => ⟨S1650000, .i32⟩
  | 72 => ⟨S1650000, .i1⟩
  | 73 => ⟨S_, .i32⟩
  | 74 => ⟨S1650000, .i32⟩
  | 75 => ⟨S1650000, .i32⟩
  | 76 => ⟨S1650000, .i32⟩
  | 77 => ⟨S1650000x1, .i32⟩
  | 78 => ⟨S1650000x128, .f32⟩
  | 79 => ⟨S1650000x128, .f32⟩
  | 80 => ⟨S1650000x128, .f32⟩
  | 81 => ⟨S_, .f32⟩
  | 82 => ⟨S50000x128, .f32⟩
  | 83 => ⟨S1650000x1, .i32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000, .f32⟩
  | 90 => ⟨S50000x1, .f32⟩
  | 91 => ⟨S_, .f32⟩
  | 92 => ⟨S50000x1, .f32⟩
  | 93 => ⟨S50000x1, .f32⟩
  | 94 => ⟨S50000x128, .f32⟩
  | 95 => ⟨S50000x128, .f32⟩
  | 96 => ⟨S50000x128, .f32⟩
  | 97 => ⟨S_, .f32⟩
  | 98 => ⟨S50000, .f32⟩
  | 99 => ⟨S50000x1, .f32⟩
  | 100 => ⟨S_, .f32⟩
  | 101 => ⟨S50000x1, .f32⟩
  | 102 => ⟨S50000x1, .f32⟩
  | 103 => ⟨S50000x128, .f32⟩
  | 104 => ⟨S50000x128, .f32⟩
  | 105 => ⟨S_, .f32⟩
  | 106 => ⟨S50000x1, .f32⟩
  | 107 => ⟨S50000x1, .f32⟩
  | 108 => ⟨S50000x1, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S1650000x1, .f32⟩
  | 122 => ⟨S_, .i32⟩
  | 123 => ⟨S1650000, .i32⟩
  | 124 => ⟨S1650000, .i1⟩
  | 125 => ⟨S_, .i32⟩
  | 126 => ⟨S1650000, .i32⟩
  | 127 => ⟨S1650000, .i32⟩
  | _ => ⟨S50000x64, .f32⟩

abbrev hbmTy0_1 (i : Nat) : BufTy := match i % 128 with
  | 0 => ⟨S1650000, .i32⟩
  | 1 => ⟨S1650000x1, .i32⟩
  | 2 => ⟨S1650000x128, .f32⟩
  | 3 => ⟨S1650000x128, .f32⟩
  | 4 => ⟨S1650000x128, .f32⟩
  | 5 => ⟨S_, .f32⟩
  | 6 => ⟨S50000x128, .f32⟩
  | 7 => ⟨S1650000x1, .i32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000, .f32⟩
  | 14 => ⟨S50000x1, .f32⟩
  | 15 => ⟨S_, .f32⟩
  | 16 => ⟨S50000x1, .f32⟩
  | 17 => ⟨S50000x1, .f32⟩
  | 18 => ⟨S50000x128, .f32⟩
  | 19 => ⟨S50000x128, .f32⟩
  | 20 => ⟨S50000x128, .f32⟩
  | 21 => ⟨S_, .f32⟩
  | 22 => ⟨S50000, .f32⟩
  | 23 => ⟨S50000x1, .f32⟩
  | 24 => ⟨S_, .f32⟩
  | 25 => ⟨S50000x1, .f32⟩
  | 26 => ⟨S50000x1, .f32⟩
  | 27 => ⟨S50000x128, .f32⟩
  | 28 => ⟨S50000x128, .f32⟩
  | 29 => ⟨S_, .f32⟩
  | 30 => ⟨S50000x1, .f32⟩
  | 31 => ⟨S50000x1, .f32⟩
  | 32 => ⟨S50000x1, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x64, .f32⟩
  | 45 => ⟨S1650000x1, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000x64, .f32⟩
  | 55 => ⟨S1650000x64, .f32⟩
  | 56 => ⟨S1650000x64, .f32⟩
  | 57 => ⟨S_, .f32⟩
  | 58 => ⟨S50000x64, .f32⟩
  | 59 => ⟨S1650000x1, .i32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S50000, .f32⟩
  | 66 => ⟨S50000x1, .f32⟩
  | 67 => ⟨S_, .f32⟩
  | 68 => ⟨S50000x1, .f32⟩
  | 69 => ⟨S50000x1, .f32⟩
  | 70 => ⟨S50000x64, .f32⟩
  | 71 => ⟨S50000x64, .f32⟩
  | 72 => ⟨S50000x64, .f32⟩
  | 73 => ⟨S_, .f32⟩
  | 74 => ⟨S50000, .f32⟩
  | 75 => ⟨S50000x1, .f32⟩
  | 76 => ⟨S_, .f32⟩
  | 77 => ⟨S50000x1, .f32⟩
  | 78 => ⟨S50000x1, .f32⟩
  | 79 => ⟨S50000x64, .f32⟩
  | 80 => ⟨S50000x64, .f32⟩
  | 81 => ⟨S_, .f32⟩
  | 82 => ⟨S50000x1, .f32⟩
  | 83 => ⟨S50000x1, .f32⟩
  | 84 => ⟨S50000x1, .f32⟩
  | 85 => ⟨S50000x64, .f32⟩
  | 86 => ⟨S50000x64, .f32⟩
  | 87 => ⟨S1x64, .f32⟩
  | 88 => ⟨S50000x64, .f32⟩
  | 89 => ⟨S50000x64, .f32⟩
  | 90 => ⟨S1x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x1, .f32⟩
  | 104 => ⟨S1x1, .f32⟩
  | 105 => ⟨S50000x1, .f32⟩
  | 106 => ⟨S50000x1, .f32⟩
  | 107 => ⟨S50000, .f32⟩
  | 108 => ⟨S_, .f32⟩
  | 109 => ⟨S64, .f32⟩
  | 110 => ⟨S1x64, .f32⟩
  | 111 => ⟨S_, .f32⟩
  | 112 => ⟨S1x64, .f32⟩
  | 113 => ⟨S1x64, .f32⟩
  | 114 => ⟨S1x64, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x1, .f32⟩
  | 121 => ⟨S1x1, .f32⟩
  | 122 => ⟨S1x1, .f32⟩
  | 123 => ⟨S_, .f32⟩
  | 124 => ⟨S_, .f32⟩
  | 125 => ⟨S_, .f32⟩
  | 126 => ⟨S_, .f32⟩
  | 127 => ⟨S_, .f32⟩
  | _ => ⟨S50000x64, .f32⟩

abbrev hbmTy0_2 (i : Nat) : BufTy := match i % 128 with
  | 0 => ⟨S50000, .f32⟩
  | 1 => ⟨S50000, .f32⟩
  | 2 => ⟨S50000, .f32⟩
  | 3 => ⟨S50000, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_7 : Ref sig .tc := ⟨.hbm, 70, rfl⟩
abbrev main_v36 : Ref sig .tc := ⟨.hbm, 71, rfl⟩
abbrev main_v37 : Ref sig .tc := ⟨.hbm, 72, rfl⟩
abbrev main_c_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_9 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_10 : Ref sig .tc := ⟨.hbm, 88, rfl⟩
abbrev main_v51 : Ref sig .tc := ⟨.hbm, 89, rfl⟩
abbrev main_v52 : Ref sig .tc := ⟨.hbm, 90, rfl⟩
abbrev main_cst_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_12 : Ref sig .tc := ⟨.hbm, 97, rfl⟩
abbrev main_v58 : Ref sig .tc := ⟨.hbm, 98, rfl⟩
abbrev main_v59 : Ref sig .tc := ⟨.hbm, 99, rfl⟩
abbrev main_cst_13 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_14 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call1_cst : Ref sig .tc := ⟨.hbm, 117, rfl⟩
abbrev main_call1_v0 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_15 : Ref sig .tc := ⟨.hbm, 122, rfl⟩
abbrev main_v78 : Ref sig .tc := ⟨.hbm, 123, rfl⟩
abbrev main_v79 : Ref sig .tc := ⟨.hbm, 124, rfl⟩
abbrev main_c_16 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_17 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_18 : Ref sig .tc := ⟨.hbm, 140, rfl⟩
abbrev main_v93 : Ref sig .tc := ⟨.hbm, 141, rfl⟩
abbrev main_v94 : Ref sig .tc := ⟨.hbm, 142, rfl⟩
abbrev main_cst_19 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_20 : Ref sig .tc := ⟨.hbm, 149, rfl⟩
abbrev main_v100 : Ref sig .tc := ⟨.hbm, 150, rfl⟩
abbrev main_v101 : Ref sig .tc := ⟨.hbm, 151, rfl⟩
abbrev main_cst_21 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_22 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_call2_cst : Ref sig .tc := ⟨.hbm, 169, rfl⟩
abbrev main_call2_v0 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_c_23 : Ref sig .tc := ⟨.hbm, 174, rfl⟩
abbrev main_v120 : Ref sig .tc := ⟨.hbm, 175, rfl⟩
abbrev main_v121 : Ref sig .tc := ⟨.hbm, 176, rfl⟩
abbrev main_c_24 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_25 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_26 : Ref sig .tc := ⟨.hbm, 192, rfl⟩
abbrev main_v135 : Ref sig .tc := ⟨.hbm, 193, rfl⟩
abbrev main_v136 : Ref sig .tc := ⟨.hbm, 194, rfl⟩
abbrev main_cst_27 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_28 : Ref sig .tc := ⟨.hbm, 201, rfl⟩
abbrev main_v142 : Ref sig .tc := ⟨.hbm, 202, rfl⟩
abbrev main_v143 : Ref sig .tc := ⟨.hbm, 203, rfl⟩
abbrev main_cst_29 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_30 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_call3_cst : Ref sig .tc := ⟨.hbm, 221, rfl⟩
abbrev main_call3_v0 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_call4_cst : Ref sig .tc := ⟨.hbm, 228, rfl⟩
abbrev main_call4_v0 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_31 : Ref sig .tc := ⟨.hbm, 236, rfl⟩
abbrev main_v170 : Ref sig .tc := ⟨.hbm, 237, rfl⟩
abbrev main_v171 : Ref sig .tc := ⟨.hbm, 238, rfl⟩
abbrev main_cst_32 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_call5_cst : Ref sig .tc := ⟨.hbm, 245, rfl⟩
abbrev main_call5_v0 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_cst_33 : Ref sig .tc := ⟨.hbm, 252, rfl⟩
abbrev main_v182 : Ref sig .tc := ⟨.hbm, 253, rfl⟩
abbrev main_cst_34 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  reducesTo_S50000x64_S64_d0 : S50000x64.ReducesTo [0] S64
  bcast_S_S1x64 : S_.BroadcastsInDim S1x64 (![] : Fin 0 → Fin S1x64.rank)
  shapeCasts_S1x1_S_ : S1x1.ShapeCasts S_
  reducesTo_S50000_S_d0 : S50000.ReducesTo [0] S_
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x64_S64x128_S50000x128_1_0_0_1_n_n_wf : DotDims.WF S50000x64 S64x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.RefOps.lean ====
/-
  The reference program as a line of host operations, cut into seventeen stretches.

  @main of the reference is 237 host operations in a row.  The line is cut where a later part reads only a few of the
  earlier results: after the graph's edge lists and weights, after each outlined function's three operations, after
  each layer's aggregation and after each layer's normalisation.  Running the whole line from the launch contents is
  running the stretches one after the other, so the buffers at the end are a fold through the seventeen stretches.
-/
import proofs.«174969_j8890582303024_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 237 operations, in order (a called function's operations stand in its call's place). -/
abbrev ops : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S50000 ![] bcast_S_S50000 : (⟨S_, .f32⟩ : BufTy).Contents (Elt F) → (⟨S50000, .f32⟩ : BufTy).Contents (Elt F)),
    binary main_arg2 main_v7 main_v8 ((fun a b => concatenate S1650000 0 [⟨S1600000, a⟩, ⟨S50000, b⟩] concatenates_S1600000_S50000_S1650000_d0) : (⟨S1600000, .f32⟩ : BufTy).Contents (Elt F) → (⟨S50000, .f32⟩ : BufTy).Contents (Elt F) → (⟨S1650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S1650000x1 ![0] bcast_S1650000_S1650000x1_0 : (⟨S1650000, .i32⟩ : BufTy).Contents (Elt F) → (⟨S1650000x1, .i32⟩ : BufTy).Contents (Elt F)),
    ternary main_v9 main_v10 main_v8 main_v11 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select,
    nullary main_c (constantI S_ 32 0#32),
    unary main_c main_v18 (broadcastInDim S1650000 ![] bcast_S_S1650000 : (⟨S_, .i32⟩ : BufTy).Contents (Elt F) → (⟨S1650000, .i32⟩ : BufTy).Contents (Elt F)),
    binary main_v3 main_v18 main_v19 (cmpi .slt : (⟨S1650000, .i32⟩ : BufTy).Contents (Elt F) → (⟨S1650000, .i32⟩ : BufTy).Contents (Elt F) → (⟨S1650000, .i1⟩ : BufTy).Contents (Elt F)),
    nullary main_c_4 (constantI S_ 32 50000#32),
    unary main_c_4 main_v20 (broadcastInDim S1650000 ![] bcast_S_S1650000 : (⟨S_, .i32⟩ : BufTy).Contents (Elt F) → (⟨S1650000, .i32⟩ : BufTy).Contents (Elt F)),
    binary main_v3 main_v20 main_v21 (addi : (⟨S1650000, .i32⟩ : BufTy).Contents (Elt F) → (⟨S1650000, .i32⟩ : BufTy).Contents (Elt F) → (⟨S1650000, .i32⟩ : BufTy).Contents (Elt F)),
    ternary main_v19 main_v21 main_v3 main_v22 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v22 main_v23 (broadcastInDim S1650000x1 ![0] bcast_S1650000_S1650000x1_0 : (⟨S1650000, .i32⟩ : BufTy).Contents (Elt F) → (⟨S1650000x1, .i32⟩ : BufTy).Contents (Elt F)),
    binary main_v17 main_v23 main_v24 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v24 main_v8 main_v25 (mulf : (⟨S1650000, .f32⟩ : BufTy).Contents (Elt F) → (⟨S1650000, .f32⟩ : BufTy).Contents (Elt F) → (⟨S1650000, .f32⟩ : BufTy).Contents (Elt F)),
    nullary main_c_5 (constantI S_ 32 0#32),
    unary main_c_5 main_v26 (broadcastInDim S1650000 ![] bcast_S_S1650000 : (⟨S_, .i32⟩ : BufTy).Contents (Elt F) → (⟨S1650000, .i32⟩ : BufTy).Contents (Elt F)),
    binary main_v6 main_v26 main_v27 (cmpi .slt : (⟨S1650000, .i32⟩ : BufTy).Contents (Elt F) → (⟨S1650000, .i32⟩ : BufTy).Contents (Elt F) → (⟨S1650000, .i1⟩ : BufTy).Contents (Elt F)),
    nullary main_c_6 (constantI S_ 32 50000#32),
    unary main_c_6 main_v28 (broadcastInDim S1650000 ![] bcast_S_S1650000 : (⟨S_, .i32⟩ : BufTy).Contents (Elt F) → (⟨S1650000, .i32⟩ : BufTy).Contents (Elt F)),
    binary main_v6 main_v28 main_v29 (addi : (⟨S1650000, .i32⟩ : BufTy).Contents (Elt F) → (⟨S1650000, .i32⟩ : BufTy).Contents (Elt F) → (⟨S1650000, .i32⟩ : BufTy).Contents (Elt F)),
    ternary main_v27 main_v29 main_v6 main_v30 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v30 main_v31 (broadcastInDim S1650000x1 ![0] bcast_S1650000_S1650000x1_0 : (⟨S1650000, .i32⟩ : BufTy).Contents (Elt F) → (⟨S1650000x1, .i32⟩ : BufTy).Contents (Elt F)),
    binary main_v17 main_v31 main_v32 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v25 main_v32 main_v33 (mulf : (⟨S1650000, .f32⟩ : BufTy).Contents (Elt F) → (⟨S1650000, .f32⟩ : BufTy).Contents (Elt F) → (⟨S1650000, .f32⟩ : BufTy).Contents (Elt F)),
    binary main_arg0 main_arg3 main_v34 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_v33 main_v35 (broadcastInDim S1650000x1 ![0] bcast_S1650000_S1650000x1_0 : (⟨S1650000, .f32⟩ : BufTy).Contents (Elt F) → (⟨S1650000x1, .f32⟩ : BufTy).Contents (Elt F)),
    nullary main_c_7 (constantI S_ 32 0#32),
    unary main_c_7 main_v36 (broadcastInDim S1650000 ![] bcast_S_S1650000 : (⟨S_, .i32⟩ : BufTy).Contents (Elt F) → (⟨S1650000, .i32⟩ : BufTy).Contents (Elt F)),
    binary main_v3 main_v36 main_v37 (cmpi .slt : (⟨S1650000, .i32⟩ : BufTy).Contents (Elt F) → (⟨S1650000, .i32⟩ : BufTy).Contents (Elt F) → (⟨S1650000, .i1⟩ : BufTy).Contents (Elt F)),
    nullary main_c_8 (constantI S_ 32 50000#32),
    unary main_c_8 main_v38 (broadcastInDim S1650000 ![] bcast_S_S1650000 : (⟨S_, .i32⟩ : BufTy).Contents (Elt F) → (⟨S1650000, .i32⟩ : BufTy).Contents (Elt F)),
    binary main_v3 main_v38 main_v39 (addi : (⟨S1650000, .i32⟩ : BufTy).Contents (Elt F) → (⟨S1650000, .i32⟩ : BufTy).Contents (Elt F) → (⟨S1650000, .i32⟩ : BufTy).Contents (Elt F)),
    ternary main_v37 main_v39 main_v3 main_v40 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v40 main_v41 (broadcastInDim S1650000x1 ![0] bcast_S1650000_S1650000x1_0 : (⟨S1650000, .i32⟩ : BufTy).Contents (Elt F) → (⟨S1650000x1, .i32⟩ : BufTy).Contents (Elt F)),
    binary main_v34 main_v41 main_v42 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v35 main_v43 (broadcastInDim S1650000x128 ![0, 1] bcast_S1650000x1_S1650000x128_0_1 : (⟨S1650000x1, .f32⟩ : BufTy).Contents (Elt F) → (⟨S1650000x128, .f32⟩ : BufTy).Contents (Elt F)),
    binary main_v43 main_v42 main_v44 (mulf : (⟨S1650000x128, .f32⟩ : BufTy).Contents (Elt F) → (⟨S1650000x128, .f32⟩ : BufTy).Contents (Elt F) → (⟨S1650000x128, .f32⟩ : BufTy).Contents (Elt F)),
    nullary main_cst_9 (constant S_ .f32 0x00000000#32),
    unary main_cst_9 main_v45 (broadcastInDim S50000x128 ![] bcast_S_S50000x128 : (⟨S_, .f32⟩ : BufTy).Contents (Elt F) → (⟨S50000x128, .f32⟩ : BufTy).Contents (Elt F)),
    unary main_v6 main_v46 (broadcastInDim S1650000x1 ![0] bcast_S1650000_S1650000x1_0 : (⟨S1650000, .i32⟩ : BufTy).Contents (Elt F) → (⟨S1650000x1, .i32⟩ : BufTy).Contents (Elt F)),
    ternary main_v45 main_v46 main_v44 main_v47 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg4 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v50 main_cst_10 main_v51 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v51 main_v52 (broadcastInDim S50000x1 ![0] bcast_S50000_S50000x1_0 : (⟨S50000, .f32⟩ : BufTy).Contents (Elt F) → (⟨S50000x1, .f32⟩ : BufTy).Contents (Elt F)),
    nullary main_cst_11 (constant S_ .f32 0x43000000#32),
    unary main_cst_11 main_v53 (broadcastInDim S50000x1 ![] bcast_S_S50000x1 : (⟨S_, .f32⟩ : BufTy).Contents (Elt F) → (⟨S50000x1, .f32⟩ : BufTy).Contents (Elt F)),
    binary main_v52 main_v53 main_v54 (Host.divf : (⟨S50000x1, .f32⟩ : BufTy).Contents (Elt F) → (⟨S50000x1, .f32⟩ : BufTy).Contents (Elt F) → (⟨S50000x1, .f32⟩ : BufTy).Contents (Elt F)),
    unary main_v54 main_v55 (broadcastInDim S50000x128 ![0, 1] bcast_S50000x1_S50000x128_0_1 : (⟨S50000x1, .f32⟩ : BufTy).Contents (Elt F) → (⟨S50000x128, .f32⟩ : BufTy).Contents (Elt F)),
    binary main_v50 main_v55 main_v56 (subf : (⟨S50000x128, .f32⟩ : BufTy).Contents (Elt F) → (⟨S50000x128, .f32⟩ : BufTy).Contents (Elt F) → (⟨S50000x128, .f32⟩ : BufTy).Contents (Elt F)),
    binary main_v56 main_v56 main_v57 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v57 main_cst_12 main_v58 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v58 main_v59 (broadcastInDim S50000x1 ![0] bcast_S50000_S50000x1_0 : (⟨S50000, .f32⟩ : BufTy).Contents (Elt F) → (⟨S50000x1, .f32⟩ : BufTy).Contents (Elt F)),
    nullary main_cst_13 (constant S_ .f32 0x43000000#32),
    unary main_cst_13 main_v60 (broadcastInDim S50000x1 ![] bcast_S_S50000x1 : (⟨S_, .f32⟩ : BufTy).Contents (Elt F) → (⟨S50000x1, .f32⟩ : BufTy).Contents (Elt F)),
    binary main_v59 main_v60 main_v61 (Host.divf : (⟨S50000x1, .f32⟩ : BufTy).Contents (Elt F) → (⟨S50000x1, .f32⟩ : BufTy).Contents (Elt F) → (⟨S50000x1, .f32⟩ : BufTy).Contents (Elt F)),
    unary main_v54 main_v62 (broadcastInDim S50000x128 ![0, 1] bcast_S50000x1_S50000x128_0_1 : (⟨S50000x1, .f32⟩ : BufTy).Contents (Elt F) → (⟨S50000x128, .f32⟩ : BufTy).Contents (Elt F)),
    binary main_v50 main_v62 main_v63 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v64 (broadcastInDim S50000x1 ![] bcast_S_S50000x1 : (⟨S_, .f32⟩ : BufTy).Contents (Elt F) → (⟨S50000x1, .f32⟩ : BufTy).Contents (Elt F)),
    binary main_v61 main_v64 main_v65 (addf : (⟨S50000x1, .f32⟩ : BufTy).Contents (Elt F) → (⟨S50000x1, .f32⟩ : BufTy).Contents (Elt F) → (⟨S50000x1, .f32⟩ : BufTy).Contents (Elt F)),
    unary main_v65 main_v66 (Host.rsqrt : (⟨S50000x1, .f32⟩ : BufTy).Contents (Elt F) → (⟨S50000x1, .f32⟩ : BufTy).Contents (Elt F)),
    unary main_v66 main_v67 (broadcastInDim S50000x128 ![0, 1] bcast_S50000x1_S50000x128_0_1 : (⟨S50000x1, .f32⟩ : BufTy).Contents (Elt F) → (⟨S50000x128, .f32⟩ : BufTy).Contents (Elt F)),
    binary main_v63 main_v67 main_v68 (mulf : (⟨S50000x128, .f32⟩ : BufTy).Contents (Elt F) → (⟨S50000x128, .f32⟩ : BufTy).Contents (Elt F) → (⟨S50000x128, .f32⟩ : BufTy).Contents (Elt F)),
    unary main_arg9 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (mulf : (⟨S50000x128, .f32⟩ : BufTy).Contents (Elt F) → (⟨S50000x128, .f32⟩ : BufTy).Contents (Elt F) → (⟨S50000x128, .f32⟩ : BufTy).Contents (Elt F)),
    unary main_arg10 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v74) (TRef.of (T := ⟨S50000x128, .f32⟩) main_call1_v0) (TRef.of (T := ⟨S50000x128, .f32⟩) main_v75) maximumf,
    binary main_v75 main_arg5 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v33 main_v77 (broadcastInDim S1650000x1 ![0] bcast_S1650000_S1650000x1_0 : (⟨S1650000, .f32⟩ : BufTy).Contents (Elt F) → (⟨S1650000x1, .f32⟩ : BufTy).Contents (Elt F)),
    nullary main_c_15 (constantI S_ 32 0#32),
    unary main_c_15 main_v78 (broadcastInDim S1650000 ![] bcast_S_S1650000 : (⟨S_, .i32⟩ : BufTy).Contents (Elt F) → (⟨S1650000, .i32⟩ : BufTy).Contents (Elt F)),
    binary main_v3 main_v78 main_v79 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v80 (broadcastInDim S1650000 ![] bcast_S_S1650000 : (⟨S_, .i32⟩ : BufTy).Contents (Elt F) → (⟨S1650000, .i32⟩ : BufTy).Contents (Elt F)),
    binary main_v3 main_v80 main_v81 (addi : (⟨S1650000, .i32⟩ : BufTy).Contents (Elt F) → (⟨S1650000, .i32⟩ : BufTy).Contents (Elt F) → (⟨S1650000, .i32⟩ : BufTy).Contents (Elt F)),
    ternary main_v79 main_v81 main_v3 main_v82 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v82 main_v83 (broadcastInDim S1650000x1 ![0] bcast_S1650000_S1650000x1_0 : (⟨S1650000, .i32⟩ : BufTy).Contents (Elt F) → (⟨S1650000x1, .i32⟩ : BufTy).Contents (Elt F)),
    binary main_v76 main_v83 main_v84 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v77 main_v85 (broadcastInDim S1650000x128 ![0, 1] bcast_S1650000x1_S1650000x128_0_1 : (⟨S1650000x1, .f32⟩ : BufTy).Contents (Elt F) → (⟨S1650000x128, .f32⟩ : BufTy).Contents (Elt F)),
    binary main_v85 main_v84 main_v86 (mulf : (⟨S1650000x128, .f32⟩ : BufTy).Contents (Elt F) → (⟨S1650000x128, .f32⟩ : BufTy).Contents (Elt F) → (⟨S1650000x128, .f32⟩ : BufTy).Contents (Elt F)),
    nullary main_cst_17 (constant S_ .f32 0x00000000#32),
    unary main_cst_17 main_v87 (broadcastInDim S50000x128 ![] bcast_S_S50000x128 : (⟨S_, .f32⟩ : BufTy).Contents (Elt F) → (⟨S50000x128, .f32⟩ : BufTy).Contents (Elt F)),
    unary main_v6 main_v88 (broadcastInDim S1650000x1 ![0] bcast_S1650000_S1650000x1_0 : (⟨S1650000, .i32⟩ : BufTy).Contents (Elt F) → (⟨S1650000x1, .i32⟩ : BufTy).Contents (Elt F)),
    ternary main_v87 main_v88 main_v86 main_v89 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg6 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v92 main_cst_18 main_v93 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v93 main_v94 (broadcastInDim S50000x1 ![0] bcast_S50000_S50000x1_0 : (⟨S50000, .f32⟩ : BufTy).Contents (Elt F) → (⟨S50000x1, .f32⟩ : BufTy).Contents (Elt F)),
    nullary main_cst_19 (constant S_ .f32 0x43000000#32),
    unary main_cst_19 main_v95 (broadcastInDim S50000x1 ![] bcast_S_S50000x1 : (⟨S_, .f32⟩ : BufTy).Contents (Elt F) → (⟨S50000x1, .f32⟩ : BufTy).Contents (Elt F)),
    binary main_v94 main_v95 main_v96 (Host.divf : (⟨S50000x1, .f32⟩ : BufTy).Contents (Elt F) → (⟨S50000x1, .f32⟩ : BufTy).Contents (Elt F) → (⟨S50000x1, .f32⟩ : BufTy).Contents (Elt F)),
    unary main_v96 main_v97 (broadcastInDim S50000x128 ![0, 1] bcast_S50000x1_S50000x128_0_1 : (⟨S50000x1, .f32⟩ : BufTy).Contents (Elt F) → (⟨S50000x128, .f32⟩ : BufTy).Contents (Elt F)),
    binary main_v92 main_v97 main_v98 (subf : (⟨S50000x128, .f32⟩ : BufTy).Contents (Elt F) → (⟨S50000x128, .f32⟩ : BufTy).Contents (Elt F) → (⟨S50000x128, .f32⟩ : BufTy).Contents (Elt F)),
    binary main_v98 main_v98 main_v99 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v99 main_cst_20 main_v100 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v100 main_v101 (broadcastInDim S50000x1 ![0] bcast_S50000_S50000x1_0 : (⟨S50000, .f32⟩ : BufTy).Contents (Elt F) → (⟨S50000x1, .f32⟩ : BufTy).Contents (Elt F)),
    nullary main_cst_21 (constant S_ .f32 0x43000000#32),
    unary main_cst_21 main_v102 (broadcastInDim S50000x1 ![] bcast_S_S50000x1 : (⟨S_, .f32⟩ : BufTy).Contents (Elt F) → (⟨S50000x1, .f32⟩ : BufTy).Contents (Elt F)),
    binary main_v101 main_v102 main_v103 (Host.divf : (⟨S50000x1, .f32⟩ : BufTy).Contents (Elt F) → (⟨S50000x1, .f32⟩ : BufTy).Contents (Elt F) → (⟨S50000x1, .f32⟩ : BufTy).Contents (Elt F)),
    unary main_v96 main_v104 (broadcastInDim S50000x128 ![0, 1] bcast_S50000x1_S50000x128_0_1 : (⟨S50000x1, .f32⟩ : BufTy).Contents (Elt F) → (⟨S50000x128, .f32⟩ : BufTy).Contents (Elt F)),
    binary main_v92 main_v104 main_v105 (subf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x3727C5AC#32),
    unary main_cst_22 main_v106 (broadcastInDim S50000x1 ![] bcast_S_S50000x1 : (⟨S_, .f32⟩ : BufTy).Contents (Elt F) → (⟨S50000x1, .f32⟩ : BufTy).Contents (Elt F)),
    binary main_v103 main_v106 main_v107 (addf : (⟨S50000x1, .f32⟩ : BufTy).Contents (Elt F) → (⟨S50000x1, .f32⟩ : BufTy).Contents (Elt F) → (⟨S50000x1, .f32⟩ : BufTy).Contents (Elt F)),
    unary main_v107 main_v108 (Host.rsqrt : (⟨S50000x1, .f32⟩ : BufTy).Contents (Elt F) → (⟨S50000x1, .f32⟩ : BufTy).Contents (Elt F)),
    unary main_v108 main_v109 (broadcastInDim S50000x128 ![0, 1] bcast_S50000x1_S50000x128_0_1 : (⟨S50000x1, .f32⟩ : BufTy).Contents (Elt F) → (⟨S50000x128, .f32⟩ : BufTy).Contents (Elt F)),
    binary main_v105 main_v109 main_v110 (mulf : (⟨S50000x128, .f32⟩ : BufTy).Contents (Elt F) → (⟨S50000x128, .f32⟩ : BufTy).Contents (Elt F) → (⟨S50000x128, .f32⟩ : BufTy).Contents (Elt F)),
    unary main_arg11 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v110 main_v112 main_v113 (mulf : (⟨S50000x128, .f32⟩ : BufTy).Contents (Elt F) → (⟨S50000x128, .f32⟩ : BufTy).Contents (Elt F) → (⟨S50000x128, .f32⟩ : BufTy).Contents (Elt F)),
    unary main_arg12 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v116) (TRef.of (T := ⟨S50000x128, .f32⟩) main_call2_v0) (TRef.of (T := ⟨S50000x128, .f32⟩) main_v117) maximumf,
    binary main_v117 main_arg7 main_v118 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v33 main_v119 (broadcastInDim S1650000x1 ![0] bcast_S1650000_S1650000x1_0 : (⟨S1650000, .f32⟩ : BufTy).Contents (Elt F) → (⟨S1650000x1, .f32⟩ : BufTy).Contents (Elt F)),
    nullary main_c_23 (constantI S_ 32 0#32),
    unary main_c_23 main_v120 (broadcastInDim S1650000 ![] bcast_S_S1650000 : (⟨S_, .i32⟩ : BufTy).Contents (Elt F) → (⟨S1650000, .i32⟩ : BufTy).Contents (Elt F)),
    binary main_v3 main_v120 main_v121 (cmpi .slt : (⟨S1650000, .i32⟩ : BufTy).Contents (Elt F) → (⟨S1650000, .i32⟩ : BufTy).Contents (Elt F) → (⟨S1650000, .i1⟩ : BufTy).Contents (Elt F)),
    nullary main_c_24 (constantI S_ 32 50000#32),
    unary main_c_24 main_v122 (broadcastInDim S1650000 ![] bcast_S_S1650000 : (⟨S_, .i32⟩ : BufTy).Contents (Elt F) → (⟨S1650000, .i32⟩ : BufTy).Contents (Elt F)),
    binary main_v3 main_v122 main_v123 (addi : (⟨S1650000, .i32⟩ : BufTy).Contents (Elt F) → (⟨S1650000, .i32⟩ : BufTy).Contents (Elt F) → (⟨S1650000, .i32⟩ : BufTy).Contents (Elt F)),
    ternary main_v121 main_v123 main_v3 main_v124 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v124 main_v125 (broadcastInDim S1650000x1 ![0] bcast_S1650000_S1650000x1_0 : (⟨S1650000, .i32⟩ : BufTy).Contents (Elt F) → (⟨S1650000x1, .i32⟩ : BufTy).Contents (Elt F)),
    binary main_v118 main_v125 main_v126 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v119 main_v127 (broadcastInDim S1650000x64 ![0, 1] bcast_S1650000x1_S1650000x64_0_1 : (⟨S1650000x1, .f32⟩ : BufTy).Contents (Elt F) → (⟨S1650000x64, .f32⟩ : BufTy).Contents (Elt F)),
    binary main_v127 main_v126 main_v128 (mulf : (⟨S1650000x64, .f32⟩ : BufTy).Contents (Elt F) → (⟨S1650000x64, .f32⟩ : BufTy).Contents (Elt F) → (⟨S1650000x64, .f32⟩ : BufTy).Contents (Elt F)),
    nullary main_cst_25 (constant S_ .f32 0x00000000#32),
    unary main_cst_25 main_v129 (broadcastInDim S50000x64 ![] bcast_S_S50000x64 : (⟨S_, .f32⟩ : BufTy).Contents (Elt F) → (⟨S50000x64, .f32⟩ : BufTy).Contents (Elt F)),
    unary main_v6 main_v130 (broadcastInDim S1650000x1 ![0] bcast_S1650000_S1650000x1_0 : (⟨S1650000, .i32⟩ : BufTy).Contents (Elt F) → (⟨S1650000x1, .i32⟩ : BufTy).Contents (Elt F)),
    ternary main_v129 main_v130 main_v128 main_v131 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg8 main_v132 (broadcastInDim S1x64 ![1] bcast_S64_S1x64_1 : (⟨S64, .f32⟩ : BufTy).Contents (Elt F) → (⟨S1x64, .f32⟩ : BufTy).Contents (Elt F)),
    unary main_v132 main_v133 (broadcastInDim S50000x64 ![0, 1] bcast_S1x64_S50000x64_0_1 : (⟨S1x64, .f32⟩ : BufTy).Contents (Elt F) → (⟨S50000x64, .f32⟩ : BufTy).Contents (Elt F)),
    binary main_v131 main_v133 main_v134 (addf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x00000000#32),
    binary main_v134 main_cst_26 main_v135 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v135 main_v136 (broadcastInDim S50000x1 ![0] bcast_S50000_S50000x1_0 : (⟨S50000, .f32⟩ : BufTy).Contents (Elt F) → (⟨S50000x1, .f32⟩ : BufTy).Contents (Elt F)),
    nullary main_cst_27 (constant S_ .f32 0x42800000#32),
    unary main_cst_27 main_v137 (broadcastInDim S50000x1 ![] bcast_S_S50000x1 : (⟨S_, .f32⟩ : BufTy).Contents (Elt F) → (⟨S50000x1, .f32⟩ : BufTy).Contents (Elt F)),
    binary main_v136 main_v137 main_v138 (Host.divf : (⟨S50000x1, .f32⟩ : BufTy).Contents (Elt F) → (⟨S50000x1, .f32⟩ : BufTy).Contents (Elt F) → (⟨S50000x1, .f32⟩ : BufTy).Contents (Elt F)),
    unary main_v138 main_v139 (broadcastInDim S50000x64 ![0, 1] bcast_S50000x1_S50000x64_0_1 : (⟨S50000x1, .f32⟩ : BufTy).Contents (Elt F) → (⟨S50000x64, .f32⟩ : BufTy).Contents (Elt F)),
    binary main_v134 main_v139 main_v140 (subf : (⟨S50000x64, .f32⟩ : BufTy).Contents (Elt F) → (⟨S50000x64, .f32⟩ : BufTy).Contents (Elt F) → (⟨S50000x64, .f32⟩ : BufTy).Contents (Elt F)),
    binary main_v140 main_v140 main_v141 (mulf : (⟨S50000x64, .f32⟩ : BufTy).Contents (Elt F) → (⟨S50000x64, .f32⟩ : BufTy).Contents (Elt F) → (⟨S50000x64, .f32⟩ : BufTy).Contents (Elt F)),
    nullary main_cst_28 (constant S_ .f32 0x00000000#32),
    binary main_v141 main_cst_28 main_v142 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v142 main_v143 (broadcastInDim S50000x1 ![0] bcast_S50000_S50000x1_0 : (⟨S50000, .f32⟩ : BufTy).Contents (Elt F) → (⟨S50000x1, .f32⟩ : BufTy).Contents (Elt F)),
    nullary main_cst_29 (constant S_ .f32 0x42800000#32),
    unary main_cst_29 main_v144 (broadcastInDim S50000x1 ![] bcast_S_S50000x1 : (⟨S_, .f32⟩ : BufTy).Contents (Elt F) → (⟨S50000x1, .f32⟩ : BufTy).Contents (Elt F)),
    binary main_v143 main_v144 main_v145 (Host.divf : (⟨S50000x1, .f32⟩ : BufTy).Contents (Elt F) → (⟨S50000x1, .f32⟩ : BufTy).Contents (Elt F) → (⟨S50000x1, .f32⟩ : BufTy).Contents (Elt F)),
    unary main_v138 main_v146 (broadcastInDim S50000x64 ![0, 1] bcast_S50000x1_S50000x64_0_1 : (⟨S50000x1, .f32⟩ : BufTy).Contents (Elt F) → (⟨S50000x64, .f32⟩ : BufTy).Contents (Elt F)),
    binary main_v134 main_v146 main_v147 (subf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x3727C5AC#32),
    unary main_cst_30 main_v148 (broadcastInDim S50000x1 ![] bcast_S_S50000x1 : (⟨S_, .f32⟩ : BufTy).Contents (Elt F) → (⟨S50000x1, .f32⟩ : BufTy).Contents (Elt F)),
    binary main_v145 main_v148 main_v149 (addf : (⟨S50000x1, .f32⟩ : BufTy).Contents (Elt F) → (⟨S50000x1, .f32⟩ : BufTy).Contents (Elt F) → (⟨S50000x1, .f32⟩ : BufTy).Contents (Elt F)),
    unary main_v149 main_v150 (Host.rsqrt : (⟨S50000x1, .f32⟩ : BufTy).Contents (Elt F) → (⟨S50000x1, .f32⟩ : BufTy).Contents (Elt F)),
    unary main_v150 main_v151 (broadcastInDim S50000x64 ![0, 1] bcast_S50000x1_S50000x64_0_1 : (⟨S50000x1, .f32⟩ : BufTy).Contents (Elt F) → (⟨S50000x64, .f32⟩ : BufTy).Contents (Elt F)),
    binary main_v147 main_v151 main_v152 (mulf : (⟨S50000x64, .f32⟩ : BufTy).Contents (Elt F) → (⟨S50000x64, .f32⟩ : BufTy).Contents (Elt F) → (⟨S50000x64, .f32⟩ : BufTy).Contents (Elt F)),
    unary main_arg13 main_v153 (broadcastInDim S1x64 ![1] bcast_S64_S1x64_1 : (⟨S64, .f32⟩ : BufTy).Contents (Elt F) → (⟨S1x64, .f32⟩ : BufTy).Contents (Elt F)),
    unary main_v153 main_v154 (broadcastInDim S50000x64 ![0, 1] bcast_S1x64_S50000x64_0_1 : (⟨S1x64, .f32⟩ : BufTy).Contents (Elt F) → (⟨S50000x64, .f32⟩ : BufTy).Contents (Elt F)),
    binary main_v152 main_v154 main_v155 (mulf : (⟨S50000x64, .f32⟩ : BufTy).Contents (Elt F) → (⟨S50000x64, .f32⟩ : BufTy).Contents (Elt F) → (⟨S50000x64, .f32⟩ : BufTy).Contents (Elt F)),
    unary main_arg14 main_v156 (broadcastInDim S1x64 ![1] bcast_S64_S1x64_1 : (⟨S64, .f32⟩ : BufTy).Contents (Elt F) → (⟨S1x64, .f32⟩ : BufTy).Contents (Elt F)),
    unary main_v156 main_v157 (broadcastInDim S50000x64 ![0, 1] bcast_S1x64_S50000x64_0_1 : (⟨S1x64, .f32⟩ : BufTy).Contents (Elt F) → (⟨S50000x64, .f32⟩ : BufTy).Contents (Elt F)),
    binary main_v155 main_v157 main_v158 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v158) (TRef.of (T := ⟨S50000x64, .f32⟩) main_call3_v0) (TRef.of (T := ⟨S50000x64, .f32⟩) main_v159) maximumf,
    binary main_v159 main_arg19 main_v160 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg20 main_v161 (broadcastInDim S1x64 ![1] bcast_S64_S1x64_1 : (⟨S64, .f32⟩ : BufTy).Contents (Elt F) → (⟨S1x64, .f32⟩ : BufTy).Contents (Elt F)),
    unary main_v161 main_v162 (broadcastInDim S50000x64 ![0, 1] bcast_S1x64_S50000x64_0_1 : (⟨S1x64, .f32⟩ : BufTy).Contents (Elt F) → (⟨S50000x64, .f32⟩ : BufTy).Contents (Elt F)),
    binary main_v160 main_v162 main_v163 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v163) (TRef.of (T := ⟨S50000x64, .f32⟩) main_call4_v0) (TRef.of (T := ⟨S50000x64, .f32⟩) main_v164) maximumf,
    binary main_v164 main_arg21 main_v165 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg22 main_v166 (broadcastInDim S1x1 ![1] bcast_S1_S1x1_1 : (⟨S1, .f32⟩ : BufTy).Contents (Elt F) → (⟨S1x1, .f32⟩ : BufTy).Contents (Elt F)),
    unary main_v166 main_v167 (broadcastInDim S50000x1 ![0, 1] bcast_S1x1_S50000x1_0_1 : (⟨S1x1, .f32⟩ : BufTy).Contents (Elt F) → (⟨S50000x1, .f32⟩ : BufTy).Contents (Elt F)),
    binary main_v165 main_v167 main_v168 (addf : (⟨S50000x1, .f32⟩ : BufTy).Contents (Elt F) → (⟨S50000x1, .f32⟩ : BufTy).Contents (Elt F) → (⟨S50000x1, .f32⟩ : BufTy).Contents (Elt F)),
    reshape main_v168 main_v169 rfl shapeCasts_S50000x1_S50000,
    nullary main_cst_31 (constant S_ .f32 0x00000000#32),
    binary main_v159 main_cst_31 main_v170 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_v170 main_v171 (broadcastInDim S1x64 ![1] bcast_S64_S1x64_1 : (⟨S64, .f32⟩ : BufTy).Contents (Elt F) → (⟨S1x64, .f32⟩ : BufTy).Contents (Elt F)),
    nullary main_cst_32 (constant S_ .f32 0x47435000#32),
    unary main_cst_32 main_v172 (broadcastInDim S1x64 ![] bcast_S_S1x64 : (⟨S_, .f32⟩ : BufTy).Contents (Elt F) → (⟨S1x64, .f32⟩ : BufTy).Contents (Elt F)),
    binary main_v171 main_v172 main_v173 (Host.divf : (⟨S1x64, .f32⟩ : BufTy).Contents (Elt F) → (⟨S1x64, .f32⟩ : BufTy).Contents (Elt F) → (⟨S1x64, .f32⟩ : BufTy).Contents (Elt F)),
    binary main_v173 main_arg15 main_v174 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_arg16 main_v175 (broadcastInDim S1x64 ![1] bcast_S64_S1x64_1 : (⟨S64, .f32⟩ : BufTy).Contents (Elt F) → (⟨S1x64, .f32⟩ : BufTy).Contents (Elt F)),
    binary main_v174 main_v175 main_v176 (addf : (⟨S1x64, .f32⟩ : BufTy).Contents (Elt F) → (⟨S1x64, .f32⟩ : BufTy).Contents (Elt F) → (⟨S1x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1x64, .f32⟩) main_call5_v0) (broadcastInDim S1x64 ![] bcast_S_S1x64),
    TRef.binary (TRef.of (T := ⟨S1x64, .f32⟩) main_v176) (TRef.of (T := ⟨S1x64, .f32⟩) main_call5_v0) (TRef.of (T := ⟨S1x64, .f32⟩) main_v177) maximumf,
    binary main_v177 main_arg17 main_v178 ((fun l r => Host.dotGeneral dot_S1x64_S64x1_S1x1_1_0_0_1_n_n none l r) : (⟨S1x64, .f32⟩ : BufTy).Contents (Elt F) → (⟨S64x1, .f32⟩ : BufTy).Contents (Elt F) → (⟨S1x1, .f32⟩ : BufTy).Contents (Elt F)),
    unary main_arg18 main_v179 (broadcastInDim S1x1 ![1] bcast_S1_S1x1_1 : (⟨S1, .f32⟩ : BufTy).Contents (Elt F) → (⟨S1x1, .f32⟩ : BufTy).Contents (Elt F)),
    binary main_v178 main_v179 main_v180 (addf : (⟨S1x1, .f32⟩ : BufTy).Contents (Elt F) → (⟨S1x1, .f32⟩ : BufTy).Contents (Elt F) → (⟨S1x1, .f32⟩ : BufTy).Contents (Elt F)),
    reshape main_v180 main_v181 rfl shapeCasts_S1x1_S_,
    nullary main_cst_33 (constant S_ .f32 0x00000000#32),
    binary main_v169 main_cst_33 main_v182 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_34 (constant S_ .f32 0x47435000#32),
    binary main_v182 main_cst_34 main_v183 (Host.divf : (⟨S_, .f32⟩ : BufTy).Contents (Elt F) → (⟨S_, .f32⟩ : BufTy).Contents (Elt F) → (⟨S_, .f32⟩ : BufTy).Contents (Elt F)),
    unary main_v183 main_v184 (broadcastInDim S50000 ![] bcast_S_S50000 : (⟨S_, .f32⟩ : BufTy).Contents (Elt F) → (⟨S50000, .f32⟩ : BufTy).Contents (Elt F)),
    binary main_v169 main_v184 main_v185 (subf : (⟨S50000, .f32⟩ : BufTy).Contents (Elt F) → (⟨S50000, .f32⟩ : BufTy).Contents (Elt F) → (⟨S50000, .f32⟩ : BufTy).Contents (Elt F)),
    unary main_v181 main_v186 (broadcastInDim S50000 ![] bcast_S_S50000 : (⟨S_, .f32⟩ : BufTy).Contents (Elt F) → (⟨S50000, .f32⟩ : BufTy).Contents (Elt F)),
    binary main_v186 main_v185 main_v187 (addf : (⟨S50000, .f32⟩ : BufTy).Contents (Elt F) → (⟨S50000, .f32⟩ : BufTy).Contents (Elt F) → (⟨S50000, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., nullary_bufs_sub .., binary_bufs_sub .., unary_bufs_sub .., nullary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., reshape_bufs_sub .., nullary_bufs_sub .., binary_bufs_sub .., nullary_bufs_sub .., binary_bufs_sub .., unary_bufs_sub .., binary_bufs_sub .., unary_bufs_sub .., binary_bufs_sub ..⟩

/-! ## The seventeen stretches -/

/-- Operations 0 to 21 of @main. -/
abbrev opsC1 : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S50000 ![] bcast_S_S50000 : (⟨S_, .f32⟩ : BufTy).Contents (Elt F) → (⟨S50000, .f32⟩ : BufTy).Contents (Elt F)),
    binary main_arg2 main_v7 main_v8 ((fun a b => concatenate S1650000 0 [⟨S1600000, a⟩, ⟨S50000, b⟩] concatenates_S1600000_S50000_S1650000_d0) : (⟨S1600000, .f32⟩ : BufTy).Contents (Elt F) → (⟨S50000, .f32⟩ : BufTy).Contents (Elt F) → (⟨S1650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S1650000x1 ![0] bcast_S1650000_S1650000x1_0 : (⟨S1650000, .i32⟩ : BufTy).Contents (Elt F) → (⟨S1650000x1, .i32⟩ : BufTy).Contents (Elt F)),
    ternary main_v9 main_v10 main_v8 main_v11 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32) ]

/-- Operations 22 to 24 of @main. -/
abbrev opsC2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select ]

/-- Operations 25 to 44 of @main. -/
abbrev opsC3 : List (HloOp τ sig (Elt F)) :=
  [ nullary main_c (constantI S_ 32 0#32),
    unary main_c main_v18 (broadcastInDim S1650000 ![] bcast_S_S1650000 : (⟨S_, .i32⟩ : BufTy).Contents (Elt F) → (⟨S1650000, .i32⟩ : BufTy).Contents (Elt F)),
    binary main_v3 main_v18 main_v19 (cmpi .slt : (⟨S1650000, .i32⟩ : BufTy).Contents (Elt F) → (⟨S1650000, .i32⟩ : BufTy).Contents (Elt F) → (⟨S1650000, .i1⟩ : BufTy).Contents (Elt F)),
    nullary main_c_4 (constantI S_ 32 50000#32),
    unary main_c_4 main_v20 (broadcastInDim S1650000 ![] bcast_S_S1650000 : (⟨S_, .i32⟩ : BufTy).Contents (Elt F) → (⟨S1650000, .i32⟩ : BufTy).Contents (Elt F)),
    binary main_v3 main_v20 main_v21 (addi : (⟨S1650000, .i32⟩ : BufTy).Contents (Elt F) → (⟨S1650000, .i32⟩ : BufTy).Contents (Elt F) → (⟨S1650000, .i32⟩ : BufTy).Contents (Elt F)),
    ternary main_v19 main_v21 main_v3 main_v22 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v22 main_v23 (broadcastInDim S1650000x1 ![0] bcast_S1650000_S1650000x1_0 : (⟨S1650000, .i32⟩ : BufTy).Contents (Elt F) → (⟨S1650000x1, .i32⟩ : BufTy).Contents (Elt F)),
    binary main_v17 main_v23 main_v24 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v24 main_v8 main_v25 (mulf : (⟨S1650000, .f32⟩ : BufTy).Contents (Elt F) → (⟨S1650000, .f32⟩ : BufTy).Contents (Elt F) → (⟨S1650000, .f32⟩ : BufTy).Contents (Elt F)),
    nullary main_c_5 (constantI S_ 32 0#32),
    unary main_c_5 main_v26 (broadcastInDim S1650000 ![] bcast_S_S1650000 : (⟨S_, .i32⟩ : BufTy).Contents (Elt F) → (⟨S1650000, .i32⟩ : BufTy).Contents (Elt F)),
    binary main_v6 main_v26 main_v27 (cmpi .slt : (⟨S1650000, .i32⟩ : BufTy).Contents (Elt F) → (⟨S1650000, .i32⟩ : BufTy).Contents (Elt F) → (⟨S1650000, .i1⟩ : BufTy).Contents (Elt F)),
    nullary main_c_6 (constantI S_ 32 50000#32),
    unary main_c_6 main_v28 (broadcastInDim S1650000 ![] bcast_S_S1650000 : (⟨S_, .i32⟩ : BufTy).Contents (Elt F) → (⟨S1650000, .i32⟩ : BufTy).Contents (Elt F)),
    binary main_v6 main_v28 main_v29 (addi : (⟨S1650000, .i32⟩ : BufTy).Contents (Elt F) → (⟨S1650000, .i32⟩ : BufTy).Contents (Elt F) → (⟨S1650000, .i32⟩ : BufTy).Contents (Elt F)),
    ternary main_v27 main_v29 main_v6 main_v30 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v30 main_v31 (broadcastInDim S1650000x1 ![0] bcast_S1650000_S1650000x1_0 : (⟨S1650000, .i32⟩ : BufTy).Contents (Elt F) → (⟨S1650000x1, .i32⟩ : BufTy).Contents (Elt F)),
    binary main_v17 main_v31 main_v32 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v25 main_v32 main_v33 (mulf : (⟨S1650000, .f32⟩ : BufTy).Contents (Elt F) → (⟨S1650000, .f32⟩ : BufTy).Contents (Elt F) → (⟨S1650000, .f32⟩ : BufTy).Contents (Elt F)) ]

/-- Operations 45 to 61 of @main. -/
abbrev opsC4 : List (HloOp τ sig (Elt F)) :=
  [ binary main_arg0 main_arg3 main_v34 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_v33 main_v35 (broadcastInDim S1650000x1 ![0] bcast_S1650000_S1650000x1_0 : (⟨S1650000, .f32⟩ : BufTy).Contents (Elt F) → (⟨S1650000x1, .f32⟩ : BufTy).Contents (Elt F)),
    nullary main_c_7 (constantI S_ 32 0#32),
    unary main_c_7 main_v36 (broadcastInDim S1650000 ![] bcast_S_S1650000 : (⟨S_, .i32⟩ : BufTy).Contents (Elt F) → (⟨S1650000, .i32⟩ : BufTy).Contents (Elt F)),
    binary main_v3 main_v36 main_v37 (cmpi .slt : (⟨S1650000, .i32⟩ : BufTy).Contents (Elt F) → (⟨S1650000, .i32⟩ : BufTy).Contents (Elt F) → (⟨S1650000, .i1⟩ : BufTy).Contents (Elt F)),
    nullary main_c_8 (constantI S_ 32 50000#32),
    unary main_c_8 main_v38 (broadcastInDim S1650000 ![] bcast_S_S1650000 : (⟨S_, .i32⟩ : BufTy).Contents (Elt F) → (⟨S1650000, .i32⟩ : BufTy).Contents (Elt F)),
    binary main_v3 main_v38 main_v39 (addi : (⟨S1650000, .i32⟩ : BufTy).Contents (Elt F) → (⟨S1650000, .i32⟩ : BufTy).Contents (Elt F) → (⟨S1650000, .i32⟩ : BufTy).Contents (Elt F)),
    ternary main_v37 main_v39 main_v3 main_v40 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v40 main_v41 (broadcastInDim S1650000x1 ![0] bcast_S1650000_S1650000x1_0 : (⟨S1650000, .i32⟩ : BufTy).Contents (Elt F) → (⟨S1650000x1, .i32⟩ : BufTy).Contents (Elt F)),
    binary main_v34 main_v41 main_v42 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v35 main_v43 (broadcastInDim S1650000x128 ![0, 1] bcast_S1650000x1_S1650000x128_0_1 : (⟨S1650000x1, .f32⟩ : BufTy).Contents (Elt F) → (⟨S1650000x128, .f32⟩ : BufTy).Contents (Elt F)),
    binary main_v43 main_v42 main_v44 (mulf : (⟨S1650000x128, .f32⟩ : BufTy).Contents (Elt F) → (⟨S1650000x128, .f32⟩ : BufTy).Contents (Elt F) → (⟨S1650000x128, .f32⟩ : BufTy).Contents (Elt F)),
    nullary main_cst_9 (constant S_ .f32 0x00000000#32),
    unary main_cst_9 main_v45 (broadcastInDim S50000x128 ![] bcast_S_S50000x128 : (⟨S_, .f32⟩ : BufTy).Contents (Elt F) → (⟨S50000x128, .f32⟩ : BufTy).Contents (Elt F)),
    unary main_v6 main_v46 (broadcastInDim S1650000x1 ![0] bcast_S1650000_S1650000x1_0 : (⟨S1650000, .i32⟩ : BufTy).Contents (Elt F) → (⟨S1650000x1, .i32⟩ : BufTy).Contents (Elt F)),
    ternary main_v45 main_v46 main_v44 main_v47 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- Operations 62 to 93 of @main. -/
abbrev opsC5 : List (HloOp τ sig (Elt F)) :=
  [ unary main_arg4 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v50 main_cst_10 main_v51 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v51 main_v52 (broadcastInDim S50000x1 ![0] bcast_S50000_S50000x1_0 : (⟨S50000, .f32⟩ : BufTy).Contents (Elt F) → (⟨S50000x1, .f32⟩ : BufTy).Contents (Elt F)),
    nullary main_cst_11 (constant S_ .f32 0x43000000#32),
    unary main_cst_11 main_v53 (broadcastInDim S50000x1 ![] bcast_S_S50000x1 : (⟨S_, .f32⟩ : BufTy).Contents (Elt F) → (⟨S50000x1, .f32⟩ : BufTy).Contents (Elt F)),
    binary main_v52 main_v53 main_v54 (Host.divf : (⟨S50000x1, .f32⟩ : BufTy).Contents (Elt F) → (⟨S50000x1, .f32⟩ : BufTy).Contents (Elt F) → (⟨S50000x1, .f32⟩ : BufTy).Contents (Elt F)),
    unary main_v54 main_v55 (broadcastInDim S50000x128 ![0, 1] bcast_S50000x1_S50000x128_0_1 : (⟨S50000x1, .f32⟩ : BufTy).Contents (Elt F) → (⟨S50000x128, .f32⟩ : BufTy).Contents (Elt F)),
    binary main_v50 main_v55 main_v56 (subf : (⟨S50000x128, .f32⟩ : BufTy).Contents (Elt F) → (⟨S50000x128, .f32⟩ : BufTy).Contents (Elt F) → (⟨S50000x128, .f32⟩ : BufTy).Contents (Elt F)),
    binary main_v56 main_v56 main_v57 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v57 main_cst_12 main_v58 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v58 main_v59 (broadcastInDim S50000x1 ![0] bcast_S50000_S50000x1_0 : (⟨S50000, .f32⟩ : BufTy).Contents (Elt F) → (⟨S50000x1, .f32⟩ : BufTy).Contents (Elt F)),
    nullary main_cst_13 (constant S_ .f32 0x43000000#32),
    unary main_cst_13 main_v60 (broadcastInDim S50000x1 ![] bcast_S_S50000x1 : (⟨S_, .f32⟩ : BufTy).Contents (Elt F) → (⟨S50000x1, .f32⟩ : BufTy).Contents (Elt F)),
    binary main_v59 main_v60 main_v61 (Host.divf : (⟨S50000x1, .f32⟩ : BufTy).Contents (Elt F) → (⟨S50000x1, .f32⟩ : BufTy).Contents (Elt F) → (⟨S50000x1, .f32⟩ : BufTy).Contents (Elt F)),
    unary main_v54 main_v62 (broadcastInDim S50000x128 ![0, 1] bcast_S50000x1_S50000x128_0_1 : (⟨S50000x1, .f32⟩ : BufTy).Contents (Elt F) → (⟨S50000x128, .f32⟩ : BufTy).Contents (Elt F)),
    binary main_v50 main_v62 main_v63 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v64 (broadcastInDim S50000x1 ![] bcast_S_S50000x1 : (⟨S_, .f32⟩ : BufTy).Contents (Elt F) → (⟨S50000x1, .f32⟩ : BufTy).Contents (Elt F)),
    binary main_v61 main_v64 main_v65 (addf : (⟨S50000x1, .f32⟩ : BufTy).Contents (Elt F) → (⟨S50000x1, .f32⟩ : BufTy).Contents (Elt F) → (⟨S50000x1, .f32⟩ : BufTy).Contents (Elt F)),
    unary main_v65 main_v66 (Host.rsqrt : (⟨S50000x1, .f32⟩ : BufTy).Contents (Elt F) → (⟨S50000x1, .f32⟩ : BufTy).Contents (Elt F)),
    unary main_v66 main_v67 (broadcastInDim S50000x128 ![0, 1] bcast_S50000x1_S50000x128_0_1 : (⟨S50000x1, .f32⟩ : BufTy).Contents (Elt F) → (⟨S50000x128, .f32⟩ : BufTy).Contents (Elt F)),
    binary main_v63 main_v67 main_v68 (mulf : (⟨S50000x128, .f32⟩ : BufTy).Contents (Elt F) → (⟨S50000x128, .f32⟩ : BufTy).Contents (Elt F) → (⟨S50000x128, .f32⟩ : BufTy).Contents (Elt F)),
    unary main_arg9 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (mulf : (⟨S50000x128, .f32⟩ : BufTy).Contents (Elt F) → (⟨S50000x128, .f32⟩ : BufTy).Contents (Elt F) → (⟨S50000x128, .f32⟩ : BufTy).Contents (Elt F)),
    unary main_arg10 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)) ]

/-- Operations 94 to 96 of @main. -/
abbrev opsC6 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v74) (TRef.of (T := ⟨S50000x128, .f32⟩) main_call1_v0) (TRef.of (T := ⟨S50000x128, .f32⟩) main_v75) maximumf ]

/-- Operations 97 to 113 of @main. -/
abbrev opsC7 : List (HloOp τ sig (Elt F)) :=
  [ binary main_v75 main_arg5 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v33 main_v77 (broadcastInDim S1650000x1 ![0] bcast_S1650000_S1650000x1_0 : (⟨S1650000, .f32⟩ : BufTy).Contents (Elt F) → (⟨S1650000x1, .f32⟩ : BufTy).Contents (Elt F)),
    nullary main_c_15 (constantI S_ 32 0#32),
    unary main_c_15 main_v78 (broadcastInDim S1650000 ![] bcast_S_S1650000 : (⟨S_, .i32⟩ : BufTy).Contents (Elt F) → (⟨S1650000, .i32⟩ : BufTy).Contents (Elt F)),
    binary main_v3 main_v78 main_v79 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v80 (broadcastInDim S1650000 ![] bcast_S_S1650000 : (⟨S_, .i32⟩ : BufTy).Contents (Elt F) → (⟨S1650000, .i32⟩ : BufTy).Contents (Elt F)),
    binary main_v3 main_v80 main_v81 (addi : (⟨S1650000, .i32⟩ : BufTy).Contents (Elt F) → (⟨S1650000, .i32⟩ : BufTy).Contents (Elt F) → (⟨S1650000, .i32⟩ : BufTy).Contents (Elt F)),
    ternary main_v79 main_v81 main_v3 main_v82 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v82 main_v83 (broadcastInDim S1650000x1 ![0] bcast_S1650000_S1650000x1_0 : (⟨S1650000, .i32⟩ : BufTy).Contents (Elt F) → (⟨S1650000x1, .i32⟩ : BufTy).Contents (Elt F)),
    binary main_v76 main_v83 main_v84 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v77 main_v85 (broadcastInDim S1650000x128 ![0, 1] bcast_S1650000x1_S1650000x128_0_1 : (⟨S1650000x1, .f32⟩ : BufTy).Contents (Elt F) → (⟨S1650000x128, .f32⟩ : BufTy).Contents (Elt F)),
    binary main_v85 main_v84 main_v86 (mulf : (⟨S1650000x128, .f32⟩ : BufTy).Contents (Elt F) → (⟨S1650000x128, .f32⟩ : BufTy).Contents (Elt F) → (⟨S1650000x128, .f32⟩ : BufTy).Contents (Elt F)),
    nullary main_cst_17 (constant S_ .f32 0x00000000#32),
    unary main_cst_17 main_v87 (broadcastInDim S50000x128 ![] bcast_S_S50000x128 : (⟨S_, .f32⟩ : BufTy).Contents (Elt F) → (⟨S50000x128, .f32⟩ : BufTy).Contents (Elt F)),
    unary main_v6 main_v88 (broadcastInDim S1650000x1 ![0] bcast_S1650000_S1650000x1_0 : (⟨S1650000, .i32⟩ : BufTy).Contents (Elt F) → (⟨S1650000x1, .i32⟩ : BufTy).Contents (Elt F)),
    ternary main_v87 main_v88 main_v86 main_v89 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- Operations 114 to 145 of @main. -/
abbrev opsC8 : List (HloOp τ sig (Elt F)) :=
  [ unary main_arg6 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v92 main_cst_18 main_v93 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v93 main_v94 (broadcastInDim S50000x1 ![0] bcast_S50000_S50000x1_0 : (⟨S50000, .f32⟩ : BufTy).Contents (Elt F) → (⟨S50000x1, .f32⟩ : BufTy).Contents (Elt F)),
    nullary main_cst_19 (constant S_ .f32 0x43000000#32),
    unary main_cst_19 main_v95 (broadcastInDim S50000x1 ![] bcast_S_S50000x1 : (⟨S_, .f32⟩ : BufTy).Contents (Elt F) → (⟨S50000x1, .f32⟩ : BufTy).Contents (Elt F)),
    binary main_v94 main_v95 main_v96 (Host.divf : (⟨S50000x1, .f32⟩ : BufTy).Contents (Elt F) → (⟨S50000x1, .f32⟩ : BufTy).Contents (Elt F) → (⟨S50000x1, .f32⟩ : BufTy).Contents (Elt F)),
    unary main_v96 main_v97 (broadcastInDim S50000x128 ![0, 1] bcast_S50000x1_S50000x128_0_1 : (⟨S50000x1, .f32⟩ : BufTy).Contents (Elt F) → (⟨S50000x128, .f32⟩ : BufTy).Contents (Elt F)),
    binary main_v92 main_v97 main_v98 (subf : (⟨S50000x128, .f32⟩ : BufTy).Contents (Elt F) → (⟨S50000x128, .f32⟩ : BufTy).Contents (Elt F) → (⟨S50000x128, .f32⟩ : BufTy).Contents (Elt F)),
    binary main_v98 main_v98 main_v99 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v99 main_cst_20 main_v100 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v100 main_v101 (broadcastInDim S50000x1 ![0] bcast_S50000_S50000x1_0 : (⟨S50000, .f32⟩ : BufTy).Contents (Elt F) → (⟨S50000x1, .f32⟩ : BufTy).Contents (Elt F)),
    nullary main_cst_21 (constant S_ .f32 0x43000000#32),
    unary main_cst_21 main_v102 (broadcastInDim S50000x1 ![] bcast_S_S50000x1 : (⟨S_, .f32⟩ : BufTy).Contents (Elt F) → (⟨S50000x1, .f32⟩ : BufTy).Contents (Elt F)),
    binary main_v101 main_v102 main_v103 (Host.divf : (⟨S50000x1, .f32⟩ : BufTy).Contents (Elt F) → (⟨S50000x1, .f32⟩ : BufTy).Contents (Elt F) → (⟨S50000x1, .f32⟩ : BufTy).Contents (Elt F)),
    unary main_v96 main_v104 (broadcastInDim S50000x128 ![0, 1] bcast_S50000x1_S50000x128_0_1 : (⟨S50000x1, .f32⟩ : BufTy).Contents (Elt F) → (⟨S50000x128, .f32⟩ : BufTy).Contents (Elt F)),
    binary main_v92 main_v104 main_v105 (subf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x3727C5AC#32),
    unary main_cst_22 main_v106 (broadcastInDim S50000x1 ![] bcast_S_S50000x1 : (⟨S_, .f32⟩ : BufTy).Contents (Elt F) → (⟨S50000x1, .f32⟩ : BufTy).Contents (Elt F)),
    binary main_v103 main_v106 main_v107 (addf : (⟨S50000x1, .f32⟩ : BufTy).Contents (Elt F) → (⟨S50000x1, .f32⟩ : BufTy).Contents (Elt F) → (⟨S50000x1, .f32⟩ : BufTy).Contents (Elt F)),
    unary main_v107 main_v108 (Host.rsqrt : (⟨S50000x1, .f32⟩ : BufTy).Contents (Elt F) → (⟨S50000x1, .f32⟩ : BufTy).Contents (Elt F)),
    unary main_v108 main_v109 (broadcastInDim S50000x128 ![0, 1] bcast_S50000x1_S50000x128_0_1 : (⟨S50000x1, .f32⟩ : BufTy).Contents (Elt F) → (⟨S50000x128, .f32⟩ : BufTy).Contents (Elt F)),
    binary main_v105 main_v109 main_v110 (mulf : (⟨S50000x128, .f32⟩ : BufTy).Contents (Elt F) → (⟨S50000x128, .f32⟩ : BufTy).Contents (Elt F) → (⟨S50000x128, .f32⟩ : BufTy).Contents (Elt F)),
    unary main_arg11 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v110 main_v112 main_v113 (mulf : (⟨S50000x128, .f32⟩ : BufTy).Contents (Elt F) → (⟨S50000x128, .f32⟩ : BufTy).Contents (Elt F) → (⟨S50000x128, .f32⟩ : BufTy).Contents (Elt F)),
    unary main_arg12 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (addf : (⟨S50000x128, .f32⟩ : BufTy).Contents (Elt F) → (⟨S50000x128, .f32⟩ : BufTy).Contents (Elt F) → (⟨S50000x128, .f32⟩ : BufTy).Contents (Elt F)) ]

/-- Operations 146 to 148 of @main. -/
abbrev opsC9 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v116) (TRef.of (T := ⟨S50000x128, .f32⟩) main_call2_v0) (TRef.of (T := ⟨S50000x128, .f32⟩) main_v117) maximumf ]

/-- Operations 149 to 165 of @main. -/
abbrev opsC10 : List (HloOp τ sig (Elt F)) :=
  [ binary main_v117 main_arg7 main_v118 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v33 main_v119 (broadcastInDim S1650000x1 ![0] bcast_S1650000_S1650000x1_0 : (⟨S1650000, .f32⟩ : BufTy).Contents (Elt F) → (⟨S1650000x1, .f32⟩ : BufTy).Contents (Elt F)),
    nullary main_c_23 (constantI S_ 32 0#32),
    unary main_c_23 main_v120 (broadcastInDim S1650000 ![] bcast_S_S1650000 : (⟨S_, .i32⟩ : BufTy).Contents (Elt F) → (⟨S1650000, .i32⟩ : BufTy).Contents (Elt F)),
    binary main_v3 main_v120 main_v121 (cmpi .slt : (⟨S1650000, .i32⟩ : BufTy).Contents (Elt F) → (⟨S1650000, .i32⟩ : BufTy).Contents (Elt F) → (⟨S1650000, .i1⟩ : BufTy).Contents (Elt F)),
    nullary main_c_24 (constantI S_ 32 50000#32),
    unary main_c_24 main_v122 (broadcastInDim S1650000 ![] bcast_S_S1650000 : (⟨S_, .i32⟩ : BufTy).Contents (Elt F) → (⟨S1650000, .i32⟩ : BufTy).Contents (Elt F)),
    binary main_v3 main_v122 main_v123 (addi : (⟨S1650000, .i32⟩ : BufTy).Contents (Elt F) → (⟨S1650000, .i32⟩ : BufTy).Contents (Elt F) → (⟨S1650000, .i32⟩ : BufTy).Contents (Elt F)),
    ternary main_v121 main_v123 main_v3 main_v124 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v124 main_v125 (broadcastInDim S1650000x1 ![0] bcast_S1650000_S1650000x1_0 : (⟨S1650000, .i32⟩ : BufTy).Contents (Elt F) → (⟨S1650000x1, .i32⟩ : BufTy).Contents (Elt F)),
    binary main_v118 main_v125 main_v126 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v119 main_v127 (broadcastInDim S1650000x64 ![0, 1] bcast_S1650000x1_S1650000x64_0_1 : (⟨S1650000x1, .f32⟩ : BufTy).Contents (Elt F) → (⟨S1650000x64, .f32⟩ : BufTy).Contents (Elt F)),
    binary main_v127 main_v126 main_v128 (mulf : (⟨S1650000x64, .f32⟩ : BufTy).Contents (Elt F) → (⟨S1650000x64, .f32⟩ : BufTy).Contents (Elt F) → (⟨S1650000x64, .f32⟩ : BufTy).Contents (Elt F)),
    nullary main_cst_25 (constant S_ .f32 0x00000000#32),
    unary main_cst_25 main_v129 (broadcastInDim S50000x64 ![] bcast_S_S50000x64 : (⟨S_, .f32⟩ : BufTy).Contents (Elt F) → (⟨S50000x64, .f32⟩ : BufTy).Contents (Elt F)),
    unary main_v6 main_v130 (broadcastInDim S1650000x1 ![0] bcast_S1650000_S1650000x1_0 : (⟨S1650000, .i32⟩ : BufTy).Contents (Elt F) → (⟨S1650000x1, .i32⟩ : BufTy).Contents (Elt F)),
    ternary main_v129 main_v130 main_v128 main_v131 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)) ]

/-- Operations 166 to 197 of @main. -/
abbrev opsC11 : List (HloOp τ sig (Elt F)) :=
  [ unary main_arg8 main_v132 (broadcastInDim S1x64 ![1] bcast_S64_S1x64_1 : (⟨S64, .f32⟩ : BufTy).Contents (Elt F) → (⟨S1x64, .f32⟩ : BufTy).Contents (Elt F)),
    unary main_v132 main_v133 (broadcastInDim S50000x64 ![0, 1] bcast_S1x64_S50000x64_0_1 : (⟨S1x64, .f32⟩ : BufTy).Contents (Elt F) → (⟨S50000x64, .f32⟩ : BufTy).Contents (Elt F)),
    binary main_v131 main_v133 main_v134 (addf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x00000000#32),
    binary main_v134 main_cst_26 main_v135 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v135 main_v136 (broadcastInDim S50000x1 ![0] bcast_S50000_S50000x1_0 : (⟨S50000, .f32⟩ : BufTy).Contents (Elt F) → (⟨S50000x1, .f32⟩ : BufTy).Contents (Elt F)),
    nullary main_cst_27 (constant S_ .f32 0x42800000#32),
    unary main_cst_27 main_v137 (broadcastInDim S50000x1 ![] bcast_S_S50000x1 : (⟨S_, .f32⟩ : BufTy).Contents (Elt F) → (⟨S50000x1, .f32⟩ : BufTy).Contents (Elt F)),
    binary main_v136 main_v137 main_v138 (Host.divf : (⟨S50000x1, .f32⟩ : BufTy).Contents (Elt F) → (⟨S50000x1, .f32⟩ : BufTy).Contents (Elt F) → (⟨S50000x1, .f32⟩ : BufTy).Contents (Elt F)),
    unary main_v138 main_v139 (broadcastInDim S50000x64 ![0, 1] bcast_S50000x1_S50000x64_0_1 : (⟨S50000x1, .f32⟩ : BufTy).Contents (Elt F) → (⟨S50000x64, .f32⟩ : BufTy).Contents (Elt F)),
    binary main_v134 main_v139 main_v140 (subf : (⟨S50000x64, .f32⟩ : BufTy).Contents (Elt F) → (⟨S50000x64, .f32⟩ : BufTy).Contents (Elt F) → (⟨S50000x64, .f32⟩ : BufTy).Contents (Elt F)),
    binary main_v140 main_v140 main_v141 (mulf : (⟨S50000x64, .f32⟩ : BufTy).Contents (Elt F) → (⟨S50000x64, .f32⟩ : BufTy).Contents (Elt F) → (⟨S50000x64, .f32⟩ : BufTy).Contents (Elt F)),
    nullary main_cst_28 (constant S_ .f32 0x00000000#32),
    binary main_v141 main_cst_28 main_v142 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v142 main_v143 (broadcastInDim S50000x1 ![0] bcast_S50000_S50000x1_0 : (⟨S50000, .f32⟩ : BufTy).Contents (Elt F) → (⟨S50000x1, .f32⟩ : BufTy).Contents (Elt F)),
    nullary main_cst_29 (constant S_ .f32 0x42800000#32),
    unary main_cst_29 main_v144 (broadcastInDim S50000x1 ![] bcast_S_S50000x1 : (⟨S_, .f32⟩ : BufTy).Contents (Elt F) → (⟨S50000x1, .f32⟩ : BufTy).Contents (Elt F)),
    binary main_v143 main_v144 main_v145 (Host.divf : (⟨S50000x1, .f32⟩ : BufTy).Contents (Elt F) → (⟨S50000x1, .f32⟩ : BufTy).Contents (Elt F) → (⟨S50000x1, .f32⟩ : BufTy).Contents (Elt F)),
    unary main_v138 main_v146 (broadcastInDim S50000x64 ![0, 1] bcast_S50000x1_S50000x64_0_1 : (⟨S50000x1, .f32⟩ : BufTy).Contents (Elt F) → (⟨S50000x64, .f32⟩ : BufTy).Contents (Elt F)),
    binary main_v134 main_v146 main_v147 (subf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x3727C5AC#32),
    unary main_cst_30 main_v148 (broadcastInDim S50000x1 ![] bcast_S_S50000x1 : (⟨S_, .f32⟩ : BufTy).Contents (Elt F) → (⟨S50000x1, .f32⟩ : BufTy).Contents (Elt F)),
    binary main_v145 main_v148 main_v149 (addf : (⟨S50000x1, .f32⟩ : BufTy).Contents (Elt F) → (⟨S50000x1, .f32⟩ : BufTy).Contents (Elt F) → (⟨S50000x1, .f32⟩ : BufTy).Contents (Elt F)),
    unary main_v149 main_v150 (Host.rsqrt : (⟨S50000x1, .f32⟩ : BufTy).Contents (Elt F) → (⟨S50000x1, .f32⟩ : BufTy).Contents (Elt F)),
    unary main_v150 main_v151 (broadcastInDim S50000x64 ![0, 1] bcast_S50000x1_S50000x64_0_1 : (⟨S50000x1, .f32⟩ : BufTy).Contents (Elt F) → (⟨S50000x64, .f32⟩ : BufTy).Contents (Elt F)),
    binary main_v147 main_v151 main_v152 (mulf : (⟨S50000x64, .f32⟩ : BufTy).Contents (Elt F) → (⟨S50000x64, .f32⟩ : BufTy).Contents (Elt F) → (⟨S50000x64, .f32⟩ : BufTy).Contents (Elt F)),
    unary main_arg13 main_v153 (broadcastInDim S1x64 ![1] bcast_S64_S1x64_1 : (⟨S64, .f32⟩ : BufTy).Contents (Elt F) → (⟨S1x64, .f32⟩ : BufTy).Contents (Elt F)),
    unary main_v153 main_v154 (broadcastInDim S50000x64 ![0, 1] bcast_S1x64_S50000x64_0_1 : (⟨S1x64, .f32⟩ : BufTy).Contents (Elt F) → (⟨S50000x64, .f32⟩ : BufTy).Contents (Elt F)),
    binary main_v152 main_v154 main_v155 (mulf : (⟨S50000x64, .f32⟩ : BufTy).Contents (Elt F) → (⟨S50000x64, .f32⟩ : BufTy).Contents (Elt F) → (⟨S50000x64, .f32⟩ : BufTy).Contents (Elt F)),
    unary main_arg14 main_v156 (broadcastInDim S1x64 ![1] bcast_S64_S1x64_1 : (⟨S64, .f32⟩ : BufTy).Contents (Elt F) → (⟨S1x64, .f32⟩ : BufTy).Contents (Elt F)),
    unary main_v156 main_v157 (broadcastInDim S50000x64 ![0, 1] bcast_S1x64_S50000x64_0_1 : (⟨S1x64, .f32⟩ : BufTy).Contents (Elt F) → (⟨S50000x64, .f32⟩ : BufTy).Contents (Elt F)),
    binary main_v155 main_v157 main_v158 (addf : (⟨S50000x64, .f32⟩ : BufTy).Contents (Elt F) → (⟨S50000x64, .f32⟩ : BufTy).Contents (Elt F) → (⟨S50000x64, .f32⟩ : BufTy).Contents (Elt F)) ]

/-- Operations 198 to 200 of @main. -/
abbrev opsC12 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v158) (TRef.of (T := ⟨S50000x64, .f32⟩) main_call3_v0) (TRef.of (T := ⟨S50000x64, .f32⟩) main_v159) maximumf ]

/-- Operations 201 to 204 of @main. -/
abbrev opsC13 : List (HloOp τ sig (Elt F)) :=
  [ binary main_v159 main_arg19 main_v160 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg20 main_v161 (broadcastInDim S1x64 ![1] bcast_S64_S1x64_1 : (⟨S64, .f32⟩ : BufTy).Contents (Elt F) → (⟨S1x64, .f32⟩ : BufTy).Contents (Elt F)),
    unary main_v161 main_v162 (broadcastInDim S50000x64 ![0, 1] bcast_S1x64_S50000x64_0_1 : (⟨S1x64, .f32⟩ : BufTy).Contents (Elt F) → (⟨S50000x64, .f32⟩ : BufTy).Contents (Elt F)),
    binary main_v160 main_v162 main_v163 (addf : (⟨S50000x64, .f32⟩ : BufTy).Contents (Elt F) → (⟨S50000x64, .f32⟩ : BufTy).Contents (Elt F) → (⟨S50000x64, .f32⟩ : BufTy).Contents (Elt F)) ]

/-- Operations 205 to 207 of @main. -/
abbrev opsC14 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v163) (TRef.of (T := ⟨S50000x64, .f32⟩) main_call4_v0) (TRef.of (T := ⟨S50000x64, .f32⟩) main_v164) maximumf ]

/-- Operations 208 to 221 of @main. -/
abbrev opsC15 : List (HloOp τ sig (Elt F)) :=
  [ binary main_v164 main_arg21 main_v165 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg22 main_v166 (broadcastInDim S1x1 ![1] bcast_S1_S1x1_1 : (⟨S1, .f32⟩ : BufTy).Contents (Elt F) → (⟨S1x1, .f32⟩ : BufTy).Contents (Elt F)),
    unary main_v166 main_v167 (broadcastInDim S50000x1 ![0, 1] bcast_S1x1_S50000x1_0_1 : (⟨S1x1, .f32⟩ : BufTy).Contents (Elt F) → (⟨S50000x1, .f32⟩ : BufTy).Contents (Elt F)),
    binary main_v165 main_v167 main_v168 (addf : (⟨S50000x1, .f32⟩ : BufTy).Contents (Elt F) → (⟨S50000x1, .f32⟩ : BufTy).Contents (Elt F) → (⟨S50000x1, .f32⟩ : BufTy).Contents (Elt F)),
    reshape main_v168 main_v169 rfl shapeCasts_S50000x1_S50000,
    nullary main_cst_31 (constant S_ .f32 0x00000000#32),
    binary main_v159 main_cst_31 main_v170 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_v170 main_v171 (broadcastInDim S1x64 ![1] bcast_S64_S1x64_1 : (⟨S64, .f32⟩ : BufTy).Contents (Elt F) → (⟨S1x64, .f32⟩ : BufTy).Contents (Elt F)),
    nullary main_cst_32 (constant S_ .f32 0x47435000#32),
    unary main_cst_32 main_v172 (broadcastInDim S1x64 ![] bcast_S_S1x64 : (⟨S_, .f32⟩ : BufTy).Contents (Elt F) → (⟨S1x64, .f32⟩ : BufTy).Contents (Elt F)),
    binary main_v171 main_v172 main_v173 (Host.divf : (⟨S1x64, .f32⟩ : BufTy).Contents (Elt F) → (⟨S1x64, .f32⟩ : BufTy).Contents (Elt F) → (⟨S1x64, .f32⟩ : BufTy).Contents (Elt F)),
    binary main_v173 main_arg15 main_v174 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_arg16 main_v175 (broadcastInDim S1x64 ![1] bcast_S64_S1x64_1 : (⟨S64, .f32⟩ : BufTy).Contents (Elt F) → (⟨S1x64, .f32⟩ : BufTy).Contents (Elt F)),
    binary main_v174 main_v175 main_v176 (addf : (⟨S1x64, .f32⟩ : BufTy).Contents (Elt F) → (⟨S1x64, .f32⟩ : BufTy).Contents (Elt F) → (⟨S1x64, .f32⟩ : BufTy).Contents (Elt F)) ]

/-- Operations 222 to 224 of @main. -/
abbrev opsC16 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S1x64, .f32⟩) main_call5_v0) (broadcastInDim S1x64 ![] bcast_S_S1x64),
    TRef.binary (TRef.of (T := ⟨S1x64, .f32⟩) main_v176) (TRef.of (T := ⟨S1x64, .f32⟩) main_call5_v0) (TRef.of (T := ⟨S1x64, .f32⟩) main_v177) maximumf ]

/-- Operations 225 to 236 of @main. -/
abbrev opsC17 : List (HloOp τ sig (Elt F)) :=
  [ binary main_v177 main_arg17 main_v178 ((fun l r => Host.dotGeneral dot_S1x64_S64x1_S1x1_1_0_0_1_n_n none l r) : (⟨S1x64, .f32⟩ : BufTy).Contents (Elt F) → (⟨S64x1, .f32⟩ : BufTy).Contents (Elt F) → (⟨S1x1, .f32⟩ : BufTy).Contents (Elt F)),
    unary main_arg18 main_v179 (broadcastInDim S1x1 ![1] bcast_S1_S1x1_1 : (⟨S1, .f32⟩ : BufTy).Contents (Elt F) → (⟨S1x1, .f32⟩ : BufTy).Contents (Elt F)),
    binary main_v178 main_v179 main_v180 (addf : (⟨S1x1, .f32⟩ : BufTy).Contents (Elt F) → (⟨S1x1, .f32⟩ : BufTy).Contents (Elt F) → (⟨S1x1, .f32⟩ : BufTy).Contents (Elt F)),
    reshape main_v180 main_v181 rfl shapeCasts_S1x1_S_,
    nullary main_cst_33 (constant S_ .f32 0x00000000#32),
    binary main_v169 main_cst_33 main_v182 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_34 (constant S_ .f32 0x47435000#32),
    binary main_v182 main_cst_34 main_v183 (Host.divf : (⟨S_, .f32⟩ : BufTy).Contents (Elt F) → (⟨S_, .f32⟩ : BufTy).Contents (Elt F) → (⟨S_, .f32⟩ : BufTy).Contents (Elt F)),
    unary main_v183 main_v184 (broadcastInDim S50000 ![] bcast_S_S50000 : (⟨S_, .f32⟩ : BufTy).Contents (Elt F) → (⟨S50000, .f32⟩ : BufTy).Contents (Elt F)),
    binary main_v169 main_v184 main_v185 (subf : (⟨S50000, .f32⟩ : BufTy).Contents (Elt F) → (⟨S50000, .f32⟩ : BufTy).Contents (Elt F) → (⟨S50000, .f32⟩ : BufTy).Contents (Elt F)),
    unary main_v181 main_v186 (broadcastInDim S50000 ![] bcast_S_S50000 : (⟨S_, .f32⟩ : BufTy).Contents (Elt F) → (⟨S50000, .f32⟩ : BufTy).Contents (Elt F)),
    binary main_v186 main_v185 main_v187 (addf : (⟨S50000, .f32⟩ : BufTy).Contents (Elt F) → (⟨S50000, .f32⟩ : BufTy).Contents (Elt F) → (⟨S50000, .f32⟩ : BufTy).Contents (Elt F)) ]

variable (m : (ℓ : Loc nD τ sig) → Buf (Elt F) ℓ)

/-! ## The buffers after each stretch -/

/-- Core c's buffers at launch. -/
abbrev X0 (c : Dev nD) : Valuation τ sig (Elt F) := launchContents m c
/-- After the first 1 stretches. -/
abbrev X1 (c : Dev nD) : Valuation τ sig (Elt F) := after opsC1 (X0 m c)
/-- After the first 2 stretches. -/
abbrev X2 (c : Dev nD) : Valuation τ sig (Elt F) := after opsC2 (X1 m c)
/-- After the first 3 stretches. -/
abbrev X3 (c : Dev nD) : Valuation τ sig (Elt F) := after opsC3 (X2 m c)
/-- After the first 4 stretches. -/
abbrev X4 (c : Dev nD) : Valuation τ sig (Elt F) := after opsC4 (X3 m c)
/-- After the first 5 stretches. -/
abbrev X5 (c : Dev nD) : Valuation τ sig (Elt F) := after opsC5 (X4 m c)
/-- After the first 6 stretches. -/
abbrev X6 (c : Dev nD) : Valuation τ sig (Elt F) := after opsC6 (X5 m c)
/-- After the first 7 stretches. -/
abbrev X7 (c : Dev nD) : Valuation τ sig (Elt F) := after opsC7 (X6 m c)
/-- After the first 8 stretches. -/
abbrev X8 (c : Dev nD) : Valuation τ sig (Elt F) := after opsC8 (X7 m c)
/-- After the first 9 stretches. -/
abbrev X9 (c : Dev nD) : Valuation τ sig (Elt F) := after opsC9 (X8 m c)
/-- After the first 10 stretches. -/
abbrev X10 (c : Dev nD) : Valuation τ sig (Elt F) := after opsC10 (X9 m c)
/-- After the first 11 stretches. -/
abbrev X11 (c : Dev nD) : Valuation τ sig (Elt F) := after opsC11 (X10 m c)
/-- After the first 12 stretches. -/
abbrev X12 (c : Dev nD) : Valuation τ sig (Elt F) := after opsC12 (X11 m c)
/-- After the first 13 stretches. -/
abbrev X13 (c : Dev nD) : Valuation τ sig (Elt F) := after opsC13 (X12 m c)
/-- After the first 14 stretches. -/
abbrev X14 (c : Dev nD) : Valuation τ sig (Elt F) := after opsC14 (X13 m c)
/-- After the first 15 stretches. -/
abbrev X15 (c : Dev nD) : Valuation τ sig (Elt F) := after opsC15 (X14 m c)
/-- After the first 16 stretches. -/
abbrev X16 (c : Dev nD) : Valuation τ sig (Elt F) := after opsC16 (X15 m c)
/-- After the first 17 stretches. -/
abbrev X17 (c : Dev nD) : Valuation τ sig (Elt F) := after opsC17 (X16 m c)

set_option maxHeartbeats 4000000 in
set_option maxRecDepth 65536 in
/-- The buffers after the whole line are the fold through the stretches. -/
theorem fold_eq (c : Dev nD) : after ops (launchContents m c) = X17 m c := by
  simp only [after_cons, after_nil]

end Cert.ReferenceIdeal.RefRun

end
-- ==== Proof.LibTypedRef.lean ====
/-
  Typed references to tensor buffers: storing and reading back.

  An operation of a function the compiler outlined reaches its buffers through typed references: it stores a value by
  transporting it to the buffer's own type and reads one by transporting it back.  Whatever the reference, a value
  stored through it and read back through it is the value: the two transports are along an equation and its inverse.
-/
import Idealize.ShloMosaic.Lib.StableHlo

namespace Idealize.ShloMosaic.StableHlo.TRef

variable {sig : RefSig} {T : BufTy} {Val : EltTy → Type}

/-- A value stored through a typed reference and read back through it is the value. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.LibWhere.lean ====
/-
  The result of a three-operand operation of an outlined function, without its transports.

  An operation of a function the compiler outlined reads and writes its buffers through typed references: it reads a
  buffer's contents transported to the operand's declared type and writes its value transported back to the buffer's
  own type.  Each transport is along an equation between the two types, so a transported value and the value are the
  same thing seen at two types.  Hence: if the three buffers hold, up to that change of view, the contents c, a and b,
  the result buffer holds, up to it, the operation's function of c, a and b.  Nothing is said about how the equations
  are proved, and none is evaluated.
-/
import Idealize.ShloMosaic.Lib.StableHlo.Run

namespace Idealize.ShloMosaic.StableHlo.TRef

variable {τ : Topo} {sig : RefSig} {Val : EltTy → Type} {Tc Ta Tb Ty : BufTy}

/-- A value read through a typed reference is the buffer's contents, seen at the declared type. -/
theorem ofBuf_eq_of_heq (x : TRef sig Tc) (u : x.ref.ty.Contents Val) (u' : Tc.Contents Val) (h : HEq u u') :
    x.ofBuf u = u' :=
  eq_of_heq ((cast_heq _ u).trans h)

/-- A value written through a typed reference is the value, seen at the buffer's own type. -/
theorem toBuf_eq_of_heq (x : TRef sig Ty) (v : Ty.Contents Val) (w : x.ref.ty.Contents Val) (h : HEq v w) :
    x.toBuf v = w :=
  eq_of_heq ((cast_heq _ v).trans h)

/-- The result buffer of a three-operand operation through typed references. -/
theorem ternary_result_eq (xc : TRef sig Tc) (xa : TRef sig Ta) (xb : TRef sig Tb) (xy : TRef sig Ty)
    (f : Tc.Contents Val → Ta.Contents Val → Tb.Contents Val → Ty.Contents Val) (F : Valuation τ sig Val)
    (c' : Tc.Contents Val) (a' : Ta.Contents Val) (b' : Tb.Contents Val) (r' : xy.ref.ty.Contents Val)
    (hc : HEq (F (Proc.devRef .tc xc.ref)) c') (ha : HEq (F (Proc.devRef .tc xa.ref)) a')
    (hb : HEq (F (Proc.devRef .tc xb.ref)) b') (hr : HEq (f c' a' b') r') :
    (TRef.ternary xc xa xb xy f : HloOp τ sig Val).result F (Proc.devRef .tc xy.ref) = r' := by
  show (StableHlo.ternary xc.ref xa.ref xb.ref xy.ref (fun w u v => xy.toBuf (f (xc.ofBuf w) (xa.ofBuf u) (xb.ofBuf v)))
      xc.dev xa.dev xb.dev xy.dev : HloOp τ sig Val).result F (Proc.devRef .tc xy.ref) = r'
  rw [ternary_result]
  rw [ofBuf_eq_of_heq xc _ c' hc, ofBuf_eq_of_heq xa _ a' ha, ofBuf_eq_of_heq xb _ b' hb]
  exact toBuf_eq_of_heq xy _ r' hr

end Idealize.ShloMosaic.StableHlo.TRef
-- ==== Proof.RefHost.lean ====
/-
  The reference's buffers after each stretch, in the reference's own words.

  After each of the seventeen stretches of the reference's line, every buffer a later stretch reads holds the value
  the operation that writes it computes from the arguments (val_<buffer>, the reference program read one operation at a
  time); a buffer no operation of a stretch writes keeps its contents through the stretch, and an argument keeps its
  launch contents to the end.  An outlined function's three operations reach their buffers through typed references,
  whose changes of view are removed without being evaluated.
-/
import proofs.«174969_j8890582303024_1_alg».proof.Proof.RefOps
import proofs.«174969_j8890582303024_1_alg».proof.Proof.RefRead
import proofs.«174969_j8890582303024_1_alg».proof.Proof.LibTypedRef
import proofs.«174969_j8890582303024_1_alg».proof.Proof.LibWhere

set_option maxRecDepth 16384

noncomputable section

namespace Cert.ReferenceIdeal.RefRun

open Cert.ReferenceIdeal Cert.ReferenceIdeal.Gen Cert.ReferenceIdeal.RefRead
open Idealize.ShloMosaic Idealize.ShloMosaic.TcCoe Idealize.SL.Sem

/-- No operation of a literal stretch writes the buffer: each operation's result buffer is another reference. -/
macro "nwR" : tactic => `(tactic| (
  refine List.forall_iff_forall_mem.mp ?_
  simp only [opsC1, opsC2, opsC3, opsC4, opsC5, opsC6, opsC7, opsC8, opsC9, opsC10, opsC11, opsC12, opsC13, opsC14, opsC15, opsC16, opsC17,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! One stretch down: a buffer no operation of the stretch writes keeps its contents. -/
macro "t1" : tactic => `(tactic| refine (StableHlo.after_of_forall_not_mem (b := Proc.devRef .tc _) opsC1 (X0 _ _) (by nwR)).trans ?_)
macro "t2" : tactic => `(tactic| refine (StableHlo.after_of_forall_not_mem (b := Proc.devRef .tc _) opsC2 (X1 _ _) (by nwR)).trans ?_)
macro "t3" : tactic => `(tactic| refine (StableHlo.after_of_forall_not_mem (b := Proc.devRef .tc _) opsC3 (X2 _ _) (by nwR)).trans ?_)
macro "t4" : tactic => `(tactic| refine (StableHlo.after_of_forall_not_mem (b := Proc.devRef .tc _) opsC4 (X3 _ _) (by nwR)).trans ?_)
macro "t5" : tactic => `(tactic| refine (StableHlo.after_of_forall_not_mem (b := Proc.devRef .tc _) opsC5 (X4 _ _) (by nwR)).trans ?_)
macro "t6" : tactic => `(tactic| refine (StableHlo.after_of_forall_not_mem (b := Proc.devRef .tc _) opsC6 (X5 _ _) (by nwR)).trans ?_)
macro "t7" : tactic => `(tactic| refine (StableHlo.after_of_forall_not_mem (b := Proc.devRef .tc _) opsC7 (X6 _ _) (by nwR)).trans ?_)
macro "t8" : tactic => `(tactic| refine (StableHlo.after_of_forall_not_mem (b := Proc.devRef .tc _) opsC8 (X7 _ _) (by nwR)).trans ?_)
macro "t9" : tactic => `(tactic| refine (StableHlo.after_of_forall_not_mem (b := Proc.devRef .tc _) opsC9 (X8 _ _) (by nwR)).trans ?_)
macro "t10" : tactic => `(tactic| refine (StableHlo.after_of_forall_not_mem (b := Proc.devRef .tc _) opsC10 (X9 _ _) (by nwR)).trans ?_)
macro "t11" : tactic => `(tactic| refine (StableHlo.after_of_forall_not_mem (b := Proc.devRef .tc _) opsC11 (X10 _ _) (by nwR)).trans ?_)
macro "t12" : tactic => `(tactic| refine (StableHlo.after_of_forall_not_mem (b := Proc.devRef .tc _) opsC12 (X11 _ _) (by nwR)).trans ?_)
macro "t13" : tactic => `(tactic| refine (StableHlo.after_of_forall_not_mem (b := Proc.devRef .tc _) opsC13 (X12 _ _) (by nwR)).trans ?_)
macro "t14" : tactic => `(tactic| refine (StableHlo.after_of_forall_not_mem (b := Proc.devRef .tc _) opsC14 (X13 _ _) (by nwR)).trans ?_)
macro "t15" : tactic => `(tactic| refine (StableHlo.after_of_forall_not_mem (b := Proc.devRef .tc _) opsC15 (X14 _ _) (by nwR)).trans ?_)
macro "t16" : tactic => `(tactic| refine (StableHlo.after_of_forall_not_mem (b := Proc.devRef .tc _) opsC16 (X15 _ _) (by nwR)).trans ?_)
macro "t17" : tactic => `(tactic| refine (StableHlo.after_of_forall_not_mem (b := Proc.devRef .tc _) opsC17 (X16 _ _) (by nwR)).trans ?_)

variable (m : (ℓ : Loc nD τ sig) → Buf (Elt Ideal) ℓ) (c : Dev nD)

set_option maxHeartbeats 4000000 in
theorem at1_v3 : X1 m c (Proc.devRef .tc main_v3) = val_main_v3 (F := Ideal) (m ((c.tc : Thread nD τ).loc main_arg1)) := by
  show StableHlo.after opsC1 (X0 m c) (Proc.devRef .tc main_v3) = _
  generalize hV : X0 m c = V
  after_results_simp
  subst hV
  rfl

set_option maxHeartbeats 4000000 in
theorem at1_v6 : X1 m c (Proc.devRef .tc main_v6) = val_main_v6 (F := Ideal) (m ((c.tc : Thread nD τ).loc main_arg1)) := by
  show StableHlo.after opsC1 (X0 m c) (Proc.devRef .tc main_v6) = _
  generalize hV : X0 m c = V
  after_results_simp
  subst hV
  rfl

set_option maxHeartbeats 4000000 in
theorem at1_v8 : X1 m c (Proc.devRef .tc main_v8) = val_main_v8 (F := Ideal) (m ((c.tc : Thread nD τ).loc main_arg2)) := by
  show StableHlo.after opsC1 (X0 m c) (Proc.devRef .tc main_v8) = _
  generalize hV : X0 m c = V
  after_results_simp
  subst hV
  rfl

set_option maxHeartbeats 4000000 in
theorem at1_v13 : X1 m c (Proc.devRef .tc main_v13) = val_main_v13 (F := Ideal) (m ((c.tc : Thread nD τ).loc main_arg1)) (m ((c.tc : Thread nD τ).loc main_arg2)) := by
  show StableHlo.after opsC1 (X0 m c) (Proc.devRef .tc main_v13) = _
  generalize hV : X0 m c = V
  after_results_simp
  subst hV
  rfl

set_option maxHeartbeats 4000000 in
theorem at1_v16 : X1 m c (Proc.devRef .tc main_v16) = val_main_v16 (F := Ideal) (m ((c.tc : Thread nD τ).loc main_arg1)) (m ((c.tc : Thread nD τ).loc main_arg2)) := by
  show StableHlo.after opsC1 (X0 m c) (Proc.devRef .tc main_v16) = _
  generalize hV : X0 m c = V
  after_results_simp
  subst hV
  rfl

set_option maxHeartbeats 4000000 in
theorem at1_cst_3 : X1 m c (Proc.devRef .tc main_cst_3) = val_main_cst_3 (F := Ideal) := by
  show StableHlo.after opsC1 (X0 m c) (Proc.devRef .tc main_cst_3) = _
  generalize hV : X0 m c = V
  after_results_simp
  subst hV
  rfl

set_option maxHeartbeats 4000000 in
theorem at2_v17 : X2 m c (Proc.devRef .tc main_v17) = val_main_v17 (F := Ideal) (m ((c.tc : Thread nD τ).loc main_arg1)) (m ((c.tc : Thread nD τ).loc main_arg2)) := by
  show StableHlo.after opsC2 (X1 m c) (Proc.devRef .tc main_v17) = _
  generalize hV : X1 m c = V
  after_results_simp
  subst hV
  rw [at1_v13 m c, at1_v16 m c, at1_cst_3 m c]
  rw [StableHlo.TRef.ofBuf_toBuf, StableHlo.TRef.ofBuf_toBuf]
  refine StableHlo.TRef.toBuf_eq_of_heq _ _ _ ?_
  rw [StableHlo.TRef.ofBuf_eq_of_heq _ _ (val_main_v13 (F := Ideal) (m ((c.tc : Thread nD τ).loc main_arg1)) (m ((c.tc : Thread nD τ).loc main_arg2))) HEq.rfl,
    StableHlo.TRef.ofBuf_eq_of_heq _ _ (val_main_v16 (F := Ideal) (m ((c.tc : Thread nD τ).loc main_arg1)) (m ((c.tc : Thread nD τ).loc main_arg2))) HEq.rfl,
    StableHlo.TRef.ofBuf_eq_of_heq _ _ (val_main_cst_3 (F := Ideal)) HEq.rfl]
  exact HEq.rfl

theorem at2_v3 : X2 m c (Proc.devRef .tc main_v3) = val_main_v3 (F := Ideal) (m ((c.tc : Thread nD τ).loc main_arg1)) := by t2; exact at1_v3 m c

theorem at2_v8 : X2 m c (Proc.devRef .tc main_v8) = val_main_v8 (F := Ideal) (m ((c.tc : Thread nD τ).loc main_arg2)) := by t2; exact at1_v8 m c

theorem at2_v6 : X2 m c (Proc.devRef .tc main_v6) = val_main_v6 (F := Ideal) (m ((c.tc : Thread nD τ).loc main_arg1)) := by t2; exact at1_v6 m c

set_option maxHeartbeats 4000000 in
theorem at3_v33 : X3 m c (Proc.devRef .tc main_v33) = val_main_v33 (F := Ideal) (m ((c.tc : Thread nD τ).loc main_arg1)) (m ((c.tc : Thread nD τ).loc main_arg2)) := by
  show StableHlo.after opsC3 (X2 m c) (Proc.devRef .tc main_v33) = _
  generalize hV : X2 m c = V
  after_results_simp
  subst hV
  rw [at2_v17 m c, at2_v3 m c, at2_v8 m c, at2_v6 m c]
  rfl

theorem at3_v6 : X3 m c (Proc.devRef .tc main_v6) = val_main_v6 (F := Ideal) (m ((c.tc : Thread nD τ).loc main_arg1)) := by t3; t2; exact at1_v6 m c

theorem at3_arg0 : X3 m c (Proc.devRef .tc main_arg0) = m ((c.tc : Thread nD τ).loc main_arg0) := by t3; t2; t1; exact rfl

theorem at3_arg3 : X3 m c (Proc.devRef .tc main_arg3) = m ((c.tc : Thread nD τ).loc main_arg3) := by t3; t2; t1; exact rfl

theorem at3_v3 : X3 m c (Proc.devRef .tc main_v3) = val_main_v3 (F := Ideal) (m ((c.tc : Thread nD τ).loc main_arg1)) := by t3; t2; exact at1_v3 m c

set_option maxHeartbeats 4000000 in
theorem at4_v47 : X4 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after opsC4 (X3 m c) (Proc.devRef .tc main_v47) = _
  generalize hV : X3 m c = V
  after_results_simp
  subst hV
  rw [at3_v6 m c, at3_v33 m c, at3_arg0 m c, at3_arg3 m c, at3_v3 m c]
  rfl

theorem at4_arg4 : X4 m c (Proc.devRef .tc main_arg4) = m ((c.tc : Thread nD τ).loc main_arg4) := by t4; t3; t2; t1; exact rfl

theorem at4_arg9 : X4 m c (Proc.devRef .tc main_arg9) = m ((c.tc : Thread nD τ).loc main_arg9) := by t4; t3; t2; t1; exact rfl

theorem at4_arg10 : X4 m c (Proc.devRef .tc main_arg10) = m ((c.tc : Thread nD τ).loc main_arg10) := by t4; t3; t2; t1; exact rfl

set_option maxHeartbeats 4000000 in
theorem at5_v74 : X5 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) := by
  show StableHlo.after opsC5 (X4 m c) (Proc.devRef .tc main_v74) = _
  generalize hV : X4 m c = V
  after_results_simp
  subst hV
  rw [at4_v47 m c, at4_arg4 m c, at4_arg9 m c, at4_arg10 m c]
  rfl

set_option maxHeartbeats 4000000 in
theorem at6_v75 : X6 m c (Proc.devRef .tc main_v75) = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) := by
  show StableHlo.after opsC6 (X5 m c) (Proc.devRef .tc main_v75) = _
  generalize hV : X5 m c = V
  after_results_simp
  subst hV
  rw [at5_v74 m c]
  rw [StableHlo.TRef.ofBuf_toBuf, StableHlo.TRef.ofBuf_toBuf]
  refine StableHlo.TRef.toBuf_eq_of_heq _ _ _ ?_
  rw [StableHlo.TRef.ofBuf_eq_of_heq _ _ (val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10))) HEq.rfl]
  exact HEq.rfl

theorem at6_v6 : X6 m c (Proc.devRef .tc main_v6) = val_main_v6 (F := Ideal) (m ((c.tc : Thread nD τ).loc main_arg1)) := by t6; t5; t4; t3; t2; exact at1_v6 m c

theorem at6_v33 : X6 m c (Proc.devRef .tc main_v33) = val_main_v33 (F := Ideal) (m ((c.tc : Thread nD τ).loc main_arg1)) (m ((c.tc : Thread nD τ).loc main_arg2)) := by t6; t5; t4; exact at3_v33 m c

theorem at6_arg5 : X6 m c (Proc.devRef .tc main_arg5) = m ((c.tc : Thread nD τ).loc main_arg5) := by t6; t5; t4; t3; t2; t1; exact rfl

theorem at6_v3 : X6 m c (Proc.devRef .tc main_v3) = val_main_v3 (F := Ideal) (m ((c.tc : Thread nD τ).loc main_arg1)) := by t6; t5; t4; t3; t2; exact at1_v3 m c

set_option maxHeartbeats 4000000 in
theorem at7_v89 : X7 m c (Proc.devRef .tc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) := by
  show StableHlo.after opsC7 (X6 m c) (Proc.devRef .tc main_v89) = _
  generalize hV : X6 m c = V
  after_results_simp
  subst hV
  rw [at6_v6 m c, at6_v33 m c, at6_v75 m c, at6_arg5 m c, at6_v3 m c]
  rfl

theorem at7_arg6 : X7 m c (Proc.devRef .tc main_arg6) = m ((c.tc : Thread nD τ).loc main_arg6) := by t7; t6; t5; t4; t3; t2; t1; exact rfl

theorem at7_arg11 : X7 m c (Proc.devRef .tc main_arg11) = m ((c.tc : Thread nD τ).loc main_arg11) := by t7; t6; t5; t4; t3; t2; t1; exact rfl

theorem at7_arg12 : X7 m c (Proc.devRef .tc main_arg12) = m ((c.tc : Thread nD τ).loc main_arg12) := by t7; t6; t5; t4; t3; t2; t1; exact rfl

set_option maxHeartbeats 4000000 in
theorem at8_v116 : X8 m c (Proc.devRef .tc main_v116) = val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) := by
  show StableHlo.after opsC8 (X7 m c) (Proc.devRef .tc main_v116) = _
  generalize hV : X7 m c = V
  after_results_simp
  subst hV
  rw [at7_v89 m c, at7_arg6 m c, at7_arg11 m c, at7_arg12 m c]
  rfl

set_option maxHeartbeats 4000000 in
theorem at9_v117 : X9 m c (Proc.devRef .tc main_v117) = val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) := by
  show StableHlo.after opsC9 (X8 m c) (Proc.devRef .tc main_v117) = _
  generalize hV : X8 m c = V
  after_results_simp
  subst hV
  rw [at8_v116 m c]
  rw [StableHlo.TRef.ofBuf_toBuf, StableHlo.TRef.ofBuf_toBuf]
  refine StableHlo.TRef.toBuf_eq_of_heq _ _ _ ?_
  rw [StableHlo.TRef.ofBuf_eq_of_heq _ _ (val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12))) HEq.rfl]
  exact HEq.rfl

theorem at9_v6 : X9 m c (Proc.devRef .tc main_v6) = val_main_v6 (F := Ideal) (m ((c.tc : Thread nD τ).loc main_arg1)) := by t9; t8; t7; t6; t5; t4; t3; t2; exact at1_v6 m c

theorem at9_v33 : X9 m c (Proc.devRef .tc main_v33) = val_main_v33 (F := Ideal) (m ((c.tc : Thread nD τ).loc main_arg1)) (m ((c.tc : Thread nD τ).loc main_arg2)) := by t9; t8; t7; t6; t5; t4; exact at3_v33 m c

theorem at9_arg7 : X9 m c (Proc.devRef .tc main_arg7) = m ((c.tc : Thread nD τ).loc main_arg7) := by t9; t8; t7; t6; t5; t4; t3; t2; t1; exact rfl

theorem at9_v3 : X9 m c (Proc.devRef .tc main_v3) = val_main_v3 (F := Ideal) (m ((c.tc : Thread nD τ).loc main_arg1)) := by t9; t8; t7; t6; t5; t4; t3; t2; exact at1_v3 m c

set_option maxHeartbeats 4000000 in
theorem at10_v131 : X10 m c (Proc.devRef .tc main_v131) = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) := by
  show StableHlo.after opsC10 (X9 m c) (Proc.devRef .tc main_v131) = _
  generalize hV : X9 m c = V
  after_results_simp
  subst hV
  rw [at9_v6 m c, at9_v33 m c, at9_v117 m c, at9_arg7 m c, at9_v3 m c]
  rfl

theorem at10_arg8 : X10 m c (Proc.devRef .tc main_arg8) = m ((c.tc : Thread nD τ).loc main_arg8) := by t10; t9; t8; t7; t6; t5; t4; t3; t2; t1; exact rfl

theorem at10_arg13 : X10 m c (Proc.devRef .tc main_arg13) = m ((c.tc : Thread nD τ).loc main_arg13) := by t10; t9; t8; t7; t6; t5; t4; t3; t2; t1; exact rfl

theorem at10_arg14 : X10 m c (Proc.devRef .tc main_arg14) = m ((c.tc : Thread nD τ).loc main_arg14) := by t10; t9; t8; t7; t6; t5; t4; t3; t2; t1; exact rfl

set_option maxHeartbeats 4000000 in
theorem at11_v158 : X11 m c (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after opsC11 (X10 m c) (Proc.devRef .tc main_v158) = _
  generalize hV : X10 m c = V
  after_results_simp
  subst hV
  rw [at10_v131 m c, at10_arg8 m c, at10_arg13 m c, at10_arg14 m c]
  rfl

set_option maxHeartbeats 4000000 in
theorem at12_v159 : X12 m c (Proc.devRef .tc main_v159) = val_main_v159 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after opsC12 (X11 m c) (Proc.devRef .tc main_v159) = _
  generalize hV : X11 m c = V
  after_results_simp
  subst hV
  rw [at11_v158 m c]
  rw [StableHlo.TRef.ofBuf_toBuf, StableHlo.TRef.ofBuf_toBuf]
  refine StableHlo.TRef.toBuf_eq_of_heq _ _ _ ?_
  rw [StableHlo.TRef.ofBuf_eq_of_heq _ _ (val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) HEq.rfl]
  exact HEq.rfl

theorem at12_arg19 : X12 m c (Proc.devRef .tc main_arg19) = m ((c.tc : Thread nD τ).loc main_arg19) := by t12; t11; t10; t9; t8; t7; t6; t5; t4; t3; t2; t1; exact rfl

theorem at12_arg20 : X12 m c (Proc.devRef .tc main_arg20) = m ((c.tc : Thread nD τ).loc main_arg20) := by t12; t11; t10; t9; t8; t7; t6; t5; t4; t3; t2; t1; exact rfl

set_option maxHeartbeats 4000000 in
theorem at13_v163 : X13 m c (Proc.devRef .tc main_v163) = val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) (m ((c.tc : Thread nD τ).loc main_arg20)) := by
  show StableHlo.after opsC13 (X12 m c) (Proc.devRef .tc main_v163) = _
  generalize hV : X12 m c = V
  after_results_simp
  subst hV
  rw [at12_v159 m c, at12_arg19 m c, at12_arg20 m c]
  rfl

set_option maxHeartbeats 4000000 in
theorem at14_v164 : X14 m c (Proc.devRef .tc main_v164) = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) (m ((c.tc : Thread nD τ).loc main_arg20)) := by
  show StableHlo.after opsC14 (X13 m c) (Proc.devRef .tc main_v164) = _
  generalize hV : X13 m c = V
  after_results_simp
  subst hV
  rw [at13_v163 m c]
  rw [StableHlo.TRef.ofBuf_toBuf, StableHlo.TRef.ofBuf_toBuf]
  refine StableHlo.TRef.toBuf_eq_of_heq _ _ _ ?_
  rw [StableHlo.TRef.ofBuf_eq_of_heq _ _ (val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) (m ((c.tc : Thread nD τ).loc main_arg20))) HEq.rfl]
  exact HEq.rfl

theorem at14_arg21 : X14 m c (Proc.devRef .tc main_arg21) = m ((c.tc : Thread nD τ).loc main_arg21) := by t14; t13; t12; t11; t10; t9; t8; t7; t6; t5; t4; t3; t2; t1; exact rfl

theorem at14_arg22 : X14 m c (Proc.devRef .tc main_arg22) = m ((c.tc : Thread nD τ).loc main_arg22) := by t14; t13; t12; t11; t10; t9; t8; t7; t6; t5; t4; t3; t2; t1; exact rfl

theorem at14_v159 : X14 m c (Proc.devRef .tc main_v159) = val_main_v159 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by t14; t13; exact at12_v159 m c

theorem at14_arg15 : X14 m c (Proc.devRef .tc main_arg15) = m ((c.tc : Thread nD τ).loc main_arg15) := by t14; t13; t12; t11; t10; t9; t8; t7; t6; t5; t4; t3; t2; t1; exact rfl

theorem at14_arg16 : X14 m c (Proc.devRef .tc main_arg16) = m ((c.tc : Thread nD τ).loc main_arg16) := by t14; t13; t12; t11; t10; t9; t8; t7; t6; t5; t4; t3; t2; t1; exact rfl

set_option maxHeartbeats 4000000 in
theorem at15_v169 : X15 m c (Proc.devRef .tc main_v169) = val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) (m ((c.tc : Thread nD τ).loc main_arg20)) (m ((c.tc : Thread nD τ).loc main_arg21)) (m ((c.tc : Thread nD τ).loc main_arg22)) := by
  show StableHlo.after opsC15 (X14 m c) (Proc.devRef .tc main_v169) = _
  generalize hV : X14 m c = V
  after_results_simp
  subst hV
  rw [at14_v164 m c, at14_arg21 m c, at14_arg22 m c]
  rfl

set_option maxHeartbeats 4000000 in
theorem at15_v176 : X15 m c (Proc.devRef .tc main_v176) = val_main_v176 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  show StableHlo.after opsC15 (X14 m c) (Proc.devRef .tc main_v176) = _
  generalize hV : X14 m c = V
  after_results_simp
  subst hV
  rw [at14_v159 m c, at14_arg15 m c, at14_arg16 m c]
  rfl

set_option maxHeartbeats 4000000 in
theorem at16_v177 : X16 m c (Proc.devRef .tc main_v177) = val_main_v177 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  show StableHlo.after opsC16 (X15 m c) (Proc.devRef .tc main_v177) = _
  generalize hV : X15 m c = V
  after_results_simp
  subst hV
  rw [at15_v176 m c]
  rw [StableHlo.TRef.ofBuf_toBuf, StableHlo.TRef.ofBuf_toBuf]
  refine StableHlo.TRef.toBuf_eq_of_heq _ _ _ ?_
  rw [StableHlo.TRef.ofBuf_eq_of_heq _ _ (val_main_v176 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) HEq.rfl]
  exact HEq.rfl

theorem at16_arg17 : X16 m c (Proc.devRef .tc main_arg17) = m ((c.tc : Thread nD τ).loc main_arg17) := by t16; t15; t14; t13; t12; t11; t10; t9; t8; t7; t6; t5; t4; t3; t2; t1; exact rfl

theorem at16_arg18 : X16 m c (Proc.devRef .tc main_arg18) = m ((c.tc : Thread nD τ).loc main_arg18) := by t16; t15; t14; t13; t12; t11; t10; t9; t8; t7; t6; t5; t4; t3; t2; t1; exact rfl

theorem at16_v169 : X16 m c (Proc.devRef .tc main_v169) = val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg19)) (m ((c.tc : Thread nD τ).loc main_arg20)) (m ((c.tc : Thread nD τ).loc main_arg21)) (m ((c.tc : Thread nD τ).loc main_arg22)) := by t16; exact at15_v169 m c

set_option maxHeartbeats 4000000 in
theorem at17_v187 : X17 m c (Proc.devRef .tc main_v187) = val_main_v187 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  show StableHlo.after opsC17 (X16 m c) (Proc.devRef .tc main_v187) = _
  generalize hV : X16 m c = V
  after_results_simp
  subst hV
  rw [at16_v177 m c, at16_arg17 m c, at16_arg18 m c, at16_v169 m c]
  rfl

theorem at17_arg0 : X17 m c (Proc.devRef .tc main_arg0) = m ((c.tc : Thread nD τ).loc main_arg0) := by t17; t16; t15; t14; t13; t12; t11; t10; t9; t8; t7; t6; t5; t4; t3; t2; t1; exact rfl

theorem at17_arg1 : X17 m c (Proc.devRef .tc main_arg1) = m ((c.tc : Thread nD τ).loc main_arg1) := by t17; t16; t15; t14; t13; t12; t11; t10; t9; t8; t7; t6; t5; t4; t3; t2; t1; exact rfl

theorem at17_arg2 : X17 m c (Proc.devRef .tc main_arg2) = m ((c.tc : Thread nD τ).loc main_arg2) := by t17; t16; t15; t14; t13; t12; t11; t10; t9; t8; t7; t6; t5; t4; t3; t2; t1; exact rfl

theorem at17_arg3 : X17 m c (Proc.devRef .tc main_arg3) = m ((c.tc : Thread nD τ).loc main_arg3) := by t17; t16; t15; t14; t13; t12; t11; t10; t9; t8; t7; t6; t5; t4; t3; t2; t1; exact rfl

theorem at17_arg4 : X17 m c (Proc.devRef .tc main_arg4) = m ((c.tc : Thread nD τ).loc main_arg4) := by t17; t16; t15; t14; t13; t12; t11; t10; t9; t8; t7; t6; t5; t4; t3; t2; t1; exact rfl

theorem at17_arg5 : X17 m c (Proc.devRef .tc main_arg5) = m ((c.tc : Thread nD τ).loc main_arg5) := by t17; t16; t15; t14; t13; t12; t11; t10; t9; t8; t7; t6; t5; t4; t3; t2; t1; exact rfl

theorem at17_arg6 : X17 m c (Proc.devRef .tc main_arg6) = m ((c.tc : Thread nD τ).loc main_arg6) := by t17; t16; t15; t14; t13; t12; t11; t10; t9; t8; t7; t6; t5; t4; t3; t2; t1; exact rfl

theorem at17_arg7 : X17 m c (Proc.devRef .tc main_arg7) = m ((c.tc : Thread nD τ).loc main_arg7) := by t17; t16; t15; t14; t13; t12; t11; t10; t9; t8; t7; t6; t5; t4; t3; t2; t1; exact rfl

theorem at17_arg8 : X17 m c (Proc.devRef .tc main_arg8) = m ((c.tc : Thread nD τ).loc main_arg8) := by t17; t16; t15; t14; t13; t12; t11; t10; t9; t8; t7; t6; t5; t4; t3; t2; t1; exact rfl

theorem at17_arg9 : X17 m c (Proc.devRef .tc main_arg9) = m ((c.tc : Thread nD τ).loc main_arg9) := by t17; t16; t15; t14; t13; t12; t11; t10; t9; t8; t7; t6; t5; t4; t3; t2; t1; exact rfl

theorem at17_arg10 : X17 m c (Proc.devRef .tc main_arg10) = m ((c.tc : Thread nD τ).loc main_arg10) := by t17; t16; t15; t14; t13; t12; t11; t10; t9; t8; t7; t6; t5; t4; t3; t2; t1; exact rfl

theorem at17_arg11 : X17 m c (Proc.devRef .tc main_arg11) = m ((c.tc : Thread nD τ).loc main_arg11) := by t17; t16; t15; t14; t13; t12; t11; t10; t9; t8; t7; t6; t5; t4; t3; t2; t1; exact rfl

theorem at17_arg12 : X17 m c (Proc.devRef .tc main_arg12) = m ((c.tc : Thread nD τ).loc main_arg12) := by t17; t16; t15; t14; t13; t12; t11; t10; t9; t8; t7; t6; t5; t4; t3; t2; t1; exact rfl

theorem at17_arg13 : X17 m c (Proc.devRef .tc main_arg13) = m ((c.tc : Thread nD τ).loc main_arg13) := by t17; t16; t15; t14; t13; t12; t11; t10; t9; t8; t7; t6; t5; t4; t3; t2; t1; exact rfl

theorem at17_arg14 : X17 m c (Proc.devRef .tc main_arg14) = m ((c.tc : Thread nD τ).loc main_arg14) := by t17; t16; t15; t14; t13; t12; t11; t10; t9; t8; t7; t6; t5; t4; t3; t2; t1; exact rfl

theorem at17_arg15 : X17 m c (Proc.devRef .tc main_arg15) = m ((c.tc : Thread nD τ).loc main_arg15) := by t17; t16; t15; t14; t13; t12; t11; t10; t9; t8; t7; t6; t5; t4; t3; t2; t1; exact rfl

theorem at17_arg16 : X17 m c (Proc.devRef .tc main_arg16) = m ((c.tc : Thread nD τ).loc main_arg16) := by t17; t16; t15; t14; t13; t12; t11; t10; t9; t8; t7; t6; t5; t4; t3; t2; t1; exact rfl

theorem at17_arg17 : X17 m c (Proc.devRef .tc main_arg17) = m ((c.tc : Thread nD τ).loc main_arg17) := by t17; t16; t15; t14; t13; t12; t11; t10; t9; t8; t7; t6; t5; t4; t3; t2; t1; exact rfl

theorem at17_arg18 : X17 m c (Proc.devRef .tc main_arg18) = m ((c.tc : Thread nD τ).loc main_arg18) := by t17; t16; t15; t14; t13; t12; t11; t10; t9; t8; t7; t6; t5; t4; t3; t2; t1; exact rfl

theorem at17_arg19 : X17 m c (Proc.devRef .tc main_arg19) = m ((c.tc : Thread nD τ).loc main_arg19) := by t17; t16; t15; t14; t13; t12; t11; t10; t9; t8; t7; t6; t5; t4; t3; t2; t1; exact rfl

theorem at17_arg20 : X17 m c (Proc.devRef .tc main_arg20) = m ((c.tc : Thread nD τ).loc main_arg20) := by t17; t16; t15; t14; t13; t12; t11; t10; t9; t8; t7; t6; t5; t4; t3; t2; t1; exact rfl

theorem at17_arg21 : X17 m c (Proc.devRef .tc main_arg21) = m ((c.tc : Thread nD τ).loc main_arg21) := by t17; t16; t15; t14; t13; t12; t11; t10; t9; t8; t7; t6; t5; t4; t3; t2; t1; exact rfl

theorem at17_arg22 : X17 m c (Proc.devRef .tc main_arg22) = m ((c.tc : Thread nD τ).loc main_arg22) := by t17; t16; t15; t14; t13; t12; t11; t10; t9; t8; t7; t6; t5; t4; t3; t2; t1; exact rfl

end Cert.ReferenceIdeal.RefRun

end
-- ==== Proof.RefRun.lean ====
/-
  The reference's run, read back.

  Every weakly fair execution of the reference ends with each buffer at the fold of the line's operations over the
  launch contents; the fold is the fold through the seventeen stretches, at whose end the result buffer holds the
  last operation's value as a function of the arguments and every argument its launch contents.
-/
import proofs.«174969_j8890582303024_1_alg».proof.Proof.RefHost

set_option maxRecDepth 16384

noncomputable section

namespace Cert.ReferenceIdeal.RefRun

open Cert.ReferenceIdeal Cert.ReferenceIdeal.Gen Cert.ReferenceIdeal.RefRead
open Idealize.ShloMosaic Idealize.ShloMosaic.TcCoe Idealize.SL.Sem Idealize.ShloMosaic.StableHlo

/-- On every device, from any memory with zero counters: every weakly fair execution of @main terminates with the
    result at the last operation's value of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v187) = val_main_v187 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c =>
      ⟨(h c main_v187).trans ((congrFun (fold_eq m c) _).trans (at17_v187 m c)),
       (h c main_arg0).trans ((congrFun (fold_eq m c) _).trans (at17_arg0 m c)),
       (h c main_arg1).trans ((congrFun (fold_eq m c) _).trans (at17_arg1 m c)),
       (h c main_arg2).trans ((congrFun (fold_eq m c) _).trans (at17_arg2 m c)),
       (h c main_arg3).trans ((congrFun (fold_eq m c) _).trans (at17_arg3 m c)),
       (h c main_arg4).trans ((congrFun (fold_eq m c) _).trans (at17_arg4 m c)),
       (h c main_arg5).trans ((congrFun (fold_eq m c) _).trans (at17_arg5 m c)),
       (h c main_arg6).trans ((congrFun (fold_eq m c) _).trans (at17_arg6 m c)),
       (h c main_arg7).trans ((congrFun (fold_eq m c) _).trans (at17_arg7 m c)),
       (h c main_arg8).trans ((congrFun (fold_eq m c) _).trans (at17_arg8 m c)),
       (h c main_arg9).trans ((congrFun (fold_eq m c) _).trans (at17_arg9 m c)),
       (h c main_arg10).trans ((congrFun (fold_eq m c) _).trans (at17_arg10 m c)),
       (h c main_arg11).trans ((congrFun (fold_eq m c) _).trans (at17_arg11 m c)),
       (h c main_arg12).trans ((congrFun (fold_eq m c) _).trans (at17_arg12 m c)),
       (h c main_arg13).trans ((congrFun (fold_eq m c) _).trans (at17_arg13 m c)),
       (h c main_arg14).trans ((congrFun (fold_eq m c) _).trans (at17_arg14 m c)),
       (h c main_arg15).trans ((congrFun (fold_eq m c) _).trans (at17_arg15 m c)),
       (h c main_arg16).trans ((congrFun (fold_eq m c) _).trans (at17_arg16 m c)),
       (h c main_arg17).trans ((congrFun (fold_eq m c) _).trans (at17_arg17 m c)),
       (h c main_arg18).trans ((congrFun (fold_eq m c) _).trans (at17_arg18 m c)),
       (h c main_arg19).trans ((congrFun (fold_eq m c) _).trans (at17_arg19 m c)),
       (h c main_arg20).trans ((congrFun (fold_eq m c) _).trans (at17_arg20 m c)),
       (h c main_arg21).trans ((congrFun (fold_eq m c) _).trans (at17_arg21 m c)),
       (h c main_arg22).trans ((congrFun (fold_eq m c) _).trans (at17_arg22 m c))⟩)
    (run_seq scopedRefs_eq scopedSems_eq defs main (fun _ => ops) main_eq (fun _ => ops_sub) m ρ)

end Cert.ReferenceIdeal.RefRun

end
-- ==== Proof.KRun.lean ====
/-
  The idealized kernel's run with its result named.

  Every weakly fair execution of the program ends with the result buffer holding what the last stretch of host
  operations leaves there: the value at the result's place of the fold through the program's seventeen segments
  (ten stretches of host operations and seven launches, each launch leaving in its output array what its grid
  points wrote back), the argument arrays unchanged.  The other modules read that fold back segment by segment.
-/
import proofs.«174969_j8890582303024_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's value at its place, the arguments as launched. -/
theorem run_named : θ_run defs (onTc (τ := τ) (main (F := F))) ⟨m, fun _ => 0, ρ⟩ (fun r => ∀ c : Dev nD,
      r.2.mem ((c.tc : Thread nD τ).loc main_v109) = W17 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v109 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c)⟩)

end Cert.KernelIdeal.KRun

end
-- ==== Proof.KCarry.lean ====
/-
  Reading the fold through the program's segments at one buffer.

  The kernel program's buffer contents at each segment boundary are a fold: a stretch of host operations rewrites
  the buffers its operations write and leaves the rest, a launch rewrites its output array and leaves the rest (its
  input arrays are read, never written back).  So a buffer's contents at a boundary are its contents at the boundary
  right after the segment that last wrote it, and an argument's are the launch contents.  The tactics here walk that
  fold down one segment at a time.
-/
import proofs.«174969_j8890582303024_1_alg».proof.Proof.Gen.KernelIdeal.Frame

set_option maxRecDepth 16384

noncomputable section

namespace Cert.KernelIdeal.KCarry

open Cert.KernelIdeal Cert.KernelIdeal.Gen
open Idealize.ShloMosaic Idealize.ShloMosaic.TcCoe Idealize.SL.Sem
open Idealize.ShloMosaic.Pipeline (Dat Cfg Window)

/-- No operation of a literal stretch writes the buffer: each operation's result buffer is another reference. -/
macro "nw" : tactic => `(tactic| (
  refine List.forall_iff_forall_mem.mp ?_
  simp only [hostOps0, hostOps0_1, hostOps0_2, hostOps1, hostOps3, hostOps5, hostOps6, hostOps7, hostOps7_1, hostOps7_2,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! One segment down, per boundary: the buffer's contents after a segment that does not write it are its contents
    before (a stretch: none of its operations writes it; a launch: it is no window's array, or an input window's). -/
macro "s1" : tactic => `(tactic| refine (StableHlo.after_of_forall_not_mem (b := Proc.devRef .tc _) hostOps0 (W0 _ _ _) (by nw)).trans ?_)
macro "s2" : tactic => `(tactic| refine (StableHlo.after_of_forall_not_mem (b := Proc.devRef .tc _) hostOps0_1 (W1 _ _ _) (by nw)).trans ?_)
macro "s3" : tactic => `(tactic| refine (StableHlo.after_of_forall_not_mem (b := Proc.devRef .tc _) hostOps0_2 (W2 _ _ _) (by nw)).trans ?_)
macro "s4" : tactic => `(tactic| first
  | refine (W4_of_ne _ _ _ _ (by decide)).trans ?_
  | refine ((W4_arr _ _ _ 0).trans (((dat0 (V3 _ _) _).arrAt_in 0 rfl _).trans (A_eq0 (V3 _ _) _ 0))).trans ?_
  | refine ((W4_arr _ _ _ 1).trans (((dat0 (V3 _ _) _).arrAt_in 1 rfl _).trans (A_eq0 (V3 _ _) _ 1))).trans ?_)
macro "s5" : tactic => `(tactic| refine (StableHlo.after_of_forall_not_mem (b := Proc.devRef .tc _) hostOps1 (W4 _ _ _) (by nw)).trans ?_)
macro "s6" : tactic => `(tactic| first
  | refine (W6_of_ne _ _ _ _ (by decide)).trans ?_
  | refine ((W6_arr _ _ _ 0).trans (((dat1 (V5 _ _) _).arrAt_in 0 rfl _).trans (A_eq1 (V5 _ _) _ 0))).trans ?_
  | refine ((W6_arr _ _ _ 1).trans (((dat1 (V5 _ _) _).arrAt_in 1 rfl _).trans (A_eq1 (V5 _ _) _ 1))).trans ?_
  | refine ((W6_arr _ _ _ 2).trans (((dat1 (V5 _ _) _).arrAt_in 2 rfl _).trans (A_eq1 (V5 _ _) _ 2))).trans ?_
  | refine ((W6_arr _ _ _ 3).trans (((dat1 (V5 _ _) _).arrAt_in 3 rfl _).trans (A_eq1 (V5 _ _) _ 3))).trans ?_)
macro "s7" : tactic => `(tactic| first
  | refine (W7_of_ne _ _ _ _ (by decide)).trans ?_
  | refine ((W7_arr _ _ _ 0).trans (((dat2 (V6 _ _) _).arrAt_in 0 rfl _).trans (A_eq2 (V6 _ _) _ 0))).trans ?_
  | refine ((W7_arr _ _ _ 1).trans (((dat2 (V6 _ _) _).arrAt_in 1 rfl _).trans (A_eq2 (V6 _ _) _ 1))).trans ?_)
macro "s8" : tactic => `(tactic| refine (StableHlo.after_of_forall_not_mem (b := Proc.devRef .tc _) hostOps3 (W7 _ _ _) (by nw)).trans ?_)
macro "s9" : tactic => `(tactic| first
  | refine (W9_of_ne _ _ _ _ (by decide)).trans ?_
  | refine ((W9_arr _ _ _ 0).trans (((dat3 (V8 _ _) _).arrAt_in 0 rfl _).trans (A_eq3 (V8 _ _) _ 0))).trans ?_
  | refine ((W9_arr _ _ _ 1).trans (((dat3 (V8 _ _) _).arrAt_in 1 rfl _).trans (A_eq3 (V8 _ _) _ 1))).trans ?_
  | refine ((W9_arr _ _ _ 2).trans (((dat3 (V8 _ _) _).arrAt_in 2 rfl _).trans (A_eq3 (V8 _ _) _ 2))).trans ?_
  | refine ((W9_arr _ _ _ 3).trans (((dat3 (V8 _ _) _).arrAt_in 3 rfl _).trans (A_eq3 (V8 _ _) _ 3))).trans ?_)
macro "s10" : tactic => `(tactic| first
  | refine (W10_of_ne _ _ _ _ (by decide)).trans ?_
  | refine ((W10_arr _ _ _ 0).trans (((dat4 (V9 _ _) _).arrAt_in 0 rfl _).trans (A_eq4 (V9 _ _) _ 0))).trans ?_
  | refine ((W10_arr _ _ _ 1).trans (((dat4 (V9 _ _) _).arrAt_in 1 rfl _).trans (A_eq4 (V9 _ _) _ 1))).trans ?_)
macro "s11" : tactic => `(tactic| refine (StableHlo.after_of_forall_not_mem (b := Proc.devRef .tc _) hostOps5 (W10 _ _ _) (by nw)).trans ?_)
macro "s12" : tactic => `(tactic| first
  | refine (W12_of_ne _ _ _ _ (by decide)).trans ?_
  | refine ((W12_arr _ _ _ 0).trans (((dat5 (V11 _ _) _).arrAt_in 0 rfl _).trans (A_eq5 (V11 _ _) _ 0))).trans ?_
  | refine ((W12_arr _ _ _ 1).trans (((dat5 (V11 _ _) _).arrAt_in 1 rfl _).trans (A_eq5 (V11 _ _) _ 1))).trans ?_
  | refine ((W12_arr _ _ _ 2).trans (((dat5 (V11 _ _) _).arrAt_in 2 rfl _).trans (A_eq5 (V11 _ _) _ 2))).trans ?_
  | refine ((W12_arr _ _ _ 3).trans (((dat5 (V11 _ _) _).arrAt_in 3 rfl _).trans (A_eq5 (V11 _ _) _ 3))).trans ?_)
macro "s13" : tactic => `(tactic| refine (StableHlo.after_of_forall_not_mem (b := Proc.devRef .tc _) hostOps6 (W12 _ _ _) (by nw)).trans ?_)
macro "s14" : tactic => `(tactic| first
  | refine (W14_of_ne _ _ _ _ (by decide)).trans ?_
  | refine ((W14_arr _ _ _ 0).trans (((dat6 (V13 _ _) _).arrAt_in 0 rfl _).trans (A_eq6 (V13 _ _) _ 0))).trans ?_
  | refine ((W14_arr _ _ _ 1).trans (((dat6 (V13 _ _) _).arrAt_in 1 rfl _).trans (A_eq6 (V13 _ _) _ 1))).trans ?_
  | refine ((W14_arr _ _ _ 2).trans (((dat6 (V13 _ _) _).arrAt_in 2 rfl _).trans (A_eq6 (V13 _ _) _ 2))).trans ?_
  | refine ((W14_arr _ _ _ 3).trans (((dat6 (V13 _ _) _).arrAt_in 3 rfl _).trans (A_eq6 (V13 _ _) _ 3))).trans ?_
  | refine ((W14_arr _ _ _ 4).trans (((dat6 (V13 _ _) _).arrAt_in 4 rfl _).trans (A_eq6 (V13 _ _) _ 4))).trans ?_)
macro "s15" : tactic => `(tactic| refine (StableHlo.after_of_forall_not_mem (b := Proc.devRef .tc _) hostOps7 (W14 _ _ _) (by nw)).trans ?_)
macro "s16" : tactic => `(tactic| refine (StableHlo.after_of_forall_not_mem (b := Proc.devRef .tc _) hostOps7_1 (W15 _ _ _) (by nw)).trans ?_)
macro "s17" : tactic => `(tactic| refine (StableHlo.after_of_forall_not_mem (b := Proc.devRef .tc _) hostOps7_2 (W16 _ _ _) (by nw)).trans ?_)

variable {F : FTy → Type} [FloatOps F]
variable (m : (ℓ : Loc nD τ sig) → Buf (Elt F) ℓ) (ρ : Dev nD → PrngReg) (c : Dev nD)

/-! ## The arguments, at the boundaries where they are read -/

theorem W3_arg0 : W3 m ρ c (Proc.devRef .tc main_arg0) = m ((c : Thread nD τ).loc main_arg0) := by s3; s2; s1; exact rfl
theorem W3_arg3 : W3 m ρ c (Proc.devRef .tc main_arg3) = m ((c : Thread nD τ).loc main_arg3) := by s3; s2; s1; exact rfl
theorem W4_arg4 : W4 m ρ c (Proc.devRef .tc main_arg4) = m ((c : Thread nD τ).loc main_arg4) := by s4; s3; s2; s1; exact rfl
theorem W4_arg9 : W4 m ρ c (Proc.devRef .tc main_arg9) = m ((c : Thread nD τ).loc main_arg9) := by s4; s3; s2; s1; exact rfl
theorem W4_arg10 : W4 m ρ c (Proc.devRef .tc main_arg10) = m ((c : Thread nD τ).loc main_arg10) := by s4; s3; s2; s1; exact rfl
theorem W6_arg5 : W6 m ρ c (Proc.devRef .tc main_arg5) = m ((c : Thread nD τ).loc main_arg5) := by s6; s5; s4; s3; s2; s1; exact rfl
theorem W7_arg6 : W7 m ρ c (Proc.devRef .tc main_arg6) = m ((c : Thread nD τ).loc main_arg6) := by s7; s6; s5; s4; s3; s2; s1; exact rfl
theorem W7_arg11 : W7 m ρ c (Proc.devRef .tc main_arg11) = m ((c : Thread nD τ).loc main_arg11) := by s7; s6; s5; s4; s3; s2; s1; exact rfl
theorem W7_arg12 : W7 m ρ c (Proc.devRef .tc main_arg12) = m ((c : Thread nD τ).loc main_arg12) := by s7; s6; s5; s4; s3; s2; s1; exact rfl
theorem W9_arg7 : W9 m ρ c (Proc.devRef .tc main_arg7) = m ((c : Thread nD τ).loc main_arg7) := by s9; s8; s7; s6; s5; s4; s3; s2; s1; exact rfl
theorem W10_arg8 : W10 m ρ c (Proc.devRef .tc main_arg8) = m ((c : Thread nD τ).loc main_arg8) := by s10; s9; s8; s7; s6; s5; s4; s3; s2; s1; exact rfl
theorem W10_arg13 : W10 m ρ c (Proc.devRef .tc main_arg13) = m ((c : Thread nD τ).loc main_arg13) := by s10; s9; s8; s7; s6; s5; s4; s3; s2; s1; exact rfl
theorem W10_arg14 : W10 m ρ c (Proc.devRef .tc main_arg14) = m ((c : Thread nD τ).loc main_arg14) := by s10; s9; s8; s7; s6; s5; s4; s3; s2; s1; exact rfl
theorem W12_arg20 : W12 m ρ c (Proc.devRef .tc main_arg20) = m ((c : Thread nD τ).loc main_arg20) := by s12; s11; s10; s9; s8; s7; s6; s5; s4; s3; s2; s1; exact rfl
theorem W12_arg22 : W12 m ρ c (Proc.devRef .tc main_arg22) = m ((c : Thread nD τ).loc main_arg22) := by s12; s11; s10; s9; s8; s7; s6; s5; s4; s3; s2; s1; exact rfl
theorem W13_arg19 : W13 m ρ c (Proc.devRef .tc main_arg19) = m ((c : Thread nD τ).loc main_arg19) := by s13; s12; s11; s10; s9; s8; s7; s6; s5; s4; s3; s2; s1; exact rfl
theorem W13_arg21 : W13 m ρ c (Proc.devRef .tc main_arg21) = m ((c : Thread nD τ).loc main_arg21) := by s13; s12; s11; s10; s9; s8; s7; s6; s5; s4; s3; s2; s1; exact rfl
theorem W14_arg15 : W14 m ρ c (Proc.devRef .tc main_arg15) = m ((c : Thread nD τ).loc main_arg15) := by s14; s13; s12; s11; s10; s9; s8; s7; s6; s5; s4; s3; s2; s1; exact rfl
theorem W14_arg16 : W14 m ρ c (Proc.devRef .tc main_arg16) = m ((c : Thread nD τ).loc main_arg16) := by s14; s13; s12; s11; s10; s9; s8; s7; s6; s5; s4; s3; s2; s1; exact rfl
theorem W16_arg17 : W16 m ρ c (Proc.devRef .tc main_arg17) = m ((c : Thread nD τ).loc main_arg17) := by s16; s15; s14; s13; s12; s11; s10; s9; s8; s7; s6; s5; s4; s3; s2; s1; exact rfl
theorem W16_arg18 : W16 m ρ c (Proc.devRef .tc main_arg18) = m ((c : Thread nD τ).loc main_arg18) := by s16; s15; s14; s13; s12; s11; s10; s9; s8; s7; s6; s5; s4; s3; s2; s1; exact rfl
theorem W2_v3 : W2 m ρ c (Proc.devRef .tc main_v3) = W1 m ρ c (Proc.devRef .tc main_v3) := by s2; exact rfl
theorem W2_v6 : W2 m ρ c (Proc.devRef .tc main_v6) = W1 m ρ c (Proc.devRef .tc main_v6) := by s2; exact rfl
theorem W2_v8 : W2 m ρ c (Proc.devRef .tc main_v8) = W1 m ρ c (Proc.devRef .tc main_v8) := by s2; exact rfl
theorem W4_v3 : W4 m ρ c (Proc.devRef .tc main_v3) = W1 m ρ c (Proc.devRef .tc main_v3) := by s4; s3; s2; exact rfl
theorem W4_v6 : W4 m ρ c (Proc.devRef .tc main_v6) = W1 m ρ c (Proc.devRef .tc main_v6) := by s4; s3; s2; exact rfl
theorem W4_v33 : W4 m ρ c (Proc.devRef .tc main_v33) = W3 m ρ c (Proc.devRef .tc main_v33) := by s4; exact rfl
theorem W7_v3 : W7 m ρ c (Proc.devRef .tc main_v3) = W1 m ρ c (Proc.devRef .tc main_v3) := by s7; s6; s5; s4; s3; s2; exact rfl
theorem W7_v6 : W7 m ρ c (Proc.devRef .tc main_v6) = W1 m ρ c (Proc.devRef .tc main_v6) := by s7; s6; s5; s4; s3; s2; exact rfl
theorem W7_v33 : W7 m ρ c (Proc.devRef .tc main_v33) = W3 m ρ c (Proc.devRef .tc main_v33) := by s7; s6; s5; s4; exact rfl
theorem W10_v3 : W10 m ρ c (Proc.devRef .tc main_v3) = W1 m ρ c (Proc.devRef .tc main_v3) := by s10; s9; s8; s7; s6; s5; s4; s3; s2; exact rfl
theorem W10_v6 : W10 m ρ c (Proc.devRef .tc main_v6) = W1 m ρ c (Proc.devRef .tc main_v6) := by s10; s9; s8; s7; s6; s5; s4; s3; s2; exact rfl
theorem W10_v33 : W10 m ρ c (Proc.devRef .tc main_v33) = W3 m ρ c (Proc.devRef .tc main_v33) := by s10; s9; s8; s7; s6; s5; s4; exact rfl
theorem W13_v87 : W13 m ρ c (Proc.devRef .tc main_v87) = W12 m ρ c (Proc.devRef .tc main_v87) := by s13; exact rfl
theorem W14_v87 : W14 m ρ c (Proc.devRef .tc main_v87) = W12 m ρ c (Proc.devRef .tc main_v87) := by s14; s13; exact rfl
theorem W16_v91 : W16 m ρ c (Proc.devRef .tc main_v91) = W15 m ρ c (Proc.devRef .tc main_v91) := by s16; exact rfl

end Cert.KernelIdeal.KCarry

end
-- ==== Proof.KHost.lean ====
/-
  The host stretches of the kernel program, read in the reference's words.

  Between its launches the kernel program runs on the host the same graph operations the reference runs: the edge
  list with a self loop per node, the degree-normalised edge weights, and per layer the gather of the source rows,
  their scaling by the edge weight and the scatter-add into the target rows.  Read through the fold, each stretch's
  result is, word for word, the reference's own operation applied to the stretch's inputs, so once a launch's output
  is known to be the reference's value the stretch after it yields the reference's next value.
-/
import proofs.«174969_j8890582303024_1_alg».proof.Proof.Gen.KernelIdeal.Frame
import proofs.«174969_j8890582303024_1_alg».proof.Proof.RefRead
import proofs.«174969_j8890582303024_1_alg».proof.Proof.KCarry
import proofs.«174969_j8890582303024_1_alg».proof.Proof.LibTypedRef
import proofs.«174969_j8890582303024_1_alg».proof.Proof.LibWhere
import Idealize.ShloMosaic.Lib.ValueLayout
import Idealize.ShloMosaic.Lib.ValueIdx

set_option maxRecDepth 16384

noncomputable section

namespace Cert.KernelIdeal.KHost

open Cert.KernelIdeal Cert.KernelIdeal.Gen Cert.KernelIdeal.KCarry Cert.ReferenceIdeal.RefRead
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The graph: edge sources, edge targets, edge weights, the degrees' reciprocal square roots, the normalised weights -/

set_option maxHeartbeats 4000000 in
theorem src_eq : W1 m ρ c (Proc.devRef .tc main_v3) = val_main_v3 (F := Ideal) (m ((c : Thread nD τ).loc main_arg1)) := by
  show StableHlo.after hostOps0 (W0 m ρ c) (Proc.devRef .tc main_v3) = _
  generalize hV : W0 m ρ c = V
  after_results_simp
  subst hV
  rfl

set_option maxHeartbeats 4000000 in
theorem tgt_eq : W1 m ρ c (Proc.devRef .tc main_v6) = val_main_v6 (F := Ideal) (m ((c : Thread nD τ).loc main_arg1)) := by
  show StableHlo.after hostOps0 (W0 m ρ c) (Proc.devRef .tc main_v6) = _
  generalize hV : W0 m ρ c = V
  after_results_simp
  subst hV
  rfl

set_option maxHeartbeats 4000000 in
theorem wgt_eq : W1 m ρ c (Proc.devRef .tc main_v8) = val_main_v8 (F := Ideal) (m ((c : Thread nD τ).loc main_arg2)) := by
  show StableHlo.after hostOps0 (W0 m ρ c) (Proc.devRef .tc main_v8) = _
  generalize hV : W0 m ρ c = V
  after_results_simp
  subst hV
  rfl

set_option maxHeartbeats 4000000 in
theorem pos_eq : W1 m ρ c (Proc.devRef .tc main_v13) = val_main_v13 (F := Ideal) (m ((c : Thread nD τ).loc main_arg1)) (m ((c : Thread nD τ).loc main_arg2)) := by
  show StableHlo.after hostOps0 (W0 m ρ c) (Proc.devRef .tc main_v13) = _
  generalize hV : W0 m ρ c = V
  after_results_simp
  subst hV
  rfl

set_option maxHeartbeats 4000000 in
theorem rs_eq : W1 m ρ c (Proc.devRef .tc main_v16) = val_main_v16 (F := Ideal) (m ((c : Thread nD τ).loc main_arg1)) (m ((c : Thread nD τ).loc main_arg2)) := by
  show StableHlo.after hostOps0 (W0 m ρ c) (Proc.devRef .tc main_v16) = _
  generalize hV : W0 m ρ c = V
  after_results_simp
  subst hV
  rfl

set_option maxHeartbeats 4000000 in
theorem zero_eq : W1 m ρ c (Proc.devRef .tc main_cst_3) = val_main_cst_3 (F := Ideal) := by
  show StableHlo.after hostOps0 (W0 m ρ c) (Proc.devRef .tc main_cst_3) = _
  generalize hV : W0 m ρ c = V
  after_results_simp
  subst hV
  rfl

set_option maxHeartbeats 4000000 in
theorem dis_eq : W2 m ρ c (Proc.devRef .tc main_v17) = val_main_v17 (F := Ideal) (m ((c : Thread nD τ).loc main_arg1)) (m ((c : Thread nD τ).loc main_arg2)) := by
  show StableHlo.after hostOps0_1 (W1 m ρ c) (Proc.devRef .tc main_v17) = _
  generalize hV : W1 m ρ c = V
  after_results_simp
  subst hV
  rw [pos_eq, rs_eq, zero_eq]
  rw [StableHlo.TRef.ofBuf_toBuf, StableHlo.TRef.ofBuf_toBuf]
  refine StableHlo.TRef.toBuf_eq_of_heq _ _ _ ?_
  rw [StableHlo.TRef.ofBuf_eq_of_heq _ _ (val_main_v13 (F := Ideal) (m ((c : Thread nD τ).loc main_arg1)) (m ((c : Thread nD τ).loc main_arg2))) HEq.rfl,
    StableHlo.TRef.ofBuf_eq_of_heq _ _ (val_main_v16 (F := Ideal) (m ((c : Thread nD τ).loc main_arg1)) (m ((c : Thread nD τ).loc main_arg2))) HEq.rfl,
    StableHlo.TRef.ofBuf_eq_of_heq _ _ (val_main_cst_3 (F := Ideal)) HEq.rfl]
  exact HEq.rfl

set_option maxHeartbeats 4000000 in
theorem norm_eq : W3 m ρ c (Proc.devRef .tc main_v33) = val_main_v33 (F := Ideal) (m ((c : Thread nD τ).loc main_arg1)) (m ((c : Thread nD τ).loc main_arg2)) := by
  show StableHlo.after hostOps0_2 (W2 m ρ c) (Proc.devRef .tc main_v33) = _
  generalize hV : W2 m ρ c = V
  after_results_simp
  subst hV
  rw [dis_eq, W2_v3, W2_v6, W2_v8, src_eq, tgt_eq, wgt_eq]
  rfl

/-! ## A layer's aggregation: gather the source rows of the product, scale by the edge weight, scatter-add into the
    target rows -/

set_option maxHeartbeats 4000000 in
theorem agg1_eq (h : W4 m ρ c (Proc.devRef .tc main_v34) = val_main_v34 (F := Ideal) (m ((c : Thread nD τ).loc main_arg0)) (m ((c : Thread nD τ).loc main_arg3))) :
    W5 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v47) = _
  generalize hV : W4 m ρ c = V
  after_results_simp
  subst hV
  rw [h, W4_v33, W4_v3, W4_v6, norm_eq, src_eq, tgt_eq]
  rfl

set_option maxHeartbeats 4000000 in
theorem agg2_eq (h : W7 m ρ c (Proc.devRef .tc main_v52) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10))) :
    W8 m ρ c (Proc.devRef .tc main_v65) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) := by
  show StableHlo.after hostOps3 (W7 m ρ c) (Proc.devRef .tc main_v65) = _
  generalize hV : W7 m ρ c = V
  after_results_simp
  subst hV
  rw [h, W7_v33, W7_v3, W7_v6, norm_eq, src_eq, tgt_eq]
  rfl

set_option maxHeartbeats 4000000 in
theorem agg3_eq (h : W10 m ρ c (Proc.devRef .tc main_v70) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12))) :
    W11 m ρ c (Proc.devRef .tc main_v83) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) := by
  show StableHlo.after hostOps5 (W10 m ρ c) (Proc.devRef .tc main_v83) = _
  generalize hV : W10 m ρ c = V
  after_results_simp
  subst hV
  rw [h, W10_v33, W10_v3, W10_v6, norm_eq, src_eq, tgt_eq]
  rfl

/-! ## The bias, gain and offset vectors as one-row matrices, read at an entry -/

set_option maxHeartbeats 4000000 in
theorem row48 (k : Fin 128) : W5 m ρ c (Proc.devRef .tc main_v48) (ix2 (0 : Fin 1) k) = (m ((c : Thread nD τ).loc main_arg4)) (ix1 k) := by
  have e : W5 m ρ c (Proc.devRef .tc main_v48) = shapeCast S1x128 (m ((c : Thread nD τ).loc main_arg4)) shapeCasts_S128_S1x128 := by
    show StableHlo.after hostOps1 (W4 m ρ c) (Proc.devRef .tc main_v48) = _
    generalize hV : W4 m ρ c = V
    after_results_simp
    subst hV
    rw [W4_arg4]
    rfl
  rw [e]
  exact shapeCast_a_1a_apply _ _ (0 : Fin 1) k

set_option maxHeartbeats 4000000 in
theorem row49 (k : Fin 128) : W5 m ρ c (Proc.devRef .tc main_v49) (ix2 (0 : Fin 1) k) = (m ((c : Thread nD τ).loc main_arg9)) (ix1 k) := by
  have e : W5 m ρ c (Proc.devRef .tc main_v49) = shapeCast S1x128 (m ((c : Thread nD τ).loc main_arg9)) shapeCasts_S128_S1x128 := by
    show StableHlo.after hostOps1 (W4 m ρ c) (Proc.devRef .tc main_v49) = _
    generalize hV : W4 m ρ c = V
    after_results_simp
    subst hV
    rw [W4_arg9]
    rfl
  rw [e]
  exact shapeCast_a_1a_apply _ _ (0 : Fin 1) k

set_option maxHeartbeats 4000000 in
theorem row50 (k : Fin 128) : W5 m ρ c (Proc.devRef .tc main_v50) (ix2 (0 : Fin 1) k) = (m ((c : Thread nD τ).loc main_arg10)) (ix1 k) := by
  have e : W5 m ρ c (Proc.devRef .tc main_v50) = shapeCast S1x128 (m ((c : Thread nD τ).loc main_arg10)) shapeCasts_S128_S1x128 := by
    show StableHlo.after hostOps1 (W4 m ρ c) (Proc.devRef .tc main_v50) = _
    generalize hV : W4 m ρ c = V
    after_results_simp
    subst hV
    rw [W4_arg10]
    rfl
  rw [e]
  exact shapeCast_a_1a_apply _ _ (0 : Fin 1) k

set_option maxHeartbeats 4000000 in
theorem row66 (k : Fin 128) : W8 m ρ c (Proc.devRef .tc main_v66) (ix2 (0 : Fin 1) k) = (m ((c : Thread nD τ).loc main_arg6)) (ix1 k) := by
  have e : W8 m ρ c (Proc.devRef .tc main_v66) = shapeCast S1x128 (m ((c : Thread nD τ).loc main_arg6)) shapeCasts_S128_S1x128 := by
    show StableHlo.after hostOps3 (W7 m ρ c) (Proc.devRef .tc main_v66) = _
    generalize hV : W7 m ρ c = V
    after_results_simp
    subst hV
    rw [W7_arg6]
    rfl
  rw [e]
  exact shapeCast_a_1a_apply _ _ (0 : Fin 1) k

set_option maxHeartbeats 4000000 in
theorem row67 (k : Fin 128) : W8 m ρ c (Proc.devRef .tc main_v67) (ix2 (0 : Fin 1) k) = (m ((c : Thread nD τ).loc main_arg11)) (ix1 k) := by
  have e : W8 m ρ c (Proc.devRef .tc main_v67) = shapeCast S1x128 (m ((c : Thread nD τ).loc main_arg11)) shapeCasts_S128_S1x128 := by
    show StableHlo.after hostOps3 (W7 m ρ c) (Proc.devRef .tc main_v67) = _
    generalize hV : W7 m ρ c = V
    after_results_simp
    subst hV
    rw [W7_arg11]
    rfl
  rw [e]
  exact shapeCast_a_1a_apply _ _ (0 : Fin 1) k

set_option maxHeartbeats 4000000 in
theorem row68 (k : Fin 128) : W8 m ρ c (Proc.devRef .tc main_v68) (ix2 (0 : Fin 1) k) = (m ((c : Thread nD τ).loc main_arg12)) (ix1 k) := by
  have e : W8 m ρ c (Proc.devRef .tc main_v68) = shapeCast S1x128 (m ((c : Thread nD τ).loc main_arg12)) shapeCasts_S128_S1x128 := by
    show StableHlo.after hostOps3 (W7 m ρ c) (Proc.devRef .tc main_v68) = _
    generalize hV : W7 m ρ c = V
    after_results_simp
    subst hV
    rw [W7_arg12]
    rfl
  rw [e]
  exact shapeCast_a_1a_apply _ _ (0 : Fin 1) k

set_option maxHeartbeats 4000000 in
theorem row84 (k : Fin 64) : W11 m ρ c (Proc.devRef .tc main_v84) (ix2 (0 : Fin 1) k) = (m ((c : Thread nD τ).loc main_arg8)) (ix1 k) := by
  have e : W11 m ρ c (Proc.devRef .tc main_v84) = shapeCast S1x64 (m ((c : Thread nD τ).loc main_arg8)) shapeCasts_S64_S1x64 := by
    show StableHlo.after hostOps5 (W10 m ρ c) (Proc.devRef .tc main_v84) = _
    generalize hV : W10 m ρ c = V
    after_results_simp
    subst hV
    rw [W10_arg8]
    rfl
  rw [e]
  exact shapeCast_a_1a_apply _ _ (0 : Fin 1) k

set_option maxHeartbeats 4000000 in
theorem row85 (k : Fin 64) : W11 m ρ c (Proc.devRef .tc main_v85) (ix2 (0 : Fin 1) k) = (m ((c : Thread nD τ).loc main_arg13)) (ix1 k) := by
  have e : W11 m ρ c (Proc.devRef .tc main_v85) = shapeCast S1x64 (m ((c : Thread nD τ).loc main_arg13)) shapeCasts_S64_S1x64 := by
    show StableHlo.after hostOps5 (W10 m ρ c) (Proc.devRef .tc main_v85) = _
    generalize hV : W10 m ρ c = V
    after_results_simp
    subst hV
    rw [W10_arg13]
    rfl
  rw [e]
  exact shapeCast_a_1a_apply _ _ (0 : Fin 1) k

set_option maxHeartbeats 4000000 in
theorem row86 (k : Fin 64) : W11 m ρ c (Proc.devRef .tc main_v86) (ix2 (0 : Fin 1) k) = (m ((c : Thread nD τ).loc main_arg14)) (ix1 k) := by
  have e : W11 m ρ c (Proc.devRef .tc main_v86) = shapeCast S1x64 (m ((c : Thread nD τ).loc main_arg14)) shapeCasts_S64_S1x64 := by
    show StableHlo.after hostOps5 (W10 m ρ c) (Proc.devRef .tc main_v86) = _
    generalize hV : W10 m ρ c = V
    after_results_simp
    subst hV
    rw [W10_arg14]
    rfl
  rw [e]
  exact shapeCast_a_1a_apply _ _ (0 : Fin 1) k

set_option maxHeartbeats 4000000 in
theorem row88 (k : Fin 64) : W13 m ρ c (Proc.devRef .tc main_v88) (ix2 (0 : Fin 1) k) = (m ((c : Thread nD τ).loc main_arg20)) (ix1 k) := by
  have e : W13 m ρ c (Proc.devRef .tc main_v88) = shapeCast S1x64 (m ((c : Thread nD τ).loc main_arg20)) shapeCasts_S64_S1x64 := by
    show StableHlo.after hostOps6 (W12 m ρ c) (Proc.devRef .tc main_v88) = _
    generalize hV : W12 m ρ c = V
    after_results_simp
    subst hV
    rw [W12_arg20]
    rfl
  rw [e]
  exact shapeCast_a_1a_apply _ _ (0 : Fin 1) k

set_option maxHeartbeats 4000000 in
theorem row89 (k : Fin 1) : W13 m ρ c (Proc.devRef .tc main_v89) (ix2 (0 : Fin 1) k) = (m ((c : Thread nD τ).loc main_arg22)) (ix1 k) := by
  have e : W13 m ρ c (Proc.devRef .tc main_v89) = shapeCast S1x1 (m ((c : Thread nD τ).loc main_arg22)) shapeCasts_S1_S1x1 := by
    show StableHlo.after hostOps6 (W12 m ρ c) (Proc.devRef .tc main_v89) = _
    generalize hV : W12 m ρ c = V
    after_results_simp
    subst hV
    rw [W12_arg22]
    rfl
  rw [e]
  exact shapeCast_a_1a_apply _ _ (0 : Fin 1) k

/-! ## The tail: the pooled value stream and the centred advantages -/

set_option maxHeartbeats 4000000 in
theorem flat_eq (h90 : W14 m ρ c (Proc.devRef .tc main_v90) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22))) : W15 m ρ c (Proc.devRef .tc main_v91) = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22)) := by
  show StableHlo.after hostOps7 (W14 m ρ c) (Proc.devRef .tc main_v91) = _
  generalize hV : W14 m ρ c = V
  after_results_simp
  subst hV
  rw [h90]
  rfl

set_option maxHeartbeats 4000000 in
theorem pool_eq (h87 : W12 m ρ c (Proc.devRef .tc main_v87) = val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) : W15 m ρ c (Proc.devRef .tc main_v98) = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps7 (W14 m ρ c) (Proc.devRef .tc main_v98) = _
  generalize hV : W14 m ρ c = V
  after_results_simp
  subst hV
  rw [W14_v87, h87, W14_arg15, W14_arg16]
  rfl

set_option maxHeartbeats 4000000 in
theorem hid_eq (h87 : W12 m ρ c (Proc.devRef .tc main_v87) = val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) : W16 m ρ c (Proc.devRef .tc main_v99) = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps7_1 (W15 m ρ c) (Proc.devRef .tc main_v99) = _
  generalize hV : W15 m ρ c = V
  after_results_simp
  subst hV
  rw [pool_eq m ρ c h87]
  rfl

set_option maxHeartbeats 4000000 in
theorem tail_eq (h87 : W12 m ρ c (Proc.devRef .tc main_v87) = val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (h90 : W14 m ρ c (Proc.devRef .tc main_v90) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22))) :
    W17 m ρ c (Proc.devRef .tc main_v109) = val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  show StableHlo.after hostOps7_2 (W16 m ρ c) (Proc.devRef .tc main_v109) = _
  generalize hV : W16 m ρ c = V
  after_results_simp
  subst hV
  rw [hid_eq m ρ c h87, W16_v91, flat_eq m ρ c h90, W16_arg17, W16_arg18]
  rfl

end Cert.KernelIdeal.KHost

end
-- ==== Proof.Spec.lean ====
/-
  The network's three per-row formulas, stated once over arbitrary extents on the extended reals.

  A graph-convolution layer multiplies every node's feature row by a weight matrix (mulAt), sums the weighted rows of
  the node's in-neighbours (a gather and a scatter-add, which both programs take on the host in the same words), and
  then shifts the row by a bias, normalises it to mean zero and variance one over its own entries, scales and shifts
  it entry by entry and clamps it from below (lnReluAt).  The advantage head maps a node's row through a hidden layer
  with a clamp and then to one number (advAt).  Entry (p, c) of each result depends on row p of the node array only,
  which is why a program that works on blocks of rows and one that works on the whole array compute the same thing.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

variable {M K H : Nat}

/-- Entry (p, c) of the product of A by W: the sum over k of A (p, k) times W (k, c). -/
def mulAt (A : (⟨2, ![M, K]⟩ : Shape).Idx → EReal) (W : (⟨2, ![K, H]⟩ : Shape).Idx → EReal) (p : Fin M) (c : Fin H) : EReal :=
  ∑ k : Fin K, A (ix2 p k) * W (ix2 k c)

/-- Row p of S shifted by the bias b: entry k. -/
def shiftAt (S : (⟨2, ![M, H]⟩ : Shape).Idx → EReal) (b : Fin H → EReal) (p : Fin M) (k : Fin H) : EReal :=
  S (ix2 p k) + b k

/-- The mean of the shifted row p: its sum divided by n (the row's length, as the programs spell it). -/
def meanAt (n : EReal) (S : (⟨2, ![M, H]⟩ : Shape).Idx → EReal) (b : Fin H → EReal) (p : Fin M) : EReal :=
  Ideal.div (∑ k : Fin H, shiftAt S b p k) n

/-- The variance of the shifted row p: the sum of its squared deviations from the mean, divided by n. -/
def varAt (n : EReal) (S : (⟨2, ![M, H]⟩ : Shape).Idx → EReal) (b : Fin H → EReal) (p : Fin M) : EReal :=
  Ideal.div (∑ k : Fin H, (shiftAt S b p k - meanAt n S b p) * (shiftAt S b p k - meanAt n S b p)) n

/-- Entry (p, c) of the normalised layer: the deviation of the shifted entry from its row's mean, times the reciprocal
    square root of the row's variance plus e, times the gain g c, plus the offset be c, clamped from below at z. -/
def lnReluAt (n e z : EReal) (S : (⟨2, ![M, H]⟩ : Shape).Idx → EReal) (b g be : Fin H → EReal)
    (p : Fin M) (c : Fin H) : EReal :=
  max (((shiftAt S b p c - meanAt n S b p) * Ideal.rsqrt (varAt n S b p + e)) * g c + be c) z

/-- The advantage of node p: its row times W1, shifted by b1 and clamped from below at z, times the column W2, plus b2. -/
def advAt (z : EReal) (A : (⟨2, ![M, K]⟩ : Shape).Idx → EReal) (W1 : (⟨2, ![K, H]⟩ : Shape).Idx → EReal)
    (b1 : Fin H → EReal) (W2 : (⟨2, ![H, 1]⟩ : Shape).Idx → EReal) (b2 : EReal)
    (p : Fin M) : EReal :=
  (∑ k : Fin H, max (mulAt A W1 p k + b1 k) z * W2 (ix2 k (0 : Fin 1))) + b2

/-- The value a 32-bit float word denotes on the extended reals. -/
abbrev lit (w : BitVec 32) : EReal := Ideal.ofBits .f32 w

end Cert.Spec

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.KMat.lean ====
/-
  The three matrix products of the network, read off the blocked program.

  Each product takes the 50000 node rows in ten blocks of 5000 rows; at each block it multiplies the block by the whole
  weight matrix and writes the 5000 result rows back in place.  Entry (r, q) of a result depends on row r of the node
  array and column q of the weights only, so the ten blocks written back are the ten row blocks of one array: the
  product of the node array by the weights, entry by entry.
-/
import proofs.«174969_j8890582303024_1_alg».proof.Proof.Gen.KernelIdeal.Frame
import proofs.«174969_j8890582303024_1_alg».proof.Proof.Spec
import proofs.«174969_j8890582303024_1_alg».proof.Proof.LibMatRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KMat

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

/-- The zero offsets of a block taken whole. -/
theorem zero_offsets : (![0, 0] : Fin 2 → Nat) = fun _ => 0 := funext fun a => by fin_cases a <;> rfl

/-! ## Region 0: rows of main_arg0 times main_arg3 -/

/-- The body's result at entry (p, q) of a block: row p of the block of node rows against column q of the weights,
    summed over the 64 shared positions.  The change of float format is the identity on the extended reals and the
    product is accumulated into the zero array, so nothing but the sum is left. -/
theorem block_prod0_apply (x0 : Vec Ideal S5000x64 .f32) (x1 : Vec Ideal S64x128 .f32) (p : Fin 5000) (q : Fin 128) :
    k0_pay1 (F := Ideal) x0 x1 (ix2 p q) = ∑ k : Fin 64, x0 (ix2 p k) * x1 (ix2 k q) := by
  unfold k0_pay1
  exact MatRows.matmul_plain_apply none (truncf .bf16 x0 bitsLt_bf16_f32) (truncf .bf16 x1 bitsLt_bf16_f32) p q

/-- Where each window's block sits at grid point t: the node rows and the result move down one block of 5000 rows per
    point and have one block of columns; the weights are one block, the same at every point. -/
theorem block_pos0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole result array: entry (r, q) is row r of main_arg0 against column q of main_arg3. -/
abbrev prod0 (c : Dev nD) : S50000x128.Idx → EReal :=
  fun i => mulAt (M := 50000) (K := 64) (H := 128) (V c main_arg0) (V c main_arg3) (i 0) (i 1)

/-- What point t writes back is block t of that array: entry (p, q) of the block is entry (5000 t + p, q) of the
    array, and it depends on row 5000 t + p of main_arg0, which is row p of the block of main_arg0 the point holds, and on the
    whole of main_arg3. -/
theorem written_block0 (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero zero_offsets]
  simp only [View.ld_unit_zero (S := S5000x64) zero_offsets, View.ld_unit_zero (S := S64x128) zero_offsets]
  funext (j : S5000x128.Idx)
  obtain ⟨p, q, rfl⟩ : ∃ (p : Fin 5000) (q : Fin 128), j = ix2 p q := ⟨j 0, j 1, eq_ix2 j⟩
  show k0_pay1 (iblk0 V c 0 t) (iblk0 V c 1 t) (ix2 p q)
      = prod0 V c (((cfg0.win 2).blk t).view.emb (ix2 p q))
  refine (block_prod0_apply (iblk0 V c 0 t) (iblk0 V c 1 t) p q).trans ?_
  obtain ⟨e00, e01, e10, e11, e20, e21⟩ := block_pos0 t
  refine Finset.sum_congr rfl fun k _ => ?_
  have hA : (iblk0 V c 0 t : Vec Ideal S5000x64 .f32) (ix2 p k)
      = (V c main_arg0 : S50000x64.Idx → EReal) (ix2 ((((cfg0.win 2).blk t).view.emb (ix2 p q)) 0) k) := by
    show (V c main_arg0 : S50000x64.Idx → EReal) (((cfg0.win 0).blk t).view.emb (ix2 p k)) = _
    refine congrArg _ (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 64 + 1 * k.val = k.val
      omega
  have hW : (iblk0 V c 1 t : Vec Ideal S64x128 .f32) (ix2 k q)
      = (V c main_arg3 : S64x128.Idx → EReal) (ix2 k ((((cfg0.win 2).blk t).view.emb (ix2 p q)) 1)) := by
    show (V c main_arg3 : S64x128.Idx → EReal) (((cfg0.win 1).blk t).view.emb (ix2 k q)) = _
    refine congrArg _ (funext fun a => Fin.ext ?_)
    match a with
    | ⟨0, _⟩ =>
      show win0_1.index t (0 : Fin 2) * 64 + 1 * k.val = k.val
      omega
    | ⟨1, _⟩ =>
      show win0_1.index t (1 : Fin 2) * 128 + 1 * q.val = win0_2.index t (1 : Fin 2) * 128 + 1 * q.val
      omega
  rw [hA, hW]

/-- An entry of the result array lies in point t's block exactly when each coordinate lies in the block's range. -/
theorem in_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v34).slice (win0_2.rect t)).set ↔ _
  rw [View.set_slice_whole, Rect.mem_set_unit]
  exact Iff.rfl

/-- Every entry (r, q) of the result array lies in the block of the point r / 5000, which writes its block back. -/
theorem rows_covered0 (i : S50000x128.Idx) :
    ∃ t : Fin cfg0.N, (cfg0.win 2).flush t = true ∧ i ∈ ((cfg0.win 2).blk t).view.set := by
  have hN : grid0.N = 10 := N_0
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [hN]; omega⟩, rfl⟩
  obtain ⟨e00, e01, e10, e11, e20, e21⟩ := block_pos0 t
  refine ⟨t, flush0_2 t, ?_⟩
  rw [in_block0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the ten points the result array holds, at every entry, the product's entry. -/
theorem final0 (c : Dev nD) (i : S50000x128.Idx) :
    (Gen.dat0 (F := Ideal) V c).arrAt 2 cfg0.N i
      = Cert.Spec.mulAt (M := 50000) (K := 64) (H := 128) (V c main_arg0) (V c main_arg3) (i 0) (i 1) :=
  congrFun ((dat0 (F := Ideal) V c).arrAt_eq_of_cover 2 (prod0 V c) (fun t _ => written_block0 V c t) rows_covered0) i

/-! ## Region 2: rows of main_v51 times main_arg5 -/

/-- The body's result at entry (p, q) of a block: row p of the block of node rows against column q of the weights,
    summed over the 128 shared positions.  The change of float format is the identity on the extended reals and the
    product is accumulated into the zero array, so nothing but the sum is left. -/
theorem block_prod2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact MatRows.matmul_plain_apply none (truncf .bf16 x0 bitsLt_bf16_f32) (truncf .bf16 x1 bitsLt_bf16_f32) p q

/-- Where each window's block sits at grid point t: the node rows and the result move down one block of 5000 rows per
    point and have one block of columns; the weights are one block, the same at every point. -/
theorem block_pos2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole result array: entry (r, q) is row r of main_v51 against column q of main_arg5. -/
abbrev prod2 (c : Dev nD) : S50000x128.Idx → EReal :=
  fun i => mulAt (M := 50000) (K := 128) (H := 128) (V c main_v51) (V c main_arg5) (i 0) (i 1)

/-- What point t writes back is block t of that array: entry (p, q) of the block is entry (5000 t + p, q) of the
    array, and it depends on row 5000 t + p of main_v51, which is row p of the block of main_v51 the point holds, and on the
    whole of main_arg5. -/
theorem written_block2 (c : Dev nD) (t : Fin cfg2.N) :
    (dat2 (F := Ideal) V c).flushed 2 t = ((cfg2.win 2).blk t).view.read (Elt Ideal) (prod2 V c) := by
  show (cfg2.win 2).cut (grid2.coords t) ((dat2 (F := Ideal) V c).after 2 t) = _
  rw [after2_2]
  unfold out2_2
  rw [View.canon_unit_zero zero_offsets]
  simp only [View.ld_unit_zero (S := S5000x128) zero_offsets, View.ld_unit_zero (S := S128x128) zero_offsets]
  funext (j : S5000x128.Idx)
  obtain ⟨p, q, rfl⟩ : ∃ (p : Fin 5000) (q : Fin 128), j = ix2 p q := ⟨j 0, j 1, eq_ix2 j⟩
  show k2_pay1 (iblk2 V c 0 t) (iblk2 V c 1 t) (ix2 p q)
      = prod2 V c (((cfg2.win 2).blk t).view.emb (ix2 p q))
  refine (block_prod2_apply (iblk2 V c 0 t) (iblk2 V c 1 t) p q).trans ?_
  obtain ⟨e00, e01, e10, e11, e20, e21⟩ := block_pos2 t
  refine Finset.sum_congr rfl fun k _ => ?_
  have hA : (iblk2 V c 0 t : Vec Ideal S5000x128 .f32) (ix2 p k)
      = (V c main_v51 : S50000x128.Idx → EReal) (ix2 ((((cfg2.win 2).blk t).view.emb (ix2 p q)) 0) k) := by
    show (V c main_v51 : S50000x128.Idx → EReal) (((cfg2.win 0).blk t).view.emb (ix2 p k)) = _
    refine congrArg _ (funext fun a => Fin.ext ?_)
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 128 + 1 * k.val = k.val
      omega
  have hW : (iblk2 V c 1 t : Vec Ideal S128x128 .f32) (ix2 k q)
      = (V c main_arg5 : S128x128.Idx → EReal) (ix2 k ((((cfg2.win 2).blk t).view.emb (ix2 p q)) 1)) := by
    show (V c main_arg5 : S128x128.Idx → EReal) (((cfg2.win 1).blk t).view.emb (ix2 k q)) = _
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 128 + 1 * q.val = win2_2.index t (1 : Fin 2) * 128 + 1 * q.val
      omega
  rw [hA, hW]

/-- An entry of the result array lies in point t's block exactly when each coordinate lies in the block's range. -/
theorem in_block2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v52).slice (win2_2.rect t)).set ↔ _
  rw [View.set_slice_whole, Rect.mem_set_unit]
  exact Iff.rfl

/-- Every entry (r, q) of the result array lies in the block of the point r / 5000, which writes its block back. -/
theorem rows_covered2 (i : S50000x128.Idx) :
    ∃ t : Fin cfg2.N, (cfg2.win 2).flush t = true ∧ i ∈ ((cfg2.win 2).blk t).view.set := by
  have hN : grid2.N = 10 := N_2
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show (i 0).val / 5000 < grid2.N; rw [hN]; omega⟩, rfl⟩
  obtain ⟨e00, e01, e10, e11, e20, e21⟩ := block_pos2 t
  refine ⟨t, flush2_2 t, ?_⟩
  rw [in_block2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- After the ten points the result array holds, at every entry, the product's entry. -/
theorem final2 (c : Dev nD) (i : S50000x128.Idx) :
    (Gen.dat2 (F := Ideal) V c).arrAt 2 cfg2.N i
      = Cert.Spec.mulAt (M := 50000) (K := 128) (H := 128) (V c main_v51) (V c main_arg5) (i 0) (i 1) :=
  congrFun ((dat2 (F := Ideal) V c).arrAt_eq_of_cover 2 (prod2 V c) (fun t _ => written_block2 V c t) rows_covered2) i

/-! ## Region 4: rows of main_v69 times main_arg7 -/

/-- The body's result at entry (p, q) of a block: row p of the block of node rows against column q of the weights,
    summed over the 128 shared positions.  The change of float format is the identity on the extended reals and the
    product is accumulated into the zero array, so nothing but the sum is left. -/
theorem block_prod4_apply (x0 : Vec Ideal S5000x128 .f32) (x1 : Vec Ideal S128x64 .f32) (p : Fin 5000) (q : Fin 64) :
    k4_pay1 (F := Ideal) x0 x1 (ix2 p q) = ∑ k : Fin 128, x0 (ix2 p k) * x1 (ix2 k q) := by
  unfold k4_pay1
  rw [shapeCast_self]
  exact MatRows.matmul_plain_apply none (truncf .bf16 x0 bitsLt_bf16_f32) (truncf .bf16 x1 bitsLt_bf16_f32) p q

/-- Where each window's block sits at grid point t: the node rows and the result move down one block of 5000 rows per
    point and have one block of columns; the weights are one block, the same at every point. -/
theorem block_pos4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The whole result array: entry (r, q) is row r of main_v69 against column q of main_arg7. -/
abbrev prod4 (c : Dev nD) : S50000x64.Idx → EReal :=
  fun i => mulAt (M := 50000) (K := 128) (H := 64) (V c main_v69) (V c main_arg7) (i 0) (i 1)

/-- What point t writes back is block t of that array: entry (p, q) of the block is entry (5000 t + p, q) of the
    array, and it depends on row 5000 t + p of main_v69, which is row p of the block of main_v69 the point holds, and on the
    whole of main_arg7. -/
theorem written_block4 (c : Dev nD) (t : Fin cfg4.N) :
    (dat4 (F := Ideal) V c).flushed 2 t = ((cfg4.win 2).blk t).view.read (Elt Ideal) (prod4 V c) := by
  show (cfg4.win 2).cut (grid4.coords t) ((dat4 (F := Ideal) V c).after 2 t) = _
  rw [after4_2]
  unfold out4_2
  rw [View.canon_unit_zero zero_offsets]
  simp only [View.ld_unit_zero (S := S5000x128) zero_offsets, View.ld_unit_zero (S := S128x64) zero_offsets]
  funext (j : S5000x64.Idx)
  obtain ⟨p, q, rfl⟩ : ∃ (p : Fin 5000) (q : Fin 64), j = ix2 p q := ⟨j 0, j 1, eq_ix2 j⟩
  show k4_pay1 (iblk4 V c 0 t) (iblk4 V c 1 t) (ix2 p q)
      = prod4 V c (((cfg4.win 2).blk t).view.emb (ix2 p q))
  refine (block_prod4_apply (iblk4 V c 0 t) (iblk4 V c 1 t) p q).trans ?_
  obtain ⟨e00, e01, e10, e11, e20, e21⟩ := block_pos4 t
  refine Finset.sum_congr rfl fun k _ => ?_
  have hA : (iblk4 V c 0 t : Vec Ideal S5000x128 .f32) (ix2 p k)
      = (V c main_v69 : S50000x128.Idx → EReal) (ix2 ((((cfg4.win 2).blk t).view.emb (ix2 p q)) 0) k) := by
    show (V c main_v69 : S50000x128.Idx → EReal) (((cfg4.win 0).blk t).view.emb (ix2 p k)) = _
    refine congrArg _ (funext fun a => Fin.ext ?_)
    match a with
    | ⟨0, _⟩ =>
      show win4_0.index t (0 : Fin 2) * 5000 + 1 * p.val = win4_2.index t (0 : Fin 2) * 5000 + 1 * p.val
      omega
    | ⟨1, _⟩ =>
      show win4_0.index t (1 : Fin 2) * 128 + 1 * k.val = k.val
      omega
  have hW : (iblk4 V c 1 t : Vec Ideal S128x64 .f32) (ix2 k q)
      = (V c main_arg7 : S128x64.Idx → EReal) (ix2 k ((((cfg4.win 2).blk t).view.emb (ix2 p q)) 1)) := by
    show (V c main_arg7 : S128x64.Idx → EReal) (((cfg4.win 1).blk t).view.emb (ix2 k q)) = _
    refine congrArg _ (funext fun a => Fin.ext ?_)
    match a with
    | ⟨0, _⟩ =>
      show win4_1.index t (0 : Fin 2) * 128 + 1 * k.val = k.val
      omega
    | ⟨1, _⟩ =>
      show win4_1.index t (1 : Fin 2) * 64 + 1 * q.val = win4_2.index t (1 : Fin 2) * 64 + 1 * q.val
      omega
  rw [hA, hW]

/-- An entry of the result array lies in point t's block exactly when each coordinate lies in the block's range. -/
theorem in_block4 (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v70).slice (win4_2.rect t)).set ↔ _
  rw [View.set_slice_whole, Rect.mem_set_unit]
  exact Iff.rfl

/-- Every entry (r, q) of the result array lies in the block of the point r / 5000, which writes its block back. -/
theorem rows_covered4 (i : S50000x64.Idx) :
    ∃ t : Fin cfg4.N, (cfg4.win 2).flush t = true ∧ i ∈ ((cfg4.win 2).blk t).view.set := by
  have hN : grid4.N = 10 := N_4
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, by show (i 0).val / 5000 < grid4.N; rw [hN]; omega⟩, rfl⟩
  obtain ⟨e00, e01, e10, e11, e20, e21⟩ := block_pos4 t
  refine ⟨t, flush4_2 t, ?_⟩
  rw [in_block4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 64 ≤ (i 1).val ∧ (i 1).val < win4_2.index t (1 : Fin 2) * 64 + 64
    omega

/-- After the ten points the result array holds, at every entry, the product's entry. -/
theorem final4 (c : Dev nD) (i : S50000x64.Idx) :
    (Gen.dat4 (F := Ideal) V c).arrAt 2 cfg4.N i
      = Cert.Spec.mulAt (M := 50000) (K := 128) (H := 64) (V c main_v69) (V c main_arg7) (i 0) (i 1) :=
  congrFun ((dat4 (F := Ideal) V c).arrAt_eq_of_cover 2 (prod4 V c) (fun t _ => written_block4 V c t) rows_covered4) i

end Cert.KernelIdeal.KMat

end
-- ==== Proof.KNorm.lean ====
/-
  The three bias + layer-normalisation + clamp regions of the network, read entry by entry.

  Each region works on a node array of 50000 rows in ten blocks of 5000 rows, with a bias row, a gain row and an offset
  row that every block sees whole.  On a block the body shifts every row by the bias, takes the row's mean (the sum along
  the row over the row's length), the deviations from it, the row's variance (the sum of the squared deviations over
  the row's length), multiplies the deviations by the reciprocal square root of the variance plus a small constant, then
  by the gain, adds the offset and clamps from below at zero.  Entry (p, c) of that result depends on row p of the block
  and on the three rows only, and row p of block t is row 5000 t + p of the array; so block t of the result is rows
  5000 t … 5000 t + 4999 of ONE function of the whole arrays, the normalised layer of the specification, and since the
  ten blocks cover every row (row r lies in block r / 5000) the array after the run is that function.

  First the layout operations of the body read at an index over arbitrary extents (a sum along a row, a vector viewed as
  a column, a column repeated along the rows), then the body's arithmetic as one term over arbitrary extents and its
  reading at (p, c), then the three regions, which differ in their arrays' names, the row length (128, 128, 64) and the
  word of the divisor only.
-/
import proofs.«174969_j8890582303024_1_alg».proof.Proof.Gen.KernelIdeal.Frame
import proofs.«174969_j8890582303024_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KNorm

open Cert.KernelIdeal Cert.KernelIdeal.Gen Idealize.ShloMosaic Idealize.ShloMosaic.TcCoe Idealize.ShloMosaic.ValueIdx Idealize.SL.Sem Cert.Spec

section Rows

variable {R H : Nat}

/-- A sum along the lanes of an [R, H] array, read at row p: the sum over k of the entries (p, k). -/
theorem laneSum_apply (v : FVec Ideal ⟨2, ![R, H]⟩ .f32) (h : Shape.Reduces ⟨2, ![R, H]⟩ [1] ⟨1, ![R]⟩)
    (hφ : FKind.Formats .f32) (hacc : (0x00000000#32 : BitVec 32) = FKind.add.neutral .f32 hφ) (p : Fin R) :
    multiReduction .add [1] ⟨1, ![R]⟩ v 0x00000000#32 h hφ hacc (ix1 p) = ∑ k : Fin H, v (ix2 p k) := by
  refine (Ideal.multiReduction_add_single v 0x00000000#32 h hφ hacc (ix1 p)).trans ?_
  show ∑ k : Fin H, v (h.lift (ix1 p) k) = _
  refine Finset.sum_congr rfl fun k _ => congrArg v ?_
  funext c
  apply Fin.ext
  match c with
  | ⟨0, _⟩ => rfl
  | ⟨1, _⟩ => rfl

/-- A length-R vector viewed as an [R, 1] column reads, at (p, u), the vector at p. -/
theorem colCast_apply {α : Type} (w : (⟨1, ![R]⟩ : Shape).Idx → α) (h : (⟨1, ![R]⟩ : Shape).ShapeCasts ⟨2, ![R, 1]⟩)
    (p : Fin R) (u : Fin 1) : shapeCast ⟨2, ![R, 1]⟩ w h (ix2 p u) = w (ix1 p) :=
  shapeCast_apply w h _ _ (by
    have hu : u.val = 0 := by omega
    rw [Shape.rowMajor_val_two, Shape.rowMajor_val_one]
    show p.val = p.val * 1 + u.val
    rw [hu, Nat.mul_one, Nat.add_zero])

/-- An [R, 1] column broadcast along the lanes to [R, H] reads, at (p, q), the column at row p. -/
theorem colBroadcast_apply {α : Type} (w : (⟨2, ![R, 1]⟩ : Shape).Idx → α) (h : (⟨2, ![R, 1]⟩ : Shape).Broadcasts ⟨2, ![R, H]⟩)
    (p : Fin R) (q : Fin H) : broadcastTo ⟨2, ![R, H]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

end Rows

section Body

variable {R H : Nat}

/-- A reciprocal square root at an index is the reciprocal square root of the element. -/
theorem rsqrt_apply {s : Shape} {φ : FTy} (a : FVec Ideal s φ) (i : s.Idx) : rsqrt a i = Ideal.rsqrt (a i) := rfl

/-- The body's arithmetic on an [R, H] block and three [1, H] rows, as one term over arbitrary extents: the block
    shifted by the bias row; each row's mean (its lane sum over n) kept as an [R, 1] column; the deviations; each row's
    variance (the lane sum of the squared deviations over n); the deviations times the reciprocal square root of the
    variance plus e, times the gain row, plus the offset row; clamped from below at z. -/
def lnBody (c0 : (⟨2, ![R, H]⟩ : Shape).ShapeCasts ⟨2, ![R, H]⟩) (c1 : (⟨2, ![1, H]⟩ : Shape).ShapeCasts ⟨2, ![1, H]⟩)
    (b1 : (⟨2, ![1, H]⟩ : Shape).Broadcasts ⟨2, ![R, H]⟩) (r : Shape.Reduces ⟨2, ![R, H]⟩ [1] ⟨1, ![R]⟩)
    (hφ : FKind.Formats .f32) (hacc : (0x00000000#32 : BitVec 32) = FKind.add.neutral .f32 hφ)
    (cc : (⟨1, ![R]⟩ : Shape).ShapeCasts ⟨2, ![R, 1]⟩) (bc : (⟨2, ![R, 1]⟩ : Shape).Broadcasts ⟨2, ![R, H]⟩)
    (n e z : BitVec 32)
    (v0 : FVec Ideal ⟨2, ![R, H]⟩ .f32) (v2 v22 v26 : FVec Ideal ⟨2, ![1, H]⟩ .f32) : FVec Ideal ⟨2, ![R, H]⟩ .f32 :=
  have v5 : FVec Ideal ⟨2, ![R, H]⟩ .f32 :=
    addf (shapeCast ⟨2, ![R, H]⟩ v0 c0) (broadcastTo ⟨2, ![R, H]⟩ (shapeCast ⟨2, ![1, H]⟩ v2 c1) b1)
  have v9 : FVec Ideal ⟨2, ![R, 1]⟩ .f32 :=
    divf (shapeCast ⟨2, ![R, 1]⟩ (multiReduction .add [1] ⟨1, ![R]⟩ v5 0x00000000#32 r hφ hacc) cc)
      (broadcast ⟨2, ![R, 1]⟩ (Scalar.ofBits .f32 n))
  have v11 : FVec Ideal ⟨2, ![R, H]⟩ .f32 := subf v5 (broadcastTo ⟨2, ![R, H]⟩ v9 bc)
  have v16 : FVec Ideal ⟨2, ![R, 1]⟩ .f32 :=
    divf (shapeCast ⟨2, ![R, 1]⟩ (multiReduction .add [1] ⟨1, ![R]⟩ (mulf v11 v11) 0x00000000#32 r hφ hacc) cc)
      (broadcast ⟨2, ![R, 1]⟩ (Scalar.ofBits .f32 n))
  have v19 : FVec Ideal ⟨2, ![R, 1]⟩ .f32 := rsqrt (addf v16 (broadcast ⟨2, ![R, 1]⟩ (Scalar.ofBits .f32 e)))
  have v21 : FVec Ideal ⟨2, ![R, H]⟩ .f32 := mulf v11 (broadcastTo ⟨2, ![R, H]⟩ v19 bc)
  have v25 : FVec Ideal ⟨2, ![R, H]⟩ .f32 :=
    mulf v21 (broadcastTo ⟨2, ![R, H]⟩ (shapeCast ⟨2, ![1, H]⟩ v22 c1) b1)
  have v29 : FVec Ideal ⟨2, ![R, H]⟩ .f32 :=
    addf v25 (broadcastTo ⟨2, ![R, H]⟩ (shapeCast ⟨2, ![1, H]⟩ v26 c1) b1)
  maximumf v29 (broadcast ⟨2, ![R, H]⟩ (Scalar.ofBits .f32 z))

/-- Entry (p, q) of the body's result is the normalised layer's entry (p, q) of the block and the three rows: it depends
    on row p of the block only. -/
theorem lnBody_apply (c0 : (⟨2, ![R, H]⟩ : Shape).ShapeCasts ⟨2, ![R, H]⟩) (c1 : (⟨2, ![1, H]⟩ : Shape).ShapeCasts ⟨2, ![1, H]⟩)
    (b1 : (⟨2, ![1, H]⟩ : Shape).Broadcasts ⟨2, ![R, H]⟩) (r : Shape.Reduces ⟨2, ![R, H]⟩ [1] ⟨1, ![R]⟩)
    (hφ : FKind.Formats .f32) (hacc : (0x00000000#32 : BitVec 32) = FKind.add.neutral .f32 hφ)
    (cc : (⟨1, ![R]⟩ : Shape).ShapeCasts ⟨2, ![R, 1]⟩) (bc : (⟨2, ![R, 1]⟩ : Shape).Broadcasts ⟨2, ![R, H]⟩)
    (n e z : BitVec 32)
    (v0 : FVec Ideal ⟨2, ![R, H]⟩ .f32) (v2 v22 v26 : FVec Ideal ⟨2, ![1, H]⟩ .f32) (p : Fin R) (q : Fin H) :
    lnBody c0 c1 b1 r hφ hacc cc bc n e z v0 v2 v22 v26 (ix2 p q)
      = lnReluAt (lit n) (lit e) (lit z) v0 (fun k => v2 (ix2 (0 : Fin 1) k)) (fun k => v22 (ix2 (0 : Fin 1) k))
          (fun k => v26 (ix2 (0 : Fin 1) k)) p q := by
  unfold lnBody lnReluAt varAt meanAt shiftAt
  simp only [maximumf_apply, addf_apply, mulf_apply, subf_apply, divf_apply, broadcast_apply, colBroadcast_apply,
    colCast_apply, shapeCast_self, broadcastTo_1b_ab_apply, rsqrt_apply]
  rw [laneSum_apply (mulf _ _)]
  simp only [addf_apply, mulf_apply, subf_apply, divf_apply, broadcast_apply, colBroadcast_apply, colCast_apply,
    broadcastTo_1b_ab_apply]
  rw [laneSum_apply]
  simp only [addf_apply, broadcastTo_1b_ab_apply]
  rfl

end Body

section Locality

variable {M M' H : Nat}

/-- Entry (p, c) of the normalised layer depends on row p of the array and on the three rows only: two arrays that agree
    along a row of each, with the same bias, gain and offset, give the same entry there. -/
theorem lnReluAt_rows (n e z : EReal) (S : (⟨2, ![M, H]⟩ : Shape).Idx → EReal) (S' : (⟨2, ![M', H]⟩ : Shape).Idx → EReal)
    (b g be b' g' be' : Fin H → EReal) (p : Fin M) (p' : Fin M') (c : Fin H)
    (hS : ∀ k : Fin H, S (ix2 p k) = S' (ix2 p' k)) (hb : ∀ k, b k = b' k) (hg : ∀ k, g k = g' k)
    (hbe : ∀ k, be k = be' k) :
    lnReluAt n e z S b g be p c = lnReluAt n e z S' b' g' be' p' c := by
  obtain rfl : b = b' := funext hb
  obtain rfl : g = g' := funext hg
  obtain rfl : be = be' := funext hbe
  unfold lnReluAt varAt meanAt shiftAt
  simp only [hS]

end Locality

/-- The zero offsets of a whole-block load or store, however they are spelt. -/
theorem zeroOffsets : (![0, 0] : Fin 2 → Nat) = fun _ => 0 := funext fun a => by fin_cases a <;> rfl

variable (V : (c : Dev nD) → (b : Ref sig .tc) → Buf (Elt Ideal) ((c : Thread nD τ).loc b))

/-! ## Region 1: rows 5000 t … 5000 t + 4999 of main_v47, normalised with the rows main_v48, main_v49, main_v50, into main_v51 -/

section Region1

/-- The whole array the region leaves in main_v51: entry (r, c) is the normalised layer's entry (r, c) of main_v47. -/
abbrev layer1 (c : Dev nD) : S50000x128.Idx → EReal := fun i =>
  lnReluAt (M := 50000) (H := 128) (lit 0x43000000#32) (lit 0x3727C5AC#32) (lit 0x00000000#32) (V c main_v47)
    (fun k => V c main_v48 (ix2 (0 : Fin 1) k)) (fun k => V c main_v49 (ix2 (0 : Fin 1) k))
    (fun k => V c main_v50 (ix2 (0 : Fin 1) k)) (i 0) (i 1)

/-- The body's result at (p, q) is the normalised layer's entry (p, q) of its block and its three rows. -/
theorem pay1_apply (x0 : Vec Ideal S5000x128 .f32) (x1 x2 x3 : Vec Ideal S1x128 .f32) (p : Fin 5000) (q : Fin 128) :
    k1_pay1 x0 x1 x2 x3 (ix2 p q)
      = lnReluAt (M := 5000) (H := 128) (lit 0x43000000#32) (lit 0x3727C5AC#32) (lit 0x00000000#32) x0
          (fun k => x1 (ix2 (0 : Fin 1) k)) (fun k => x2 (ix2 (0 : Fin 1) k)) (fun k => x3 (ix2 (0 : Fin 1) k)) p q :=
  lnBody_apply (R := 5000) (H := 128) shapeCasts_S5000x128_S5000x128 shapeCasts_S1x128_S1x128 broadcasts_S1x128_S5000x128
    reduces_S5000x128_S5000 (.inl rfl) rfl shapeCasts_S5000_S5000x1 broadcasts_S5000x1_S5000x128
    0x43000000#32 0x3727C5AC#32 0x00000000#32 x0 x1 x2 x3 p q

/-- The printed index maps, decided over the grid: at point t the row-blocked windows sit at block row t, column block 0;
    the three row windows at block (0, 0). -/
theorem indexFacts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Element (p, k) of the input block at point t is element (5000 t + p, k) of main_v47. -/
theorem rowBlock1_apply (c : Dev nD) (t : Fin cfg1.N) (p : Fin 5000) (k : Fin 128) (P : Fin 50000)
    (hP : P.val = 5000 * t.val + p.val) :
    (iblk1 V c 0 t : Vec Ideal S5000x128 .f32) (ix2 p k) = (V c main_v47 : S50000x128.Idx → EReal) (ix2 P k) := by
  obtain ⟨e0, e1, -⟩ := indexFacts1 t
  unfold iblk1
  show V c main_v47 (((cfg1.win 0).blk t).view.emb (ix2 p k)) = V c main_v47 (ix2 P k)
  congr 1
  funext a
  apply Fin.ext
  match a with
  | ⟨0, _⟩ => show win1_0.index t (0 : Fin 2) * 5000 + 1 * p.val = P.val; omega
  | ⟨1, _⟩ => show win1_0.index t (1 : Fin 2) * 128 + 1 * k.val = k.val; omega

/-- The block of main_v48 at any point is the whole row. -/
theorem wholeRow1_1_apply (c : Dev nD) (t : Fin cfg1.N) (k : Fin 128) :
    (iblk1 V c 1 t : Vec Ideal S1x128 .f32) (ix2 (0 : Fin 1) k) = (V c main_v48 : S1x128.Idx → EReal) (ix2 (0 : Fin 1) k) := by
  obtain ⟨-, -, e2, e3, -⟩ := indexFacts1 t
  unfold iblk1
  show V c main_v48 (((cfg1.win 1).blk t).view.emb (ix2 (0 : Fin 1) k)) = V c main_v48 (ix2 (0 : Fin 1) k)
  congr 1
  funext a
  apply Fin.ext
  match a with
  | ⟨0, _⟩ => show win1_1.index t (0 : Fin 2) * 1 + 1 * 0 = 0; omega
  | ⟨1, _⟩ => show win1_1.index t (1 : Fin 2) * 128 + 1 * k.val = k.val; omega

/-- The block of main_v49 at any point is the whole row. -/
theorem wholeRow1_2_apply (c : Dev nD) (t : Fin cfg1.N) (k : Fin 128) :
    (iblk1 V c 2 t : Vec Ideal S1x128 .f32) (ix2 (0 : Fin 1) k) = (V c main_v49 : S1x128.Idx → EReal) (ix2 (0 : Fin 1) k) := by
  obtain ⟨-, -, -, -, e4, e5, -⟩ := indexFacts1 t
  unfold iblk1
  show V c main_v49 (((cfg1.win 2).blk t).view.emb (ix2 (0 : Fin 1) k)) = V c main_v49 (ix2 (0 : Fin 1) k)
  congr 1
  funext a
  apply Fin.ext
  match a with
  | ⟨0, _⟩ => show win1_2.index t (0 : Fin 2) * 1 + 1 * 0 = 0; omega
  | ⟨1, _⟩ => show win1_2.index t (1 : Fin 2) * 128 + 1 * k.val = k.val; omega

/-- The block of main_v50 at any point is the whole row. -/
theorem wholeRow1_3_apply (c : Dev nD) (t : Fin cfg1.N) (k : Fin 128) :
    (iblk1 V c 3 t : Vec Ideal S1x128 .f32) (ix2 (0 : Fin 1) k) = (V c main_v50 : S1x128.Idx → EReal) (ix2 (0 : Fin 1) k) := by
  obtain ⟨-, -, -, -, -, -, e6, e7, -⟩ := indexFacts1 t
  unfold iblk1
  show V c main_v50 (((cfg1.win 3).blk t).view.emb (ix2 (0 : Fin 1) k)) = V c main_v50 (ix2 (0 : Fin 1) k)
  congr 1
  funext a
  apply Fin.ext
  match a with
  | ⟨0, _⟩ => show win1_3.index t (0 : Fin 2) * 1 + 1 * 0 = 0; omega
  | ⟨1, _⟩ => show win1_3.index t (1 : Fin 2) * 128 + 1 * k.val = k.val; omega

/-- What point t writes back is block t of the whole normalised array: rows 5000 t … 5000 t + 4999 of it. -/
theorem flushed1_eq (c : Dev nD) (t : Fin cfg1.N) :
    (dat1 V c).flushed 4 t = ((cfg1.win 4).blk t).view.read (Elt Ideal) (layer1 V c) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S1x128) zeroOffsets]
  have hN : grid1.N = 10 := N_1
  have ht : t.val < grid1.N := t.isLt
  obtain ⟨-, -, -, -, -, -, -, -, e8, e9⟩ := indexFacts1 t
  funext j
  obtain ⟨p, q, rfl⟩ : ∃ (p : Fin 5000) (q : Fin 128), j = ix2 p q := ⟨j 0, j 1, eq_ix2 j⟩
  refine (pay1_apply (iblk1 V c 0 t) (iblk1 V c 1 t) (iblk1 V c 2 t) (iblk1 V c 3 t) p q).trans ?_
  have hemb : ((cfg1.win 4).blk t).view.emb (ix2 p q) = ix2 (⟨5000 * t.val + p.val, by omega⟩ : Fin 50000) q := by
    funext a
    apply Fin.ext
    match a with
    | ⟨0, _⟩ => show win1_4.index t (0 : Fin 2) * 5000 + 1 * p.val = 5000 * t.val + p.val; omega
    | ⟨1, _⟩ => show win1_4.index t (1 : Fin 2) * 128 + 1 * q.val = q.val; omega
  show _ = layer1 V c (((cfg1.win 4).blk t).view.emb (ix2 p q))
  rw [hemb]
  exact lnReluAt_rows _ _ _ _ _ _ _ _ _ _ _ p _ q (fun k => rowBlock1_apply V c t p k _ rfl)
    (fun k => wholeRow1_1_apply V c t k) (fun k => wholeRow1_2_apply V c t k) (fun k => wholeRow1_3_apply V c t k)

/-- An index of main_v51 is in point t's block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v51).slice (win1_4.rect t)).set ↔ _
  rw [View.set_slice_whole, Rect.mem_set_unit]
  exact Iff.rfl

/-- Every index of main_v51 lies in the block of the point its row falls in: row r in block r / 5000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  have hlt : (i 0).val / 5000 < grid1.N := by omega
  obtain ⟨-, -, -, -, -, -, -, -, e8, e9⟩ := indexFacts1 ⟨(i 0).val / 5000, hlt⟩
  have e8' : win1_4.index ⟨(i 0).val / 5000, hlt⟩ (0 : Fin 2) = (i 0).val / 5000 := e8
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    omega

/-- After the run main_v51 holds the normalised layer of main_v47, entry by entry. -/
theorem final1 (c : Dev nD) (i : S50000x128.Idx) :
    (Gen.dat1 (F := Ideal) V c).arrAt 4 cfg1.N i
      = Cert.Spec.lnReluAt (M := 50000) (H := 128) (lit 0x43000000#32) (lit 0x3727C5AC#32) (lit 0x00000000#32) (V c main_v47)
          (fun k => V c main_v48 (ix2 (0 : Fin 1) k)) (fun k => V c main_v49 (ix2 (0 : Fin 1) k))
          (fun k => V c main_v50 (ix2 (0 : Fin 1) k)) (i 0) (i 1) :=
  congrFun ((dat1 V c).arrAt_eq_of_cover 4 (layer1 V c) (fun t _ => flushed1_eq V c t) (cover1)) i

end Region1

/-! ## Region 3: rows 5000 t … 5000 t + 4999 of main_v65, normalised with the rows main_v66, main_v67, main_v68, into main_v69 -/

section Region3

/-- The whole array the region leaves in main_v69: entry (r, c) is the normalised layer's entry (r, c) of main_v65. -/
abbrev layer3 (c : Dev nD) : S50000x128.Idx → EReal := fun i =>
  lnReluAt (M := 50000) (H := 128) (lit 0x43000000#32) (lit 0x3727C5AC#32) (lit 0x00000000#32) (V c main_v65)
    (fun k => V c main_v66 (ix2 (0 : Fin 1) k)) (fun k => V c main_v67 (ix2 (0 : Fin 1) k))
    (fun k => V c main_v68 (ix2 (0 : Fin 1) k)) (i 0) (i 1)

/-- The body's result at (p, q) is the normalised layer's entry (p, q) of its block and its three rows. -/
theorem pay3_apply (x0 : Vec Ideal S5000x128 .f32) (x1 x2 x3 : Vec Ideal S1x128 .f32) (p : Fin 5000) (q : Fin 128) :
    k3_pay1 x0 x1 x2 x3 (ix2 p q)
      = lnReluAt (M := 5000) (H := 128) (lit 0x43000000#32) (lit 0x3727C5AC#32) (lit 0x00000000#32) x0
          (fun k => x1 (ix2 (0 : Fin 1) k)) (fun k => x2 (ix2 (0 : Fin 1) k)) (fun k => x3 (ix2 (0 : Fin 1) k)) p q :=
  lnBody_apply (R := 5000) (H := 128) shapeCasts_S5000x128_S5000x128 shapeCasts_S1x128_S1x128 broadcasts_S1x128_S5000x128
    reduces_S5000x128_S5000 (.inl rfl) rfl shapeCasts_S5000_S5000x1 broadcasts_S5000x1_S5000x128
    0x43000000#32 0x3727C5AC#32 0x00000000#32 x0 x1 x2 x3 p q

/-- The printed index maps, decided over the grid: at point t the row-blocked windows sit at block row t, column block 0;
    the three row windows at block (0, 0). -/
theorem indexFacts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Element (p, k) of the input block at point t is element (5000 t + p, k) of main_v65. -/
theorem rowBlock3_apply (c : Dev nD) (t : Fin cfg3.N) (p : Fin 5000) (k : Fin 128) (P : Fin 50000)
    (hP : P.val = 5000 * t.val + p.val) :
    (iblk3 V c 0 t : Vec Ideal S5000x128 .f32) (ix2 p k) = (V c main_v65 : S50000x128.Idx → EReal) (ix2 P k) := by
  obtain ⟨e0, e1, -⟩ := indexFacts3 t
  unfold iblk3
  show V c main_v65 (((cfg3.win 0).blk t).view.emb (ix2 p k)) = V c main_v65 (ix2 P k)
  congr 1
  funext a
  apply Fin.ext
  match a with
  | ⟨0, _⟩ => show win3_0.index t (0 : Fin 2) * 5000 + 1 * p.val = P.val; omega
  | ⟨1, _⟩ => show win3_0.index t (1 : Fin 2) * 128 + 1 * k.val = k.val; omega

/-- The block of main_v66 at any point is the whole row. -/
theorem wholeRow3_1_apply (c : Dev nD) (t : Fin cfg3.N) (k : Fin 128) :
    (iblk3 V c 1 t : Vec Ideal S1x128 .f32) (ix2 (0 : Fin 1) k) = (V c main_v66 : S1x128.Idx → EReal) (ix2 (0 : Fin 1) k) := by
  obtain ⟨-, -, e2, e3, -⟩ := indexFacts3 t
  unfold iblk3
  show V c main_v66 (((cfg3.win 1).blk t).view.emb (ix2 (0 : Fin 1) k)) = V c main_v66 (ix2 (0 : Fin 1) k)
  congr 1
  funext a
  apply Fin.ext
  match a with
  | ⟨0, _⟩ => show win3_1.index t (0 : Fin 2) * 1 + 1 * 0 = 0; omega
  | ⟨1, _⟩ => show win3_1.index t (1 : Fin 2) * 128 + 1 * k.val = k.val; omega

/-- The block of main_v67 at any point is the whole row. -/
theorem wholeRow3_2_apply (c : Dev nD) (t : Fin cfg3.N) (k : Fin 128) :
    (iblk3 V c 2 t : Vec Ideal S1x128 .f32) (ix2 (0 : Fin 1) k) = (V c main_v67 : S1x128.Idx → EReal) (ix2 (0 : Fin 1) k) := by
  obtain ⟨-, -, -, -, e4, e5, -⟩ := indexFacts3 t
  unfold iblk3
  show V c main_v67 (((cfg3.win 2).blk t).view.emb (ix2 (0 : Fin 1) k)) = V c main_v67 (ix2 (0 : Fin 1) k)
  congr 1
  funext a
  apply Fin.ext
  match a with
  | ⟨0, _⟩ => show win3_2.index t (0 : Fin 2) * 1 + 1 * 0 = 0; omega
  | ⟨1, _⟩ => show win3_2.index t (1 : Fin 2) * 128 + 1 * k.val = k.val; omega

/-- The block of main_v68 at any point is the whole row. -/
theorem wholeRow3_3_apply (c : Dev nD) (t : Fin cfg3.N) (k : Fin 128) :
    (iblk3 V c 3 t : Vec Ideal S1x128 .f32) (ix2 (0 : Fin 1) k) = (V c main_v68 : S1x128.Idx → EReal) (ix2 (0 : Fin 1) k) := by
  obtain ⟨-, -, -, -, -, -, e6, e7, -⟩ := indexFacts3 t
  unfold iblk3
  show V c main_v68 (((cfg3.win 3).blk t).view.emb (ix2 (0 : Fin 1) k)) = V c main_v68 (ix2 (0 : Fin 1) k)
  congr 1
  funext a
  apply Fin.ext
  match a with
  | ⟨0, _⟩ => show win3_3.index t (0 : Fin 2) * 1 + 1 * 0 = 0; omega
  | ⟨1, _⟩ => show win3_3.index t (1 : Fin 2) * 128 + 1 * k.val = k.val; omega

/-- What point t writes back is block t of the whole normalised array: rows 5000 t … 5000 t + 4999 of it. -/
theorem flushed3_eq (c : Dev nD) (t : Fin cfg3.N) :
    (dat3 V c).flushed 4 t = ((cfg3.win 4).blk t).view.read (Elt Ideal) (layer3 V c) := by
  show (cfg3.win 4).cut (grid3.coords t) ((dat3 V c).after 4 t) = _
  rw [after3_4]
  unfold out3_4
  rw [View.canon_unit_zero zeroOffsets]
  simp only [View.ld_unit_zero (S := S5000x128) zeroOffsets, View.ld_unit_zero (S := S1x128) zeroOffsets]
  have hN : grid3.N = 10 := N_3
  have ht : t.val < grid3.N := t.isLt
  obtain ⟨-, -, -, -, -, -, -, -, e8, e9⟩ := indexFacts3 t
  funext j
  obtain ⟨p, q, rfl⟩ : ∃ (p : Fin 5000) (q : Fin 128), j = ix2 p q := ⟨j 0, j 1, eq_ix2 j⟩
  refine (pay3_apply (iblk3 V c 0 t) (iblk3 V c 1 t) (iblk3 V c 2 t) (iblk3 V c 3 t) p q).trans ?_
  have hemb : ((cfg3.win 4).blk t).view.emb (ix2 p q) = ix2 (⟨5000 * t.val + p.val, by omega⟩ : Fin 50000) q := by
    funext a
    apply Fin.ext
    match a with
    | ⟨0, _⟩ => show win3_4.index t (0 : Fin 2) * 5000 + 1 * p.val = 5000 * t.val + p.val; omega
    | ⟨1, _⟩ => show win3_4.index t (1 : Fin 2) * 128 + 1 * q.val = q.val; omega
  show _ = layer3 V c (((cfg3.win 4).blk t).view.emb (ix2 p q))
  rw [hemb]
  exact lnReluAt_rows _ _ _ _ _ _ _ _ _ _ _ p _ q (fun k => rowBlock3_apply V c t p k _ rfl)
    (fun k => wholeRow3_1_apply V c t k) (fun k => wholeRow3_2_apply V c t k) (fun k => wholeRow3_3_apply V c t k)

/-- An index of main_v69 is in point t's block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v69).slice (win3_4.rect t)).set ↔ _
  rw [View.set_slice_whole, Rect.mem_set_unit]
  exact Iff.rfl

/-- Every index of main_v69 lies in the block of the point its row falls in: row r in block r / 5000. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : grid3.N = 10 := N_3
  have hlt : (i 0).val / 5000 < grid3.N := by omega
  obtain ⟨-, -, -, -, -, -, -, -, e8, e9⟩ := indexFacts3 ⟨(i 0).val / 5000, hlt⟩
  have e8' : win3_4.index ⟨(i 0).val / 5000, hlt⟩ (0 : Fin 2) = (i 0).val / 5000 := e8
  refine ⟨⟨(i 0).val / 5000, hlt⟩, flush3_4 _, ?_⟩
  rw [mem_blk3]
  intro a
  match a with
  | ⟨0, _⟩ =>
    show win3_4.index ⟨(i 0).val / 5000, hlt⟩ (0 : Fin 2) * 5000 ≤ (i 0).val
      ∧ (i 0).val < win3_4.index ⟨(i 0).val / 5000, hlt⟩ (0 : Fin 2) * 5000 + 5000
    omega
  | ⟨1, _⟩ =>
    show win3_4.index ⟨(i 0).val / 5000, hlt⟩ (1 : Fin 2) * 128 ≤ (i 1).val
      ∧ (i 1).val < win3_4.index ⟨(i 0).val / 5000, hlt⟩ (1 : Fin 2) * 128 + 128
    omega

/-- After the run main_v69 holds the normalised layer of main_v65, entry by entry. -/
theorem final3 (c : Dev nD) (i : S50000x128.Idx) :
    (Gen.dat3 (F := Ideal) V c).arrAt 4 cfg3.N i
      = Cert.Spec.lnReluAt (M := 50000) (H := 128) (lit 0x43000000#32) (lit 0x3727C5AC#32) (lit 0x00000000#32) (V c main_v65)
          (fun k => V c main_v66 (ix2 (0 : Fin 1) k)) (fun k => V c main_v67 (ix2 (0 : Fin 1) k))
          (fun k => V c main_v68 (ix2 (0 : Fin 1) k)) (i 0) (i 1) :=
  congrFun ((dat3 V c).arrAt_eq_of_cover 4 (layer3 V c) (fun t _ => flushed3_eq V c t) (cover3)) i

end Region3

/-! ## Region 5: rows 5000 t … 5000 t + 4999 of main_v83, normalised with the rows main_v84, main_v85, main_v86, into main_v87 -/

section Region5

/-- The whole array the region leaves in main_v87: entry (r, c) is the normalised layer's entry (r, c) of main_v83. -/
abbrev layer5 (c : Dev nD) : S50000x64.Idx → EReal := fun i =>
  lnReluAt (M := 50000) (H := 64) (lit 0x42800000#32) (lit 0x3727C5AC#32) (lit 0x00000000#32) (V c main_v83)
    (fun k => V c main_v84 (ix2 (0 : Fin 1) k)) (fun k => V c main_v85 (ix2 (0 : Fin 1) k))
    (fun k => V c main_v86 (ix2 (0 : Fin 1) k)) (i 0) (i 1)

/-- The body's result at (p, q) is the normalised layer's entry (p, q) of its block and its three rows. -/
theorem pay5_apply (x0 : Vec Ideal S5000x64 .f32) (x1 x2 x3 : Vec Ideal S1x64 .f32) (p : Fin 5000) (q : Fin 64) :
    k5_pay1 x0 x1 x2 x3 (ix2 p q)
      = lnReluAt (M := 5000) (H := 64) (lit 0x42800000#32) (lit 0x3727C5AC#32) (lit 0x00000000#32) x0
          (fun k => x1 (ix2 (0 : Fin 1) k)) (fun k => x2 (ix2 (0 : Fin 1) k)) (fun k => x3 (ix2 (0 : Fin 1) k)) p q :=
  lnBody_apply (R := 5000) (H := 64) shapeCasts_S5000x64_S5000x64 shapeCasts_S1x64_S1x64 broadcasts_S1x64_S5000x64
    reduces_S5000x64_S5000 (.inl rfl) rfl shapeCasts_S5000_S5000x1 broadcasts_S5000x1_S5000x64
    0x42800000#32 0x3727C5AC#32 0x00000000#32 x0 x1 x2 x3 p q

/-- The printed index maps, decided over the grid: at point t the row-blocked windows sit at block row t, column block 0;
    the three row windows at block (0, 0). -/
theorem indexFacts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Element (p, k) of the input block at point t is element (5000 t + p, k) of main_v83. -/
theorem rowBlock5_apply (c : Dev nD) (t : Fin cfg5.N) (p : Fin 5000) (k : Fin 64) (P : Fin 50000)
    (hP : P.val = 5000 * t.val + p.val) :
    (iblk5 V c 0 t : Vec Ideal S5000x64 .f32) (ix2 p k) = (V c main_v83 : S50000x64.Idx → EReal) (ix2 P k) := by
  obtain ⟨e0, e1, -⟩ := indexFacts5 t
  unfold iblk5
  show V c main_v83 (((cfg5.win 0).blk t).view.emb (ix2 p k)) = V c main_v83 (ix2 P k)
  congr 1
  funext a
  apply Fin.ext
  match a with
  | ⟨0, _⟩ => show win5_0.index t (0 : Fin 2) * 5000 + 1 * p.val = P.val; omega
  | ⟨1, _⟩ => show win5_0.index t (1 : Fin 2) * 64 + 1 * k.val = k.val; omega

/-- The block of main_v84 at any point is the whole row. -/
theorem wholeRow5_1_apply (c : Dev nD) (t : Fin cfg5.N) (k : Fin 64) :
    (iblk5 V c 1 t : Vec Ideal S1x64 .f32) (ix2 (0 : Fin 1) k) = (V c main_v84 : S1x64.Idx → EReal) (ix2 (0 : Fin 1) k) := by
  obtain ⟨-, -, e2, e3, -⟩ := indexFacts5 t
  unfold iblk5
  show V c main_v84 (((cfg5.win 1).blk t).view.emb (ix2 (0 : Fin 1) k)) = V c main_v84 (ix2 (0 : Fin 1) k)
  congr 1
  funext a
  apply Fin.ext
  match a with
  | ⟨0, _⟩ => show win5_1.index t (0 : Fin 2) * 1 + 1 * 0 = 0; omega
  | ⟨1, _⟩ => show win5_1.index t (1 : Fin 2) * 64 + 1 * k.val = k.val; omega

/-- The block of main_v85 at any point is the whole row. -/
theorem wholeRow5_2_apply (c : Dev nD) (t : Fin cfg5.N) (k : Fin 64) :
    (iblk5 V c 2 t : Vec Ideal S1x64 .f32) (ix2 (0 : Fin 1) k) = (V c main_v85 : S1x64.Idx → EReal) (ix2 (0 : Fin 1) k) := by
  obtain ⟨-, -, -, -, e4, e5, -⟩ := indexFacts5 t
  unfold iblk5
  show V c main_v85 (((cfg5.win 2).blk t).view.emb (ix2 (0 : Fin 1) k)) = V c main_v85 (ix2 (0 : Fin 1) k)
  congr 1
  funext a
  apply Fin.ext
  match a with
  | ⟨0, _⟩ => show win5_2.index t (0 : Fin 2) * 1 + 1 * 0 = 0; omega
  | ⟨1, _⟩ => show win5_2.index t (1 : Fin 2) * 64 + 1 * k.val = k.val; omega

/-- The block of main_v86 at any point is the whole row. -/
theorem wholeRow5_3_apply (c : Dev nD) (t : Fin cfg5.N) (k : Fin 64) :
    (iblk5 V c 3 t : Vec Ideal S1x64 .f32) (ix2 (0 : Fin 1) k) = (V c main_v86 : S1x64.Idx → EReal) (ix2 (0 : Fin 1) k) := by
  obtain ⟨-, -, -, -, -, -, e6, e7, -⟩ := indexFacts5 t
  unfold iblk5
  show V c main_v86 (((cfg5.win 3).blk t).view.emb (ix2 (0 : Fin 1) k)) = V c main_v86 (ix2 (0 : Fin 1) k)
  congr 1
  funext a
  apply Fin.ext
  match a with
  | ⟨0, _⟩ => show win5_3.index t (0 : Fin 2) * 1 + 1 * 0 = 0; omega
  | ⟨1, _⟩ => show win5_3.index t (1 : Fin 2) * 64 + 1 * k.val = k.val; omega

/-- What point t writes back is block t of the whole normalised array: rows 5000 t … 5000 t + 4999 of it. -/
theorem flushed5_eq (c : Dev nD) (t : Fin cfg5.N) :
    (dat5 V c).flushed 4 t = ((cfg5.win 4).blk t).view.read (Elt Ideal) (layer5 V c) := by
  show (cfg5.win 4).cut (grid5.coords t) ((dat5 V c).after 4 t) = _
  rw [after5_4]
  unfold out5_4
  rw [View.canon_unit_zero zeroOffsets]
  simp only [View.ld_unit_zero (S := S5000x64) zeroOffsets, View.ld_unit_zero (S := S1x64) zeroOffsets]
  have hN : grid5.N = 10 := N_5
  have ht : t.val < grid5.N := t.isLt
  obtain ⟨-, -, -, -, -, -, -, -, e8, e9⟩ := indexFacts5 t
  funext j
  obtain ⟨p, q, rfl⟩ : ∃ (p : Fin 5000) (q : Fin 64), j = ix2 p q := ⟨j 0, j 1, eq_ix2 j⟩
  refine (pay5_apply (iblk5 V c 0 t) (iblk5 V c 1 t) (iblk5 V c 2 t) (iblk5 V c 3 t) p q).trans ?_
  have hemb : ((cfg5.win 4).blk t).view.emb (ix2 p q) = ix2 (⟨5000 * t.val + p.val, by omega⟩ : Fin 50000) q := by
    funext a
    apply Fin.ext
    match a with
    | ⟨0, _⟩ => show win5_4.index t (0 : Fin 2) * 5000 + 1 * p.val = 5000 * t.val + p.val; omega
    | ⟨1, _⟩ => show win5_4.index t (1 : Fin 2) * 64 + 1 * q.val = q.val; omega
  show _ = layer5 V c (((cfg5.win 4).blk t).view.emb (ix2 p q))
  rw [hemb]
  exact lnReluAt_rows _ _ _ _ _ _ _ _ _ _ _ p _ q (fun k => rowBlock5_apply V c t p k _ rfl)
    (fun k => wholeRow5_1_apply V c t k) (fun k => wholeRow5_2_apply V c t k) (fun k => wholeRow5_3_apply V c t k)

/-- An index of main_v87 is in point t's block iff each coordinate is in the block's range on its axis. -/
theorem mem_blk5 (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v87).slice (win5_4.rect t)).set ↔ _
  rw [View.set_slice_whole, Rect.mem_set_unit]
  exact Iff.rfl

/-- Every index of main_v87 lies in the block of the point its row falls in: row r in block r / 5000. -/
theorem cover5 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : grid5.N = 10 := N_5
  have hlt : (i 0).val / 5000 < grid5.N := by omega
  obtain ⟨-, -, -, -, -, -, -, -, e8, e9⟩ := indexFacts5 ⟨(i 0).val / 5000, hlt⟩
  have e8' : win5_4.index ⟨(i 0).val / 5000, hlt⟩ (0 : Fin 2) = (i 0).val / 5000 := e8
  refine ⟨⟨(i 0).val / 5000, hlt⟩, flush5_4 _, ?_⟩
  rw [mem_blk5]
  intro a
  match a with
  | ⟨0, _⟩ =>
    show win5_4.index ⟨(i 0).val / 5000, hlt⟩ (0 : Fin 2) * 5000 ≤ (i 0).val
      ∧ (i 0).val < win5_4.index ⟨(i 0).val / 5000, hlt⟩ (0 : Fin 2) * 5000 + 5000
    omega
  | ⟨1, _⟩ =>
    show win5_4.index ⟨(i 0).val / 5000, hlt⟩ (1 : Fin 2) * 64 ≤ (i 1).val
      ∧ (i 1).val < win5_4.index ⟨(i 0).val / 5000, hlt⟩ (1 : Fin 2) * 64 + 64
    omega

/-- After the run main_v87 holds the normalised layer of main_v83, entry by entry. -/
theorem final5 (c : Dev nD) (i : S50000x64.Idx) :
    (Gen.dat5 (F := Ideal) V c).arrAt 4 cfg5.N i
      = Cert.Spec.lnReluAt (M := 50000) (H := 64) (lit 0x42800000#32) (lit 0x3727C5AC#32) (lit 0x00000000#32) (V c main_v83)
          (fun k => V c main_v84 (ix2 (0 : Fin 1) k)) (fun k => V c main_v85 (ix2 (0 : Fin 1) k))
          (fun k => V c main_v86 (ix2 (0 : Fin 1) k)) (i 0) (i 1) :=
  congrFun ((dat5 V c).arrAt_eq_of_cover 4 (layer5 V c) (fun t _ => flushed5_eq V c t) (cover5)) i

end Region5

end Cert.KernelIdeal.KNorm

end
-- ==== Proof.KAdv.lean ====
/-
  The advantage head's blockwise program, read as one function of the arrays it finds.

  Grid point t works on rows 5000 t ... 5000 t + 4999 of the node array: it multiplies the rows by a [64, 64] weight,
  adds a bias row to every row, clamps from below at zero, multiplies by a [64, 1] column and adds a last bias.
  Entry (p, 0) of the block's result depends on row p of the block only, so the ten blocks written back are the ten
  row ranges of one function of the whole arrays, and together they fill the [50000, 1] result.
-/
import proofs.«174969_j8890582303024_1_alg».proof.Proof.Gen.KernelIdeal.Frame
import proofs.«174969_j8890582303024_1_alg».proof.Proof.Spec
import proofs.«174969_j8890582303024_1_alg».proof.Proof.LibMatRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KAdv

open Cert.KernelIdeal Cert.KernelIdeal.Gen Idealize.ShloMosaic Idealize.ShloMosaic.TcCoe Idealize.ShloMosaic.ValueIdx Idealize.SL.Sem Cert.Spec

variable (V : (c : Dev nD) → (b : Ref sig .tc) → Buf (Elt Ideal) ((c : Thread nD τ).loc b))

/-- The zero offsets of a whole-block rectangle, however spelt. -/
theorem zero_offsets : (![0, 0] : Fin 2 → Nat) = fun _ => 0 := funext fun a => by fin_cases a <;> rfl

/-- The advantage of a node depends on the node's own row only: two arrays that agree on a row, whatever their
    numbers of rows, give the same advantage there. -/
theorem advAt_row {M M' K H : Nat} (z : EReal) (A : (⟨2, ![M, K]⟩ : Shape).Idx → EReal) (A' : (⟨2, ![M', K]⟩ : Shape).Idx → EReal)
    (W1 : (⟨2, ![K, H]⟩ : Shape).Idx → EReal) (b1 : Fin H → EReal) (W2 : (⟨2, ![H, 1]⟩ : Shape).Idx → EReal) (b2 : EReal)
    (p : Fin M) (p' : Fin M') (h : ∀ k : Fin K, A (ix2 p k) = A' (ix2 p' k)) :
    advAt z A W1 b1 W2 b2 p = advAt z A' W1 b1 W2 b2 p' := by
  unfold advAt mulAt
  simp only [h]

/-- The block's product with the [64, 64] weight into the zero array, at entry (p, k). -/
theorem hidden_dot_at (l : FVec Ideal S5000x64 .bf16) (r : FVec Ideal S64x64 .bf16) (p : Fin 5000) (k : Fin 64) :
    matmul dot_S5000x64_S64x64_S5000x64_1_0_0_1_n_n none l r (constant (F := Ideal) S5000x64 .f32 0x00000000#32) (ix2 p k)
      = ∑ j : Fin 64, l (ix2 p j) * r (ix2 j k) :=
  MatRows.matmul_plain_apply none l r p k

/-- The hidden block's product with the [64, 1] column into the zero array, at entry (p, q). -/
theorem out_dot_at (l : FVec Ideal S5000x64 .bf16) (r : FVec Ideal S64x1 .bf16) (p : Fin 5000) (q : Fin 1) :
    matmul dot_S5000x64_S64x1_S5000x1_1_0_0_1_n_n none l r (constant (F := Ideal) S5000x1 .f32 0x00000000#32) (ix2 p q)
      = ∑ k : Fin 64, l (ix2 p k) * r (ix2 k q) :=
  MatRows.matmul_plain_apply none l r p q

/-- The body's result at row p of its block: the advantage of that row, from the five blocks the body loads. -/
theorem pay_at (x0 : Vec Ideal S5000x64 .f32) (x1 : Vec Ideal S64x64 .f32) (x2 : Vec Ideal S1x64 .f32)
    (x3 : Vec Ideal S64x1 .f32) (x4 : Vec Ideal S1x1 .f32) (p : Fin 5000) :
    k6_pay1 (F := Ideal) x0 x1 x2 x3 x4 (ix2 p (0 : Fin 1))
      = advAt (M := 5000) (K := 64) (H := 64) (lit 0x00000000#32) x0 x1 (fun k => x2 (ix2 (0 : Fin 1) k)) x3
          (x4 (ix2 (0 : Fin 1) (0 : Fin 1))) p := by
  unfold k6_pay1
  simp only [shapeCast_self]
  refine (congrArg₂ (· + ·) (out_dot_at _ _ p 0) (broadcastTo_1b_ab_apply _ _ p 0)).trans ?_
  unfold advAt mulAt
  refine congrArg₂ (· + ·) (Finset.sum_congr rfl fun k _ => ?_) rfl
  refine congrArg₂ (· * ·) ?_ rfl
  exact congrArg₂ max (congrArg₂ (· + ·) (hidden_dot_at _ _ p k) (broadcastTo_1b_ab_apply _ _ p k)) rfl

/-- The windows' block indices over the grid: the node rows' window and the result's window are at block t on the row
    axis, every other window stays at its one block. -/
theorem index_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Element (p, k) of the node rows' block at point t is element (5000 t + p, k) of the node array. -/
theorem rows_block_at (c : Dev nD) (t : Fin cfg6.N) (p : Fin 5000) (k : Fin 64) (r : Fin 50000)
    (hr : r.val = 5000 * t.val + p.val) :
    (iblk6 (F := Ideal) V c 0 t : Vec Ideal S5000x64 .f32) (ix2 p k) = (V c main_v87 : S50000x64.Idx → EReal) (ix2 r k) := by
  obtain ⟨e00, e01, -⟩ := index_facts t
  unfold iblk6
  rw [View.read_apply]
  show V c main_v87 _ = V c main_v87 _
  congr 1
  funext a
  apply Fin.ext
  match a with
  | ⟨0, _⟩ => show win6_0.index t (0 : Fin 2) * 5000 + 1 * p.val = r.val; rw [e00, hr]; omega
  | ⟨1, _⟩ => show win6_0.index t (1 : Fin 2) * 64 + 1 * k.val = k.val; rw [e01]; omega

/-- The [64, 64] weight's block at every point is the whole weight. -/
theorem w1_block (c : Dev nD) (t : Fin cfg6.N) :
    (iblk6 (F := Ideal) V c 1 t : Vec Ideal S64x64 .f32) = (V c main_arg19 : S64x64.Idx → EReal) := by
  obtain ⟨-, -, e0, e1, -⟩ := index_facts t
  funext j
  unfold iblk6
  rw [View.read_apply]
  show V c main_arg19 _ = V c main_arg19 j
  congr 1
  funext a
  apply Fin.ext
  match a with
  | ⟨0, _⟩ => show win6_1.index t (0 : Fin 2) * 64 + 1 * (j 0).val = (j 0).val; rw [e0]; omega
  | ⟨1, _⟩ => show win6_1.index t (1 : Fin 2) * 64 + 1 * (j 1).val = (j 1).val; rw [e1]; omega

/-- The first bias row's block at every point is the whole row. -/
theorem b1_block (c : Dev nD) (t : Fin cfg6.N) :
    (iblk6 (F := Ideal) V c 2 t : Vec Ideal S1x64 .f32) = (V c main_v88 : S1x64.Idx → EReal) := by
  obtain ⟨-, -, -, -, e0, e1, -⟩ := index_facts t
  funext j
  unfold iblk6
  rw [View.read_apply]
  show V c main_v88 _ = V c main_v88 j
  congr 1
  funext a
  apply Fin.ext
  match a with
  | ⟨0, _⟩ => show win6_2.index t (0 : Fin 2) * 1 + 1 * (j 0).val = (j 0).val; rw [e0]; omega
  | ⟨1, _⟩ => show win6_2.index t (1 : Fin 2) * 64 + 1 * (j 1).val = (j 1).val; rw [e1]; omega

/-- The [64, 1] column's block at every point is the whole column. -/
theorem w2_block (c : Dev nD) (t : Fin cfg6.N) :
    (iblk6 (F := Ideal) V c 3 t : Vec Ideal S64x1 .f32) = (V c main_arg21 : S64x1.Idx → EReal) := by
  obtain ⟨-, -, -, -, -, -, e0, e1, -⟩ := index_facts t
  funext j
  unfold iblk6
  rw [View.read_apply]
  show V c main_arg21 _ = V c main_arg21 j
  congr 1
  funext a
  apply Fin.ext
  match a with
  | ⟨0, _⟩ => show win6_3.index t (0 : Fin 2) * 64 + 1 * (j 0).val = (j 0).val; rw [e0]; omega
  | ⟨1, _⟩ => show win6_3.index t (1 : Fin 2) * 1 + 1 * (j 1).val = (j 1).val; rw [e1]; omega

/-- The last bias's block at every point is the whole [1, 1] array. -/
theorem b2_block (c : Dev nD) (t : Fin cfg6.N) :
    (iblk6 (F := Ideal) V c 4 t : Vec Ideal S1x1 .f32) = (V c main_v89 : S1x1.Idx → EReal) := by
  obtain ⟨-, -, -, -, -, -, -, -, e0, e1, -⟩ := index_facts t
  funext j
  unfold iblk6
  rw [View.read_apply]
  show V c main_v89 _ = V c main_v89 j
  congr 1
  funext a
  apply Fin.ext
  match a with
  | ⟨0, _⟩ => show win6_4.index t (0 : Fin 2) * 1 + 1 * (j 0).val = (j 0).val; rw [e0]; omega
  | ⟨1, _⟩ => show win6_4.index t (1 : Fin 2) * 1 + 1 * (j 1).val = (j 1).val; rw [e1]; omega

/-- An index of the result array is in point t's block iff each coordinate is in the block's range on its axis. -/
theorem mem_block (t : Fin cfg6.N) (i : S50000x1.Idx) :
    i ∈ ((cfg6.win 5).blk t).view.set ↔ ∀ a : Fin 2, win6_5.index t a * S5000x1.size a ≤ (i a).val ∧ (i a).val < win6_5.index t a * S5000x1.size a + S5000x1.size a := by
  show i ∈ ((View.whole main_v90).slice (win6_5.rect t)).set ↔ _
  rw [View.set_slice_whole, Rect.mem_set_unit]
  exact Iff.rfl

/-- Every row of the result lies in the block of the point its number divided by 5000 names. -/
theorem covered (i : S50000x1.Idx) :
    ∃ t : Fin cfg6.N, (cfg6.win 5).flush t = true ∧ i ∈ ((cfg6.win 5).blk t).view.set := by
  have hi0 : (i 0).val < 50000 := (i 0).isLt
  have hi1 : (i 1).val < 1 := (i 1).isLt
  have hN : cfg6.N = 10 := N_6
  have ht : (i 0).val / 5000 < cfg6.N := by rw [hN]; omega
  obtain ⟨-, -, -, -, -, -, -, -, -, -, e0, e1⟩ := index_facts ⟨(i 0).val / 5000, ht⟩
  refine ⟨⟨(i 0).val / 5000, ht⟩, flush6_5 _, ?_⟩
  rw [mem_block]
  intro a
  match a with
  | ⟨0, _⟩ =>
    show win6_5.index ⟨(i 0).val / 5000, ht⟩ (0 : Fin 2) * 5000 ≤ (i 0).val ∧ (i 0).val < win6_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win6_5.index ⟨(i 0).val / 5000, ht⟩ (1 : Fin 2) * 1 ≤ (i 1).val ∧ (i 1).val < win6_5.index ⟨(i 0).val / 5000, ht⟩ (1 : Fin 2) * 1 + 1
    rw [e1]
    omega

/-- The result array as one function of the arrays the region finds: row r holds the advantage of node r. -/
abbrev advArr (c : Dev nD) : S50000x1.Idx → EReal := fun i =>
  advAt (M := 50000) (K := 64) (H := 64) (lit 0x00000000#32) (V c main_v87) (V c main_arg19)
    (fun k => V c main_v88 (ix2 (0 : Fin 1) k)) (V c main_arg21) (V c main_v89 (ix2 (0 : Fin 1) (0 : Fin 1))) (i 0)

/-- The body's result at an index of its block, from blocks that are the arrays' rows 5000 n ... 5000 n + 4999 and the
    whole weights and biases: the advantage of the node whose row the index names. -/
theorem block_result_at (A : S50000x64.Idx → EReal) (W1 : S64x64.Idx → EReal) (B1 : S1x64.Idx → EReal)
    (W2 : S64x1.Idx → EReal) (B2 : S1x1.Idx → EReal)
    (x0 : Vec Ideal S5000x64 .f32) (x1 : Vec Ideal S64x64 .f32) (x2 : Vec Ideal S1x64 .f32)
    (x3 : Vec Ideal S64x1 .f32) (x4 : Vec Ideal S1x1 .f32) (n : Nat) (y : S5000x1.Idx) (r : Fin 50000)
    (h0 : ∀ (p : Fin 5000) (k : Fin 64) (r : Fin 50000), r.val = 5000 * n + p.val → x0 (ix2 p k) = A (ix2 r k))
    (h1 : x1 = W1) (h2 : x2 = B1) (h3 : x3 = W2) (h4 : x4 = B2)
    (hr : r.val = 5000 * n + (y 0).val) :
    k6_pay1 (F := Ideal) x0 x1 x2 x3 x4 y
      = advAt (M := 50000) (K := 64) (H := 64) (lit 0x00000000#32) A W1 (fun k => B1 (ix2 (0 : Fin 1) k)) W2
          (B2 (ix2 (0 : Fin 1) (0 : Fin 1))) r := by
  subst h1 h2 h3 h4
  obtain ⟨p, q, rfl⟩ : ∃ (p : Fin 5000) (q : Fin 1), y = ix2 p q := ⟨y 0, y 1, eq_ix2 y⟩
  obtain rfl : q = 0 := Fin.ext (by have h : q.val < 1 := q.isLt; show q.val = 0; omega)
  refine (pay_at x0 x1 x2 x3 x4 p).trans ?_
  exact advAt_row _ _ _ _ _ _ _ _ _ fun k => h0 p k r hr

/-- What point t writes back is block t of the advantage array. -/
theorem flushed_eq (c : Dev nD) (t : Fin cfg6.N) :
    (dat6 (F := Ideal) V c).flushed 5 t = ((cfg6.win 5).blk t).view.read (Elt Ideal) (advArr V c) := by
  show (cfg6.win 5).cut (grid6.coords t) ((dat6 (F := Ideal) V c).after 5 t) = _
  rw [after6_5]
  unfold out6_5
  rw [View.canon_unit_zero zero_offsets]
  simp only [View.ld_unit_zero (S := S5000x64) zero_offsets, View.ld_unit_zero (S := S64x64) zero_offsets,
    View.ld_unit_zero (S := S1x64) zero_offsets, View.ld_unit_zero (S := S64x1) zero_offsets,
    View.ld_unit_zero (S := S1x1) zero_offsets]
  obtain ⟨-, -, -, -, -, -, -, -, -, -, e0, -⟩ := index_facts t
  funext y
  rw [View.read_apply]
  refine block_result_at (V c main_v87) (V c main_arg19) (V c main_v88) (V c main_arg21) (V c main_v89)
    (iblk6 (F := Ideal) V c 0 t) (iblk6 (F := Ideal) V c 1 t) (iblk6 (F := Ideal) V c 2 t) (iblk6 (F := Ideal) V c 3 t)
    (iblk6 (F := Ideal) V c 4 t) t.val y ((((cfg6.win 5).blk t).view.emb y) 0)
    (fun p k r hr => rows_block_at V c t p k r hr) (w1_block V c t) (b1_block V c t) (w2_block V c t) (b2_block V c t) ?_
  show win6_5.index t (0 : Fin 2) * 5000 + 1 * (y 0).val = 5000 * t.val + (y 0).val
  rw [e0]
  omega

/-- The result array after the region: row r holds the advantage of node r. -/
theorem final6 (c : Dev nD) (i : S50000x1.Idx) :
    (Gen.dat6 (F := Ideal) V c).arrAt 5 cfg6.N i
      = Cert.Spec.advAt (M := 50000) (K := 64) (H := 64) (lit 0x00000000#32) (V c main_v87) (V c main_arg19)
          (fun k => V c main_v88 (ix2 (0 : Fin 1) k)) (V c main_arg21) (V c main_v89 (ix2 (0 : Fin 1) (0 : Fin 1))) (i 0) :=
  congrFun ((dat6 (F := Ideal) V c).arrAt_eq_of_cover 5 (advArr V c) (fun t _ => flushed_eq V c t) covered) i

end Cert.KernelIdeal.KAdv

end
-- ==== Proof.RDots.lean ====
/-
  The reference's three layer products and its advantage head, read at one entry.

  Each layer product is a plain [50000, K] by [K, H] product, so its entry (p, c) is the sum over k of the left
  operand at (p, k) times the weight at (k, c).  The advantage head is a product with a [64, 64] weight, a bias row
  added to every row, a clamp from below at zero, a product with a [64, 1] column and a last bias: entry (p, 0)
  depends on row p of its input only.
-/
import proofs.«174969_j8890582303024_1_alg».proof.Proof.RefRead
import proofs.«174969_j8890582303024_1_alg».proof.Proof.Spec
import proofs.«174969_j8890582303024_1_alg».proof.Proof.LibMatRows

noncomputable section

open scoped BigOperators

namespace Cert.ReferenceIdeal.RDots

open Cert.ReferenceIdeal Cert.ReferenceIdeal.Gen Cert.ReferenceIdeal.RefRead Idealize.ShloMosaic Idealize.ShloMosaic.TcCoe Idealize.ShloMosaic.ValueIdx Cert.Spec

/-- The first layer's product: entry (p, c) is the sum over k of the features at (p, k) times the weight at (k, c). -/
theorem v34_at (x0 : (⟨S50000x64, .f32⟩ : BufTy).Contents (Elt Ideal)) (x3 : (⟨S64x128, .f32⟩ : BufTy).Contents (Elt Ideal)) (i : S50000x128.Idx) :
    val_main_v34 (F := Ideal) x0 x3 i
      = Cert.Spec.mulAt (M := 50000) (K := 64) (H := 128) x0 x3 (i 0) (i 1) := by
  obtain ⟨p, q, rfl⟩ : ∃ (p : Fin 50000) (q : Fin 128), i = ix2 p q := ⟨i 0, i 1, eq_ix2 i⟩
  show val_main_v34 (F := Ideal) x0 x3 (ix2 p q) = Cert.Spec.mulAt (M := 50000) (K := 64) (H := 128) x0 x3 p q
  rw [val_main_v34_apply]
  unfold Cert.Spec.mulAt
  refine Finset.sum_congr rfl fun k _ => ?_
  have el : lidx_main_v34 (ix2 p q) k = ix2 p k :=
    funext fun a => Fin.ext (by match a with | ⟨0, _⟩ => rfl | ⟨1, _⟩ => rfl)
  have er : ridx_main_v34 (ix2 p q) k = ix2 k q :=
    funext fun a => Fin.ext (by match a with | ⟨0, _⟩ => rfl | ⟨1, _⟩ => rfl)
  rw [el, er]

/-- The second layer's product: entry (p, c) is the sum over k of the first layer's output at (p, k) times the weight at (k, c). -/
theorem v76_at (x0 : (⟨S50000x64, .f32⟩ : BufTy).Contents (Elt Ideal)) (x1 : (⟨S2x1600000, .i32⟩ : BufTy).Contents (Elt Ideal)) (x2 : (⟨S1600000, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x9 x10 : (⟨S128, .f32⟩ : BufTy).Contents (Elt Ideal)) (i : S50000x128.Idx) :
    val_main_v76 (F := Ideal) x0 x1 x2 x3 x4 x5 x9 x10 i
      = Cert.Spec.mulAt (M := 50000) (K := 128) (H := 128) (val_main_v75 (F := Ideal) x0 x1 x2 x3 x4 x9 x10) x5 (i 0) (i 1) := by
  obtain ⟨p, q, rfl⟩ : ∃ (p : Fin 50000) (q : Fin 128), i = ix2 p q := ⟨i 0, i 1, eq_ix2 i⟩
  show val_main_v76 (F := Ideal) x0 x1 x2 x3 x4 x5 x9 x10 (ix2 p q) = Cert.Spec.mulAt (M := 50000) (K := 128) (H := 128) (val_main_v75 (F := Ideal) x0 x1 x2 x3 x4 x9 x10) x5 p q
  rw [val_main_v76_apply]
  unfold Cert.Spec.mulAt
  refine Finset.sum_congr rfl fun k _ => ?_
  have el : lidx_main_v76 (ix2 p q) k = ix2 p k :=
    funext fun a => Fin.ext (by match a with | ⟨0, _⟩ => rfl | ⟨1, _⟩ => rfl)
  have er : ridx_main_v76 (ix2 p q) k = ix2 k q :=
    funext fun a => Fin.ext (by match a with | ⟨0, _⟩ => rfl | ⟨1, _⟩ => rfl)
  rw [el, er]

/-- The third layer's product: entry (p, c) is the sum over k of the second layer's output at (p, k) times the weight at (k, c). -/
theorem v118_at (x0 : (⟨S50000x64, .f32⟩ : BufTy).Contents (Elt Ideal)) (x1 : (⟨S2x1600000, .i32⟩ : BufTy).Contents (Elt Ideal)) (x2 : (⟨S1600000, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x9 x10 x11 x12 : (⟨S128, .f32⟩ : BufTy).Contents (Elt Ideal)) (i : S50000x64.Idx) :
    val_main_v118 (F := Ideal) x0 x1 x2 x3 x4 x5 x6 x7 x9 x10 x11 x12 i
      = Cert.Spec.mulAt (M := 50000) (K := 128) (H := 64) (val_main_v117 (F := Ideal) x0 x1 x2 x3 x4 x5 x6 x9 x10 x11 x12) x7 (i 0) (i 1) := by
  obtain ⟨p, q, rfl⟩ : ∃ (p : Fin 50000) (q : Fin 64), i = ix2 p q := ⟨i 0, i 1, eq_ix2 i⟩
  show val_main_v118 (F := Ideal) x0 x1 x2 x3 x4 x5 x6 x7 x9 x10 x11 x12 (ix2 p q) = Cert.Spec.mulAt (M := 50000) (K := 128) (H := 64) (val_main_v117 (F := Ideal) x0 x1 x2 x3 x4 x5 x6 x9 x10 x11 x12) x7 p q
  rw [val_main_v118_apply]
  unfold Cert.Spec.mulAt
  refine Finset.sum_congr rfl fun k _ => ?_
  have el : lidx_main_v118 (ix2 p q) k = ix2 p k :=
    funext fun a => Fin.ext (by match a with | ⟨0, _⟩ => rfl | ⟨1, _⟩ => rfl)
  have er : ridx_main_v118 (ix2 p q) k = ix2 k q :=
    funext fun a => Fin.ext (by match a with | ⟨0, _⟩ => rfl | ⟨1, _⟩ => rfl)
  rw [el, er]

/-- The advantage head: entry (p, 0) is the advantage of node p, from row p of the third layer's output. -/
theorem v168_at (x0 : (⟨S50000x64, .f32⟩ : BufTy).Contents (Elt Ideal)) (x1 : (⟨S2x1600000, .i32⟩ : BufTy).Contents (Elt Ideal)) (x2 : (⟨S1600000, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 x10 x11 x12 : (⟨S128, .f32⟩ : BufTy).Contents (Elt Ideal)) (x13 x14 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x1, .f32⟩ : BufTy).Contents (Elt Ideal)) (x22 : (⟨S1, .f32⟩ : BufTy).Contents (Elt Ideal)) (i : S50000x1.Idx) :
    val_main_v168 (F := Ideal) x0 x1 x2 x3 x4 x5 x6 x7 x8 x9 x10 x11 x12 x13 x14 x19 x20 x21 x22 i
      = Cert.Spec.advAt (M := 50000) (K := 64) (H := 64) (lit 0x00000000#32) (val_main_v159 (F := Ideal) x0 x1 x2 x3 x4 x5 x6 x7 x8 x9 x10 x11 x12 x13 x14) x19
          (fun k => x20 (ix1 k)) x21 (x22 (ix1 (0 : Fin 1))) (i 0) := by
  obtain ⟨p, q, rfl⟩ : ∃ (p : Fin 50000) (q : Fin 1), i = ix2 p q := ⟨i 0, i 1, eq_ix2 i⟩
  obtain rfl : q = 0 := Fin.ext (by have h : q.val < 1 := q.isLt; show q.val = 0; omega)
  show val_main_v168 (F := Ideal) x0 x1 x2 x3 x4 x5 x6 x7 x8 x9 x10 x11 x12 x13 x14 x19 x20 x21 x22 (ix2 p (0 : Fin 1))
      = Cert.Spec.advAt (M := 50000) (K := 64) (H := 64) (lit 0x00000000#32) (val_main_v159 (F := Ideal) x0 x1 x2 x3 x4 x5 x6 x7 x8 x9 x10 x11 x12 x13 x14) x19
          (fun k => x20 (ix1 k)) x21 (x22 (ix1 (0 : Fin 1))) p
  rw [val_main_v168_apply, val_main_v165_apply, val_main_v167_apply, val_main_v166_apply]
  unfold Cert.Spec.advAt Cert.Spec.mulAt
  have eb2 : idx_main_v166 (idx_main_v167 (ix2 p (0 : Fin 1))) = ix1 (0 : Fin 1) :=
    funext fun a => Fin.ext (by match a with | ⟨0, _⟩ => rfl)
  rw [eb2]
  refine congrArg₂ (· + ·) (Finset.sum_congr rfl fun k _ => ?_) rfl
  have el : lidx_main_v165 (ix2 p (0 : Fin 1)) k = ix2 p k :=
    funext fun a => Fin.ext (by match a with | ⟨0, _⟩ => rfl | ⟨1, _⟩ => rfl)
  have er : ridx_main_v165 (ix2 p (0 : Fin 1)) k = ix2 k (0 : Fin 1) :=
    funext fun a => Fin.ext (by match a with | ⟨0, _⟩ => rfl | ⟨1, _⟩ => rfl)
  rw [el, er, val_main_v164_apply, val_main_v163_apply, val_main_v160_apply, val_main_v162_apply, val_main_v161_apply,
    val_main_call4_v0_apply, val_main_call4_cst_apply]
  have eb1 : idx_main_v161 (idx_main_v162 (ix2 p k)) = ix1 k :=
    funext fun a => Fin.ext (by match a with | ⟨0, _⟩ => rfl)
  rw [eb1]
  refine congrArg₂ (· * ·) (congrArg₂ max (congrArg₂ (· + ·) (Finset.sum_congr rfl fun j _ => ?_) rfl) rfl) rfl
  have el' : lidx_main_v160 (ix2 p k) j = ix2 p j :=
    funext fun a => Fin.ext (by match a with | ⟨0, _⟩ => rfl | ⟨1, _⟩ => rfl)
  have er' : ridx_main_v160 (ix2 p k) j = ix2 j k :=
    funext fun a => Fin.ext (by match a with | ⟨0, _⟩ => rfl | ⟨1, _⟩ => rfl)
  rw [el', er']

end Cert.ReferenceIdeal.RDots

end
-- ==== Proof.RNorm.lean ====
/-
  The reference's three bias, layer-normalisation and clamp stages, read at an entry.

  Each stage takes the layer's aggregated node rows S (50000 rows of H entries; H is 128 in layers 1 and 2 and 64 in
  layer 3), adds a bias row to every row, and normalises every row over its own H entries: the mean is the row sum
  divided by H, the variance is the sum of the squared deviations from the mean divided by H, and entry (p, c) of the
  result is the deviation at (p, c) times the reciprocal square root of the variance plus 1e-5, times the gain at c,
  plus the offset at c, clamped from below at zero. The reference spells this with whole arrays: the bias, gain and
  offset rows are repeated down the 50000 rows, the mean and the reciprocal root are columns of width one repeated
  along the row, and the two row sums start from zero.

  For each layer six statements, each at literal coordinates: the shifted entry (shiftN), the mean of row p (meanN),
  the deviation and its square at (p, k) (devN, sqN), the variance of row p (varN), and the stage's result (v75_at,
  v117_at, v159_at) as the specification's `Cert.Spec.lnReluAt` of S, the bias, the gain and the offset. S itself
  stays a closed term throughout.
-/
import proofs.«174969_j8890582303024_1_alg».proof.Proof.RefRead
import proofs.«174969_j8890582303024_1_alg».proof.Proof.Spec
import proofs.«174969_j8890582303024_1_alg».proof.Proof.LibMatRows

noncomputable section

open Cert.ReferenceIdeal Cert.ReferenceIdeal.Gen Cert.ReferenceIdeal.RefRead Idealize.ShloMosaic Idealize.ShloMosaic.TcCoe Idealize.ShloMosaic.ValueIdx Cert.Spec

namespace Cert.ReferenceIdeal.RNorm

/-! ### Layer 1

The aggregated node rows S (the layer's scatter-add, kept closed: nothing below looks inside it) are shifted by the
bias row, and each row p is then normalised over its own 128 entries: the row sum divided by 128 is the mean, the sum of
the squared deviations divided by 128 is the variance, and entry (p, c) is the deviation times the reciprocal square
root of the variance plus 1e-5, times the gain at c, plus the offset at c, clamped from below at zero. Every quantity
at (p, c) reads row p of S only. -/

/-- Layer 1, a shifted entry: entry (p, k) of S plus entry k of the bias row. The bias is first laid out as a
    single row and then repeated down the rows, so the value at (p, k) is the bias at k whatever p is. -/
theorem shift1
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal))
    (p : Fin 50000) (k : Fin 128) :
    val_main_v50 (F := Ideal) x0 x1 x2 x3 x4 (ix2 p k)
      = shiftAt (M := 50000) (H := 128)
          (val_main_v47 (F := Ideal) x0 x1 x2 x3)
          (fun k => x4 (ix1 k)) p k := by
  rw [val_main_v50_apply, val_main_v49_apply, val_main_v48_apply]
  have e : idx_main_v48 (idx_main_v49 (ix2 p k)) = ix1 k :=
    funext fun a => Fin.ext (by match a with | ⟨0, _⟩ => rfl)
  rw [e]
  generalize val_main_v47 (F := Ideal) x0 x1 x2 x3 = S
  rfl

/-- Layer 1, the mean of row p: zero plus the sum of the shifted row's 128 entries, divided by 128. The value
    is held in a column of width one; its only column index z plays no part. -/
theorem mean1
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal))
    (p : Fin 50000) (z : Fin 1) :
    val_main_v54 (F := Ideal) x0 x1 x2 x3 x4 (ix2 p z)
      = meanAt (M := 50000) (H := 128) (lit 0x43000000#32)
          (val_main_v47 (F := Ideal) x0 x1 x2 x3)
          (fun k => x4 (ix1 k)) p := by
  rw [val_main_v54_apply, val_main_v52_apply, val_main_v51_apply, val_main_v53_apply,
    val_main_cst_11_apply, val_main_cst_10_apply]
  have e : ∀ k : Fin 128, idx_main_v51 (idx_main_v52 (ix2 p z)) k = ix2 p k := fun k =>
    funext fun a => Fin.ext (by match a with | ⟨0, _⟩ => rfl | ⟨1, _⟩ => rfl)
  simp only [e, shift1]
  generalize val_main_v47 (F := Ideal) x0 x1 x2 x3 = S
  simp only [Ideal.hostDivf_def, Ideal.ofBits_def, Ideal.ofBits_zero_f32, zero_add]
  rfl

/-- Layer 1, a deviation: the shifted entry (p, k) minus the mean of row p. The mean column is repeated along
    the row, so the value subtracted at (p, k) is the mean of row p whatever k is. -/
theorem dev1
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal))
    (p : Fin 50000) (k : Fin 128) :
    val_main_v56 (F := Ideal) x0 x1 x2 x3 x4 (ix2 p k)
      = shiftAt (M := 50000) (H := 128)
          (val_main_v47 (F := Ideal) x0 x1 x2 x3)
          (fun k => x4 (ix1 k)) p k
        - meanAt (M := 50000) (H := 128) (lit 0x43000000#32)
          (val_main_v47 (F := Ideal) x0 x1 x2 x3)
          (fun k => x4 (ix1 k)) p := by
  rw [val_main_v56_apply, val_main_v55_apply]
  have em : idx_main_v55 (ix2 p k) = ix2 p (⟨0, Nat.one_pos⟩ : Fin 1) :=
    funext fun a => Fin.ext (by match a with | ⟨0, _⟩ => rfl | ⟨1, _⟩ => rfl)
  rw [em, shift1, mean1, Ideal.subf_def]

/-- Layer 1, a squared deviation: the deviation at (p, k) times itself. -/
theorem sq1
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal))
    (p : Fin 50000) (k : Fin 128) :
    val_main_v57 (F := Ideal) x0 x1 x2 x3 x4 (ix2 p k)
      = (shiftAt (M := 50000) (H := 128)
          (val_main_v47 (F := Ideal) x0 x1 x2 x3)
          (fun k => x4 (ix1 k)) p k
        - meanAt (M := 50000) (H := 128) (lit 0x43000000#32)
          (val_main_v47 (F := Ideal) x0 x1 x2 x3)
          (fun k => x4 (ix1 k)) p)
        * (shiftAt (M := 50000) (H := 128)
          (val_main_v47 (F := Ideal) x0 x1 x2 x3)
          (fun k => x4 (ix1 k)) p k
        - meanAt (M := 50000) (H := 128) (lit 0x43000000#32)
          (val_main_v47 (F := Ideal) x0 x1 x2 x3)
          (fun k => x4 (ix1 k)) p) := by
  rw [val_main_v57_apply, dev1, Ideal.mulf_def]

/-- Layer 1, the variance of row p: zero plus the sum over the row of the squared deviations, divided by 128. -/
theorem var1
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal))
    (p : Fin 50000) (z : Fin 1) :
    val_main_v61 (F := Ideal) x0 x1 x2 x3 x4 (ix2 p z)
      = varAt (M := 50000) (H := 128) (lit 0x43000000#32)
          (val_main_v47 (F := Ideal) x0 x1 x2 x3)
          (fun k => x4 (ix1 k)) p := by
  rw [val_main_v61_apply, val_main_v59_apply, val_main_v58_apply, val_main_v60_apply,
    val_main_cst_13_apply, val_main_cst_12_apply]
  have e : ∀ k : Fin 128, idx_main_v58 (idx_main_v59 (ix2 p z)) k = ix2 p k := fun k =>
    funext fun a => Fin.ext (by match a with | ⟨0, _⟩ => rfl | ⟨1, _⟩ => rfl)
  simp only [e, sq1]
  generalize val_main_v47 (F := Ideal) x0 x1 x2 x3 = S
  simp only [Ideal.hostDivf_def, Ideal.ofBits_def, Ideal.ofBits_zero_f32, zero_add]
  rfl

/-- Layer 1, the normalised and clamped entry (i 0, i 1): the reference's value is the layer formula of the
    specification at the aggregated rows, the bias row, the gain row and the offset row. The mean and the reciprocal
    root are columns repeated along the row, the gain and the offset are rows repeated down the rows. -/
theorem v75_at
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 x9 x10 : (⟨S128, .f32⟩ : BufTy).Contents (Elt Ideal))
    (i : S50000x128.Idx) :
    val_main_v75 (F := Ideal) x0 x1 x2 x3 x4 x9 x10 i
      = lnReluAt (M := 50000) (H := 128) (lit 0x43000000#32) (lit 0x3727C5AC#32) (lit 0x00000000#32)
          (val_main_v47 (F := Ideal) x0 x1 x2 x3)
          (fun k => x4 (ix1 k)) (fun k => x9 (ix1 k)) (fun k => x10 (ix1 k)) (i 0) (i 1) := by
  obtain ⟨p, q, rfl⟩ : ∃ (p : Fin 50000) (q : Fin 128), i = ix2 p q := ⟨i 0, i 1, eq_ix2 i⟩
  rw [val_main_v75_apply, val_main_v74_apply, val_main_v71_apply, val_main_v68_apply, val_main_v63_apply,
    val_main_v62_apply, val_main_v67_apply, val_main_v66_apply, val_main_v65_apply, val_main_v64_apply,
    val_main_cst_14_apply, val_main_v70_apply, val_main_v69_apply, val_main_v73_apply, val_main_v72_apply,
    val_main_call1_v0_apply, val_main_call1_cst_apply]
  have em : idx_main_v62 (ix2 p q) = ix2 p (⟨0, Nat.one_pos⟩ : Fin 1) :=
    funext fun a => Fin.ext (by match a with | ⟨0, _⟩ => rfl | ⟨1, _⟩ => rfl)
  have er : idx_main_v67 (ix2 p q) = ix2 p (⟨0, Nat.one_pos⟩ : Fin 1) :=
    funext fun a => Fin.ext (by match a with | ⟨0, _⟩ => rfl | ⟨1, _⟩ => rfl)
  have eg : idx_main_v69 (idx_main_v70 (ix2 p q)) = ix1 q :=
    funext fun a => Fin.ext (by match a with | ⟨0, _⟩ => rfl)
  have eo : idx_main_v72 (idx_main_v73 (ix2 p q)) = ix1 q :=
    funext fun a => Fin.ext (by match a with | ⟨0, _⟩ => rfl)
  rw [em, er, eg, eo, shift1, mean1, var1]
  generalize val_main_v47 (F := Ideal) x0 x1 x2 x3 = S
  rfl

/-! ### Layer 2

The aggregated node rows S (the layer's scatter-add, kept closed: nothing below looks inside it) are shifted by the
bias row, and each row p is then normalised over its own 128 entries: the row sum divided by 128 is the mean, the sum of
the squared deviations divided by 128 is the variance, and entry (p, c) is the deviation times the reciprocal square
root of the variance plus 1e-5, times the gain at c, plus the offset at c, clamped from below at zero. Every quantity
at (p, c) reads row p of S only. -/

/-- Layer 2, a shifted entry: entry (p, k) of S plus entry k of the bias row. The bias is first laid out as a
    single row and then repeated down the rows, so the value at (p, k) is the bias at k whatever p is. -/
theorem shift2
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 x9 x10 : (⟨S128, .f32⟩ : BufTy).Contents (Elt Ideal))
    (p : Fin 50000) (k : Fin 128) :
    val_main_v92 (F := Ideal) x0 x1 x2 x3 x4 x5 x6 x9 x10 (ix2 p k)
      = shiftAt (M := 50000) (H := 128)
          (val_main_v89 (F := Ideal) x0 x1 x2 x3 x4 x5 x9 x10)
          (fun k => x6 (ix1 k)) p k := by
  rw [val_main_v92_apply, val_main_v91_apply, val_main_v90_apply]
  have e : idx_main_v90 (idx_main_v91 (ix2 p k)) = ix1 k :=
    funext fun a => Fin.ext (by match a with | ⟨0, _⟩ => rfl)
  rw [e]
  generalize val_main_v89 (F := Ideal) x0 x1 x2 x3 x4 x5 x9 x10 = S
  rfl

/-- Layer 2, the mean of row p: zero plus the sum of the shifted row's 128 entries, divided by 128. The value
    is held in a column of width one; its only column index z plays no part. -/
theorem mean2
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 x9 x10 : (⟨S128, .f32⟩ : BufTy).Contents (Elt Ideal))
    (p : Fin 50000) (z : Fin 1) :
    val_main_v96 (F := Ideal) x0 x1 x2 x3 x4 x5 x6 x9 x10 (ix2 p z)
      = meanAt (M := 50000) (H := 128) (lit 0x43000000#32)
          (val_main_v89 (F := Ideal) x0 x1 x2 x3 x4 x5 x9 x10)
          (fun k => x6 (ix1 k)) p := by
  rw [val_main_v96_apply, val_main_v94_apply, val_main_v93_apply, val_main_v95_apply,
    val_main_cst_19_apply, val_main_cst_18_apply]
  have e : ∀ k : Fin 128, idx_main_v93 (idx_main_v94 (ix2 p z)) k = ix2 p k := fun k =>
    funext fun a => Fin.ext (by match a with | ⟨0, _⟩ => rfl | ⟨1, _⟩ => rfl)
  simp only [e, shift2]
  generalize val_main_v89 (F := Ideal) x0 x1 x2 x3 x4 x5 x9 x10 = S
  simp only [Ideal.hostDivf_def, Ideal.ofBits_def, Ideal.ofBits_zero_f32, zero_add]
  rfl

/-- Layer 2, a deviation: the shifted entry (p, k) minus the mean of row p. The mean column is repeated along
    the row, so the value subtracted at (p, k) is the mean of row p whatever k is. -/
theorem dev2
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 x9 x10 : (⟨S128, .f32⟩ : BufTy).Contents (Elt Ideal))
    (p : Fin 50000) (k : Fin 128) :
    val_main_v98 (F := Ideal) x0 x1 x2 x3 x4 x5 x6 x9 x10 (ix2 p k)
      = shiftAt (M := 50000) (H := 128)
          (val_main_v89 (F := Ideal) x0 x1 x2 x3 x4 x5 x9 x10)
          (fun k => x6 (ix1 k)) p k
        - meanAt (M := 50000) (H := 128) (lit 0x43000000#32)
          (val_main_v89 (F := Ideal) x0 x1 x2 x3 x4 x5 x9 x10)
          (fun k => x6 (ix1 k)) p := by
  rw [val_main_v98_apply, val_main_v97_apply]
  have em : idx_main_v97 (ix2 p k) = ix2 p (⟨0, Nat.one_pos⟩ : Fin 1) :=
    funext fun a => Fin.ext (by match a with | ⟨0, _⟩ => rfl | ⟨1, _⟩ => rfl)
  rw [em, shift2, mean2, Ideal.subf_def]

/-- Layer 2, a squared deviation: the deviation at (p, k) times itself. -/
theorem sq2
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 x9 x10 : (⟨S128, .f32⟩ : BufTy).Contents (Elt Ideal))
    (p : Fin 50000) (k : Fin 128) :
    val_main_v99 (F := Ideal) x0 x1 x2 x3 x4 x5 x6 x9 x10 (ix2 p k)
      = (shiftAt (M := 50000) (H := 128)
          (val_main_v89 (F := Ideal) x0 x1 x2 x3 x4 x5 x9 x10)
          (fun k => x6 (ix1 k)) p k
        - meanAt (M := 50000) (H := 128) (lit 0x43000000#32)
          (val_main_v89 (F := Ideal) x0 x1 x2 x3 x4 x5 x9 x10)
          (fun k => x6 (ix1 k)) p)
        * (shiftAt (M := 50000) (H := 128)
          (val_main_v89 (F := Ideal) x0 x1 x2 x3 x4 x5 x9 x10)
          (fun k => x6 (ix1 k)) p k
        - meanAt (M := 50000) (H := 128) (lit 0x43000000#32)
          (val_main_v89 (F := Ideal) x0 x1 x2 x3 x4 x5 x9 x10)
          (fun k => x6 (ix1 k)) p) := by
  rw [val_main_v99_apply, dev2, Ideal.mulf_def]

/-- Layer 2, the variance of row p: zero plus the sum over the row of the squared deviations, divided by 128. -/
theorem var2
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 x9 x10 : (⟨S128, .f32⟩ : BufTy).Contents (Elt Ideal))
    (p : Fin 50000) (z : Fin 1) :
    val_main_v103 (F := Ideal) x0 x1 x2 x3 x4 x5 x6 x9 x10 (ix2 p z)
      = varAt (M := 50000) (H := 128) (lit 0x43000000#32)
          (val_main_v89 (F := Ideal) x0 x1 x2 x3 x4 x5 x9 x10)
          (fun k => x6 (ix1 k)) p := by
  rw [val_main_v103_apply, val_main_v101_apply, val_main_v100_apply, val_main_v102_apply,
    val_main_cst_21_apply, val_main_cst_20_apply]
  have e : ∀ k : Fin 128, idx_main_v100 (idx_main_v101 (ix2 p z)) k = ix2 p k := fun k =>
    funext fun a => Fin.ext (by match a with | ⟨0, _⟩ => rfl | ⟨1, _⟩ => rfl)
  simp only [e, sq2]
  generalize val_main_v89 (F := Ideal) x0 x1 x2 x3 x4 x5 x9 x10 = S
  simp only [Ideal.hostDivf_def, Ideal.ofBits_def, Ideal.ofBits_zero_f32, zero_add]
  rfl

/-- Layer 2, the normalised and clamped entry (i 0, i 1): the reference's value is the layer formula of the
    specification at the aggregated rows, the bias row, the gain row and the offset row. The mean and the reciprocal
    root are columns repeated along the row, the gain and the offset are rows repeated down the rows. -/
theorem v117_at
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 x9 x10 x11 x12 : (⟨S128, .f32⟩ : BufTy).Contents (Elt Ideal))
    (i : S50000x128.Idx) :
    val_main_v117 (F := Ideal) x0 x1 x2 x3 x4 x5 x6 x9 x10 x11 x12 i
      = lnReluAt (M := 50000) (H := 128) (lit 0x43000000#32) (lit 0x3727C5AC#32) (lit 0x00000000#32)
          (val_main_v89 (F := Ideal) x0 x1 x2 x3 x4 x5 x9 x10)
          (fun k => x6 (ix1 k)) (fun k => x11 (ix1 k)) (fun k => x12 (ix1 k)) (i 0) (i 1) := by
  obtain ⟨p, q, rfl⟩ : ∃ (p : Fin 50000) (q : Fin 128), i = ix2 p q := ⟨i 0, i 1, eq_ix2 i⟩
  rw [val_main_v117_apply, val_main_v116_apply, val_main_v113_apply, val_main_v110_apply, val_main_v105_apply,
    val_main_v104_apply, val_main_v109_apply, val_main_v108_apply, val_main_v107_apply, val_main_v106_apply,
    val_main_cst_22_apply, val_main_v112_apply, val_main_v111_apply, val_main_v115_apply, val_main_v114_apply,
    val_main_call2_v0_apply, val_main_call2_cst_apply]
  have em : idx_main_v104 (ix2 p q) = ix2 p (⟨0, Nat.one_pos⟩ : Fin 1) :=
    funext fun a => Fin.ext (by match a with | ⟨0, _⟩ => rfl | ⟨1, _⟩ => rfl)
  have er : idx_main_v109 (ix2 p q) = ix2 p (⟨0, Nat.one_pos⟩ : Fin 1) :=
    funext fun a => Fin.ext (by match a with | ⟨0, _⟩ => rfl | ⟨1, _⟩ => rfl)
  have eg : idx_main_v111 (idx_main_v112 (ix2 p q)) = ix1 q :=
    funext fun a => Fin.ext (by match a with | ⟨0, _⟩ => rfl)
  have eo : idx_main_v114 (idx_main_v115 (ix2 p q)) = ix1 q :=
    funext fun a => Fin.ext (by match a with | ⟨0, _⟩ => rfl)
  rw [em, er, eg, eo, shift2, mean2, var2]
  generalize val_main_v89 (F := Ideal) x0 x1 x2 x3 x4 x5 x9 x10 = S
  rfl

/-! ### Layer 3

The aggregated node rows S (the layer's scatter-add, kept closed: nothing below looks inside it) are shifted by the
bias row, and each row p is then normalised over its own 64 entries: the row sum divided by 64 is the mean, the sum of
the squared deviations divided by 64 is the variance, and entry (p, c) is the deviation times the reciprocal square
root of the variance plus 1e-5, times the gain at c, plus the offset at c, clamped from below at zero. Every quantity
at (p, c) reads row p of S only. -/

/-- Layer 3, a shifted entry: entry (p, k) of S plus entry k of the bias row. The bias is first laid out as a
    single row and then repeated down the rows, so the value at (p, k) is the bias at k whatever p is. -/
theorem shift3
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 x10 x11 x12 : (⟨S128, .f32⟩ : BufTy).Contents (Elt Ideal))
    (p : Fin 50000) (k : Fin 64) :
    val_main_v134 (F := Ideal) x0 x1 x2 x3 x4 x5 x6 x7 x8 x9 x10 x11 x12 (ix2 p k)
      = shiftAt (M := 50000) (H := 64)
          (val_main_v131 (F := Ideal) x0 x1 x2 x3 x4 x5 x6 x7 x9 x10 x11 x12)
          (fun k => x8 (ix1 k)) p k := by
  rw [val_main_v134_apply, val_main_v133_apply, val_main_v132_apply]
  have e : idx_main_v132 (idx_main_v133 (ix2 p k)) = ix1 k :=
    funext fun a => Fin.ext (by match a with | ⟨0, _⟩ => rfl)
  rw [e]
  generalize val_main_v131 (F := Ideal) x0 x1 x2 x3 x4 x5 x6 x7 x9 x10 x11 x12 = S
  rfl

/-- Layer 3, the mean of row p: zero plus the sum of the shifted row's 64 entries, divided by 64. The value
    is held in a column of width one; its only column index z plays no part. -/
theorem mean3
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 x10 x11 x12 : (⟨S128, .f32⟩ : BufTy).Contents (Elt Ideal))
    (p : Fin 50000) (z : Fin 1) :
    val_main_v138 (F := Ideal) x0 x1 x2 x3 x4 x5 x6 x7 x8 x9 x10 x11 x12 (ix2 p z)
      = meanAt (M := 50000) (H := 64) (lit 0x42800000#32)
          (val_main_v131 (F := Ideal) x0 x1 x2 x3 x4 x5 x6 x7 x9 x10 x11 x12)
          (fun k => x8 (ix1 k)) p := by
  rw [val_main_v138_apply, val_main_v136_apply, val_main_v135_apply, val_main_v137_apply,
    val_main_cst_27_apply, val_main_cst_26_apply]
  have e : ∀ k : Fin 64, idx_main_v135 (idx_main_v136 (ix2 p z)) k = ix2 p k := fun k =>
    funext fun a => Fin.ext (by match a with | ⟨0, _⟩ => rfl | ⟨1, _⟩ => rfl)
  simp only [e, shift3]
  generalize val_main_v131 (F := Ideal) x0 x1 x2 x3 x4 x5 x6 x7 x9 x10 x11 x12 = S
  simp only [Ideal.hostDivf_def, Ideal.ofBits_def, Ideal.ofBits_zero_f32, zero_add]
  rfl

/-- Layer 3, a deviation: the shifted entry (p, k) minus the mean of row p. The mean column is repeated along
    the row, so the value subtracted at (p, k) is the mean of row p whatever k is. -/
theorem dev3
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 x10 x11 x12 : (⟨S128, .f32⟩ : BufTy).Contents (Elt Ideal))
    (p : Fin 50000) (k : Fin 64) :
    val_main_v140 (F := Ideal) x0 x1 x2 x3 x4 x5 x6 x7 x8 x9 x10 x11 x12 (ix2 p k)
      = shiftAt (M := 50000) (H := 64)
          (val_main_v131 (F := Ideal) x0 x1 x2 x3 x4 x5 x6 x7 x9 x10 x11 x12)
          (fun k => x8 (ix1 k)) p k
        - meanAt (M := 50000) (H := 64) (lit 0x42800000#32)
          (val_main_v131 (F := Ideal) x0 x1 x2 x3 x4 x5 x6 x7 x9 x10 x11 x12)
          (fun k => x8 (ix1 k)) p := by
  rw [val_main_v140_apply, val_main_v139_apply]
  have em : idx_main_v139 (ix2 p k) = ix2 p (⟨0, Nat.one_pos⟩ : Fin 1) :=
    funext fun a => Fin.ext (by match a with | ⟨0, _⟩ => rfl | ⟨1, _⟩ => rfl)
  rw [em, shift3, mean3, Ideal.subf_def]

/-- Layer 3, a squared deviation: the deviation at (p, k) times itself. -/
theorem sq3
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 x10 x11 x12 : (⟨S128, .f32⟩ : BufTy).Contents (Elt Ideal))
    (p : Fin 50000) (k : Fin 64) :
    val_main_v141 (F := Ideal) x0 x1 x2 x3 x4 x5 x6 x7 x8 x9 x10 x11 x12 (ix2 p k)
      = (shiftAt (M := 50000) (H := 64)
          (val_main_v131 (F := Ideal) x0 x1 x2 x3 x4 x5 x6 x7 x9 x10 x11 x12)
          (fun k => x8 (ix1 k)) p k
        - meanAt (M := 50000) (H := 64) (lit 0x42800000#32)
          (val_main_v131 (F := Ideal) x0 x1 x2 x3 x4 x5 x6 x7 x9 x10 x11 x12)
          (fun k => x8 (ix1 k)) p)
        * (shiftAt (M := 50000) (H := 64)
          (val_main_v131 (F := Ideal) x0 x1 x2 x3 x4 x5 x6 x7 x9 x10 x11 x12)
          (fun k => x8 (ix1 k)) p k
        - meanAt (M := 50000) (H := 64) (lit 0x42800000#32)
          (val_main_v131 (F := Ideal) x0 x1 x2 x3 x4 x5 x6 x7 x9 x10 x11 x12)
          (fun k => x8 (ix1 k)) p) := by
  rw [val_main_v141_apply, dev3, Ideal.mulf_def]

/-- Layer 3, the variance of row p: zero plus the sum over the row of the squared deviations, divided by 64. -/
theorem var3
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 x10 x11 x12 : (⟨S128, .f32⟩ : BufTy).Contents (Elt Ideal))
    (p : Fin 50000) (z : Fin 1) :
    val_main_v145 (F := Ideal) x0 x1 x2 x3 x4 x5 x6 x7 x8 x9 x10 x11 x12 (ix2 p z)
      = varAt (M := 50000) (H := 64) (lit 0x42800000#32)
          (val_main_v131 (F := Ideal) x0 x1 x2 x3 x4 x5 x6 x7 x9 x10 x11 x12)
          (fun k => x8 (ix1 k)) p := by
  rw [val_main_v145_apply, val_main_v143_apply, val_main_v142_apply, val_main_v144_apply,
    val_main_cst_29_apply, val_main_cst_28_apply]
  have e : ∀ k : Fin 64, idx_main_v142 (idx_main_v143 (ix2 p z)) k = ix2 p k := fun k =>
    funext fun a => Fin.ext (by match a with | ⟨0, _⟩ => rfl | ⟨1, _⟩ => rfl)
  simp only [e, sq3]
  generalize val_main_v131 (F := Ideal) x0 x1 x2 x3 x4 x5 x6 x7 x9 x10 x11 x12 = S
  simp only [Ideal.hostDivf_def, Ideal.ofBits_def, Ideal.ofBits_zero_f32, zero_add]
  rfl

/-- Layer 3, the normalised and clamped entry (i 0, i 1): the reference's value is the layer formula of the
    specification at the aggregated rows, the bias row, the gain row and the offset row. The mean and the reciprocal
    root are columns repeated along the row, the gain and the offset are rows repeated down the rows. -/
theorem v159_at
    (x0 : (⟨S50000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 x10 x11 x12 : (⟨S128, .f32⟩ : BufTy).Contents (Elt Ideal))
    (x13 x14 : (⟨S64, .f32⟩ : BufTy).Contents (Elt Ideal))
    (i : S50000x64.Idx) :
    val_main_v159 (F := Ideal) x0 x1 x2 x3 x4 x5 x6 x7 x8 x9 x10 x11 x12 x13 x14 i
      = lnReluAt (M := 50000) (H := 64) (lit 0x42800000#32) (lit 0x3727C5AC#32) (lit 0x00000000#32)
          (val_main_v131 (F := Ideal) x0 x1 x2 x3 x4 x5 x6 x7 x9 x10 x11 x12)
          (fun k => x8 (ix1 k)) (fun k => x13 (ix1 k)) (fun k => x14 (ix1 k)) (i 0) (i 1) := by
  obtain ⟨p, q, rfl⟩ : ∃ (p : Fin 50000) (q : Fin 64), i = ix2 p q := ⟨i 0, i 1, eq_ix2 i⟩
  rw [val_main_v159_apply, val_main_v158_apply, val_main_v155_apply, val_main_v152_apply, val_main_v147_apply,
    val_main_v146_apply, val_main_v151_apply, val_main_v150_apply, val_main_v149_apply, val_main_v148_apply,
    val_main_cst_30_apply, val_main_v154_apply, val_main_v153_apply, val_main_v157_apply, val_main_v156_apply,
    val_main_call3_v0_apply, val_main_call3_cst_apply]
  have em : idx_main_v146 (ix2 p q) = ix2 p (⟨0, Nat.one_pos⟩ : Fin 1) :=
    funext fun a => Fin.ext (by match a with | ⟨0, _⟩ => rfl | ⟨1, _⟩ => rfl)
  have er : idx_main_v151 (ix2 p q) = ix2 p (⟨0, Nat.one_pos⟩ : Fin 1) :=
    funext fun a => Fin.ext (by match a with | ⟨0, _⟩ => rfl | ⟨1, _⟩ => rfl)
  have eg : idx_main_v153 (idx_main_v154 (ix2 p q)) = ix1 q :=
    funext fun a => Fin.ext (by match a with | ⟨0, _⟩ => rfl)
  have eo : idx_main_v156 (idx_main_v157 (ix2 p q)) = ix1 q :=
    funext fun a => Fin.ext (by match a with | ⟨0, _⟩ => rfl)
  rw [em, er, eg, eo, shift3, mean3, var3]
  generalize val_main_v131 (F := Ideal) x0 x1 x2 x3 x4 x5 x6 x7 x9 x10 x11 x12 = S
  rfl

end Cert.ReferenceIdeal.RNorm

end
-- ==== Proof.Bridge.lean ====
/-
  The kernel program's result is the reference's.

  Segment by segment through the kernel program: each launch's output array, read entry by entry, is the reference's
  value of the same layer (a matrix product, or the bias, normalisation and clamp of the aggregated rows, or the
  advantage head), because row p of a block is row p of the array; each stretch of host operations between the launches
  is the reference's own aggregation applied to the launch's output.  At the end the result buffer holds the
  reference's result as a function of the launch contents of the arguments.
-/
import proofs.«174969_j8890582303024_1_alg».proof.Proof.KHost
import proofs.«174969_j8890582303024_1_alg».proof.Proof.KMat
import proofs.«174969_j8890582303024_1_alg».proof.Proof.KNorm
import proofs.«174969_j8890582303024_1_alg».proof.Proof.KAdv
import proofs.«174969_j8890582303024_1_alg».proof.Proof.RDots
import proofs.«174969_j8890582303024_1_alg».proof.Proof.RNorm

set_option maxRecDepth 16384

noncomputable section

namespace Cert.KernelIdeal.Bridge

open Cert.KernelIdeal Cert.KernelIdeal.Gen Cert.KernelIdeal.KCarry Cert.KernelIdeal.KHost Cert.ReferenceIdeal.RefRead
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## Layer 1 -/

theorem out0_eq : W4 m ρ c (Proc.devRef .tc main_v34) = val_main_v34 (F := Ideal) (m ((c : Thread nD τ).loc main_arg0)) (m ((c : Thread nD τ).loc main_arg3)) := by
  refine (W4_arr m ρ c 2).trans ?_
  funext i
  refine (KMat.final0 (V3 m ρ) c i).trans ?_
  refine Eq.trans ?_ (Cert.ReferenceIdeal.RDots.v34_at (m ((c : Thread nD τ).loc main_arg0)) (m ((c : Thread nD τ).loc main_arg3)) i).symm
  rw [show V3 m ρ c main_arg0 = _ from W3_arg0 m ρ c, show V3 m ρ c main_arg3 = _ from W3_arg3 m ρ c]

theorem out1_eq : W6 m ρ c (Proc.devRef .tc main_v51) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) := by
  refine (W6_arr m ρ c 4).trans ?_
  funext i
  refine (KNorm.final1 (V5 m ρ) c i).trans ?_
  refine Eq.trans ?_ (Cert.ReferenceIdeal.RNorm.v75_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) i).symm
  rw [show V5 m ρ c main_v47 = _ from agg1_eq m ρ c (out0_eq m ρ c),
    show (fun k : Fin 128 => V5 m ρ c main_v48 (ix2 (0 : Fin 1) k)) = (fun k => (m ((c : Thread nD τ).loc main_arg4)) (ix1 k)) from funext (row48 m ρ c),
    show (fun k : Fin 128 => V5 m ρ c main_v49 (ix2 (0 : Fin 1) k)) = (fun k => (m ((c : Thread nD τ).loc main_arg9)) (ix1 k)) from funext (row49 m ρ c),
    show (fun k : Fin 128 => V5 m ρ c main_v50 (ix2 (0 : Fin 1) k)) = (fun k => (m ((c : Thread nD τ).loc main_arg10)) (ix1 k)) from funext (row50 m ρ c)]

/-! ## Layer 2 -/

theorem out2_eq : W7 m ρ c (Proc.devRef .tc main_v52) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) := by
  refine (W7_arr m ρ c 2).trans ?_
  funext i
  refine (KMat.final2 (V6 m ρ) c i).trans ?_
  refine Eq.trans ?_ (Cert.ReferenceIdeal.RDots.v76_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) i).symm
  rw [show V6 m ρ c main_v51 = _ from out1_eq m ρ c, show V6 m ρ c main_arg5 = _ from W6_arg5 m ρ c]

theorem out3_eq : W9 m ρ c (Proc.devRef .tc main_v69) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) := by
  refine (W9_arr m ρ c 4).trans ?_
  funext i
  refine (KNorm.final3 (V8 m ρ) c i).trans ?_
  refine Eq.trans ?_ (Cert.ReferenceIdeal.RNorm.v117_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) i).symm
  rw [show V8 m ρ c main_v65 = _ from agg2_eq m ρ c (out2_eq m ρ c),
    show (fun k : Fin 128 => V8 m ρ c main_v66 (ix2 (0 : Fin 1) k)) = (fun k => (m ((c : Thread nD τ).loc main_arg6)) (ix1 k)) from funext (row66 m ρ c),
    show (fun k : Fin 128 => V8 m ρ c main_v67 (ix2 (0 : Fin 1) k)) = (fun k => (m ((c : Thread nD τ).loc main_arg11)) (ix1 k)) from funext (row67 m ρ c),
    show (fun k : Fin 128 => V8 m ρ c main_v68 (ix2 (0 : Fin 1) k)) = (fun k => (m ((c : Thread nD τ).loc main_arg12)) (ix1 k)) from funext (row68 m ρ c)]

/-! ## Layer 3 -/

theorem out4_eq : W10 m ρ c (Proc.devRef .tc main_v70) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) := by
  refine (W10_arr m ρ c 2).trans ?_
  funext i
  refine (KMat.final4 (V9 m ρ) c i).trans ?_
  refine Eq.trans ?_ (Cert.ReferenceIdeal.RDots.v118_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) i).symm
  rw [show V9 m ρ c main_v69 = _ from out3_eq m ρ c, show V9 m ρ c main_arg7 = _ from W9_arg7 m ρ c]

theorem out5_eq : W12 m ρ c (Proc.devRef .tc main_v87) = val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W12_arr m ρ c 4).trans ?_
  funext i
  refine (KNorm.final5 (V11 m ρ) c i).trans ?_
  refine Eq.trans ?_ (Cert.ReferenceIdeal.RNorm.v159_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i).symm
  rw [show V11 m ρ c main_v83 = _ from agg3_eq m ρ c (out4_eq m ρ c),
    show (fun k : Fin 64 => V11 m ρ c main_v84 (ix2 (0 : Fin 1) k)) = (fun k => (m ((c : Thread nD τ).loc main_arg8)) (ix1 k)) from funext (row84 m ρ c),
    show (fun k : Fin 64 => V11 m ρ c main_v85 (ix2 (0 : Fin 1) k)) = (fun k => (m ((c : Thread nD τ).loc main_arg13)) (ix1 k)) from funext (row85 m ρ c),
    show (fun k : Fin 64 => V11 m ρ c main_v86 (ix2 (0 : Fin 1) k)) = (fun k => (m ((c : Thread nD τ).loc main_arg14)) (ix1 k)) from funext (row86 m ρ c)]

/-! ## The advantage head -/

theorem out6_eq : W14 m ρ c (Proc.devRef .tc main_v90) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22)) := by
  refine (W14_arr m ρ c 5).trans ?_
  funext i
  refine (Cert.KernelIdeal.KAdv.final6 (V13 m ρ) c i).trans ?_
  refine Eq.trans ?_ (Cert.ReferenceIdeal.RDots.v168_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22)) i).symm
  rw [show V13 m ρ c main_v87 = _ from (W13_v87 m ρ c).trans (out5_eq m ρ c),
    show V13 m ρ c main_arg19 = _ from W13_arg19 m ρ c,
    show (fun k : Fin 64 => V13 m ρ c main_v88 (ix2 (0 : Fin 1) k)) = (fun k => (m ((c : Thread nD τ).loc main_arg20)) (ix1 k)) from funext (row88 m ρ c),
    show V13 m ρ c main_arg21 = _ from W13_arg21 m ρ c,
    show V13 m ρ c main_v89 (ix2 (0 : Fin 1) (0 : Fin 1)) = (m ((c : Thread nD τ).loc main_arg22)) (ix1 (0 : Fin 1)) from row89 m ρ c 0]

/-! ## The result -/

theorem result_eq : W17 m ρ c (Proc.devRef .tc main_v109) = val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  tail_eq m ρ c (out5_eq m ρ c) (out6_eq m ρ c)

end Cert.KernelIdeal.Bridge

end
-- ==== Proof.lean ====
/-
  The certificate of the graph network: a three-layer graph convolution with layer normalisation and a dueling head,
  computed by seven launches over blocks of 5000 node rows with the graph aggregation between them on the host,
  against the same network written with whole-array operations.

  At the ideal instance a change of float format is the identity and every sum is exact, so a matrix product taken
  block of rows by block of rows into a zero accumulator is the whole product, and the bias, normalisation and clamp
  of a block of rows are those of the rows in the whole array: entry (p, c) of each launch's output is the reference's
  entry (p, c) of the same layer (Spec.lean states the three per-row formulas once; KMat, KNorm and KAdv read the
  launches' outputs, RDots and RNorm the reference's stages, RefRead being the reference program one operation at a
  time and RefRun its run read back stretch by stretch).  The host stretches between the launches are the
  reference's own operations (KHost), so the kernel program's result buffer ends at the reference's result (Bridge).
  No algebraic law beyond 0 + x = x is used, and the inputs' finiteness is not needed.  The three frames are the
  generated ones (the reference's is its run with the result dropped); nothing was rewritten by the
  idealization, so preserves is trivial.
-/
import proofs.«174969_j8890582303024_1_alg».proof.Defs
import proofs.«174969_j8890582303024_1_alg».proof.Proof.Gen.Kernel
import proofs.«174969_j8890582303024_1_alg».proof.Proof.Gen.Kernel.Frame
import proofs.«174969_j8890582303024_1_alg».proof.Proof.Gen.KernelIdeal
import proofs.«174969_j8890582303024_1_alg».proof.Proof.Gen.KernelIdeal.Frame
import proofs.«174969_j8890582303024_1_alg».proof.Proof.Gen.ReferenceIdeal
import proofs.«174969_j8890582303024_1_alg».proof.Proof.RefRun
import proofs.«174969_j8890582303024_1_alg».proof.Proof.Gen.Pre_finite_inputs
import proofs.«174969_j8890582303024_1_alg».proof.Proof.KRun
import proofs.«174969_j8890582303024_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- Both programs end with the reference's result as a function of the arguments: the kernel program's result buffer
    by the fold through its segments, the reference's by its run; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W17 (F := Ideal) m ρ c (Proc.devRef .tc Cert.KernelIdeal.main_v109),
    Cert.KernelIdeal.KRun.run_named (F := Ideal) m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11, h12, h13, h14, h15, h16, h17, h18, h19, h20, h21, h22⟩ := hagree c
  rw [h0, h1, h2, h3, h4, h5, h6, h7, h8, h9, h10, h11, h12, h13, h14, h15, h16, h17, h18, h19, h20, h21, h22]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
